-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x96 : Shape := ⟨2, ![50000, 96]⟩
abbrev S4x96x256 : Shape := ⟨3, ![4, 96, 256]⟩
abbrev S4x256 : Shape := ⟨2, ![4, 256]⟩
abbrev S1024x256 : Shape := ⟨2, ![1024, 256]⟩
abbrev S256 : Shape := ⟨1, ![256]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S4x96x256 : S_.BroadcastsInDim S4x96x256 (![] : Fin 0 → Fin S4x96x256.rank)
  reducesTo_S4x96x256_S_d0_1_2 : S4x96x256.ReducesTo [0, 1, 2] S_
  bcast_S_S4x256 : S_.BroadcastsInDim S4x256 (![] : Fin 0 → Fin S4x256.rank)
  reducesTo_S4x256_S_d0_1 : S4x256.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : IVec S2x800000 32) (main_arg1 : FVec F S50000x96 .f32) (main_arg2 : FVec F S4x96x256 .f32) (main_arg3 : FVec F S4x256 .f32) (main_arg4 : FVec F S1024x256 .f32) (main_arg5 : FVec F S256 .f32) : IVec S_ 1 :=
  let main_v0 : FVec F S50000x96 .f32 := Host.absf main_arg1
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S4x96x256 .f32 := Host.absf main_arg2
  let main_cst_0 : FVec F S_ .f32 := constant S_ .f32 0x7F800000#32
  let main_v5 : FVec F S4x96x256 .f32 := broadcastInDim S4x96x256 ![] bcast_S_S4x96x256 main_cst_0
  let main_v6 : IVec S4x96x256 1 := cmpf .olt main_v4 main_v5
  let main_c_1 : IVec S_ 1 := constantI S_ 1 1#1
  let main_v7 : IVec S_ 1 := (fun x v => Host.reduce IntOp.andi x v reducesTo_S4x96x256_S_d0_1_2 h_S_) main_v6 main_c_1
  let main_v8 : IVec S_ 1 := andi main_v3 main_v7
  let main_v9 : FVec F S4x256 .f32 := Host.absf main_arg3
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg5 main_v13 main_v16
-- ==== Kernel.lean ====
abbrev S2x800000 : Shape := ⟨2, ![2, 800000]⟩
abbrev S50000x96 : Shape := ⟨2, ![50000, 96]⟩
abbrev S4x96x256 : Shape := ⟨3, ![4, 96, 256]⟩
abbrev S4x256 : Shape := ⟨2, ![4, 256]⟩
abbrev S1024x256 : Shape := ⟨2, ![1024, 256]⟩
abbrev S256 : Shape := ⟨1, ![256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x96 : Shape := ⟨2, ![850000, 96]⟩
abbrev S4x256x256 : Shape := ⟨3, ![4, 256, 256]⟩
abbrev S1x256 : Shape := ⟨2, ![1, 256]⟩
abbrev S50000x256 : Shape := ⟨2, ![50000, 256]⟩
abbrev S2000x96 : Shape := ⟨2, ![2000, 96]⟩
abbrev S2000x256 : Shape := ⟨2, ![2000, 256]⟩
abbrev S1x96x256 : Shape := ⟨3, ![1, 96, 256]⟩
abbrev S96x256 : Shape := ⟨2, ![96, 256]⟩
abbrev S1x256x256 : Shape := ⟨3, ![1, 256, 256]⟩
abbrev S256x256 : Shape := ⟨2, ![256, 256]⟩

abbrev nBuf : Space → Nat
  | .hbm => 117
  | .vmem => 14
  | .smem => 0
  | _ => 0

abbrev bufTy : (tb : Table) → Fin (tcTables nBuf tb) → BufTy
  | .hbm, ⟨0, _⟩ => ⟨S2x800000, .i32⟩
  | .hbm, ⟨1, _⟩ => ⟨S50000x96, .f32⟩
  | .hbm, ⟨2, _⟩ => ⟨S4x96x256, .f32⟩
  | .hbm, ⟨3, _⟩ => ⟨S4x256, .f32⟩
  | .hbm, ⟨4, _⟩ => ⟨S1024x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S800000, .i1⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x96, .f32⟩
  | .hbm, ⟨51, _⟩ => ⟨S_, .f32⟩
  | .hbm, ⟨52, _⟩ => ⟨S50000, .f32⟩
  | .hbm, ⟨53, _⟩ => ⟨S50000x1, .f32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x96, .f32⟩
  | .hbm, ⟨59, _⟩ => ⟨S50000x96, .f32⟩
  | .hbm, ⟨60, _⟩ => ⟨S50000x96, .bf16⟩
  | .hbm, ⟨61, _⟩ => ⟨S850000x1, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x96, .f32⟩
  | .hbm, ⟨71, _⟩ => ⟨S850000x96, .f32⟩
  | .hbm, ⟨72, _⟩ => ⟨S850000x96, .f32⟩
  | .hbm, ⟨73, _⟩ => ⟨S_, .f32⟩
  | .hbm, ⟨74, _⟩ => ⟨S50000x96, .f32⟩
  | .hbm, ⟨75, _⟩ => ⟨S850000x1, .i32⟩
  | .hbm, ⟨76, _⟩ => ⟨S50000x96, .f32⟩
  | .hbm, ⟨77, _⟩ => ⟨S50000x96, .bf16⟩
  | .hbm, ⟨78, _⟩ => ⟨S850000x1, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x96, .f32⟩
  | .hbm, ⟨88, _⟩ => ⟨S850000x96, .f32⟩
  | .hbm, ⟨89, _⟩ => ⟨S850000x96, .f32⟩
  | .hbm, ⟨90, _⟩ => ⟨S_, .f32⟩
  | .hbm, ⟨91, _⟩ => ⟨S50000x96, .f32⟩
  | .hbm, ⟨92, _⟩ => ⟨S850000x1, .i32⟩
  | .hbm, ⟨93, _⟩ => ⟨S50000x96, .f32⟩
  | .hbm, ⟨94, _⟩ => ⟨S50000x96, .bf16⟩
  | .hbm, ⟨95, _⟩ => ⟨S850000x1, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x96, .f32⟩
  | .hbm, ⟨105, _⟩ => ⟨S850000x96, .f32⟩
  | .hbm, ⟨106, _⟩ => ⟨S850000x96, .f32⟩
  | .hbm, ⟨107, _⟩ => ⟨S_, .f32⟩
  | .hbm, ⟨108, _⟩ => ⟨S50000x96, .f32⟩
  | .hbm, ⟨109, _⟩ => ⟨S850000x1, .i32⟩
  | .hbm, ⟨110, _⟩ => ⟨S50000x96, .f32⟩
  | .hbm, ⟨111, _⟩ => ⟨S50000x96, .bf16⟩
  | .hbm, ⟨112, _⟩ => ⟨S4x96x256, .bf16⟩
  | .hbm, ⟨113, _⟩ => ⟨S4x256x256, .f32⟩
  | .hbm, ⟨114, _⟩ => ⟨S4x256x256, .bf16⟩
  | .hbm, ⟨115, _⟩ => ⟨S1x256, .f32⟩
  | .hbm, ⟨116, _⟩ => ⟨S50000x256, .f32⟩
  | .local _ .vmem, ⟨0, _⟩ => ⟨S2000x96, .bf16⟩
  | .local _ .vmem, ⟨1, _⟩ => ⟨S2000x96, .bf16⟩
  | .local _ .vmem, ⟨2, _⟩ => ⟨S2000x96, .bf16⟩
  | .local _ .vmem, ⟨3, _⟩ => ⟨S2000x96, .bf16⟩
  | .local _ .vmem, ⟨4, _⟩ => ⟨S2000x96, .bf16⟩
  | .local _ .vmem, ⟨5, _⟩ => ⟨S2000x96, .bf16⟩
  | .local _ .vmem, ⟨6, _⟩ => ⟨S2000x96, .bf16⟩
  | .local _ .vmem, ⟨7, _⟩ => ⟨S2000x96, .bf16⟩
  | .local _ .vmem, ⟨8, _⟩ => ⟨S4x96x256, .bf16⟩
  | .local _ .vmem, ⟨9, _⟩ => ⟨S4x256, .f32⟩
  | .local _ .vmem, ⟨10, _⟩ => ⟨S4x256x256, .bf16⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x96x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bitsLt_bf16_f32 : FTy.bits .bf16 < FTy.bits .f32
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S1024x256_S4x256x256 : S1024x256.ShapeCasts S4x256x256
  shapeCasts_S256_S1x256 : S256.ShapeCasts S1x256
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S4x96x256_S1x96x256_0_0_0 : ∀ a, (![0, 0, 0] : Fin 3 → Nat) a + S1x96x256.size a ≤ S4x96x256.size a
  h_S1x96x256 : 0 < S1x96x256.numel
  shapeCasts_S1x96x256_S96x256 : S1x96x256.ShapeCasts S96x256
  inb_S4x256_S1x256_0_0 : ∀ a, (![0, 0] : Fin 2 → Nat) a + S1x256.size a ≤ S4x256.size a
  h_S1x256 : 0 < S1x256.numel
  shapeCasts_S1x256_S256 : S1x256.ShapeCasts S256
  broadcasts_S1x256_S2000x256 : S1x256.Broadcasts S2000x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x96x256_S1x96x256_1_0_0 : ∀ a, (![1, 0, 0] : Fin 3 → Nat) a + S1x96x256.size a ≤ S4x96x256.size a
  inb_S4x256_S1x256_1_0 : ∀ a, (![1, 0] : Fin 2 → Nat) a + S1x256.size a ≤ S4x256.size a
  inb_S4x256x256_S1x256x256_1_0_0 : ∀ a, (![1, 0, 0] : Fin 3 → Nat) a + S1x256x256.size a ≤ S4x256x256.size a
  inb_S4x96x256_S1x96x256_2_0_0 : ∀ a, (![2, 0, 0] : Fin 3 → Nat) a + S1x96x256.size a ≤ S4x96x256.size a
  inb_S4x256_S1x256_2_0 : ∀ a, (![2, 0] : Fin 2 → Nat) a + S1x256.size a ≤ S4x256.size a
  inb_S4x256x256_S1x256x256_2_0_0 : ∀ a, (![2, 0, 0] : Fin 3 → Nat) a + S1x256x256.size a ≤ S4x256x256.size a
  inb_S4x96x256_S1x96x256_3_0_0 : ∀ a, (![3, 0, 0] : Fin 3 → Nat) a + S1x96x256.size a ≤ S4x96x256.size a
  inb_S4x256_S1x256_3_0 : ∀ a, (![3, 0] : Fin 2 → Nat) a + S1x256.size a ≤ S4x256.size a
  inb_S4x256x256_S1x256x256_3_0_0 : ∀ a, (![3, 0, 0] : Fin 3 → Nat) a + S1x256x256.size a ≤ S4x256x256.size a
  inb_S1x256_S1x256_0_0 : ∀ a, (![0, 0] : Fin 2 → Nat) a + S1x256.size a ≤ S1x256.size a
  inb_S2000x256_S2000x256_0_0 : ∀ a, (![0, 0] : Fin 2 → Nat) a + S2000x256.size a ≤ S2000x256.size a
  h_S2000x256 : 0 < S2000x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x96_S96x256_S2000x256_1_0_0_1_n_n_wf : DotDims.WF S2000x96 S96x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .bf16 = 32 ∨ (Rect.block (s := S50000x96) S2000x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .bf16 = 32 ∨ (Rect.block (s := S50000x96) S2000x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .bf16 = 32 ∨ (Rect.block (s := S50000x96) S2000x96.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .bf16 = 32 ∨ (Rect.block (s := S50000x96) S2000x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x96x256.size a ≤ S4x96x256.size a
  hwx0_4 : ∀ i : grid0.Coords, EltTy.bits .bf16 = 32 ∨ (Rect.block (s := S4x96x256) S4x96x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x256.size a ≤ S4x256x256.size a
  hwx0_6 : ∀ i : grid0.Coords, EltTy.bits .bf16 = 32 ∨ (Rect.block (s := S4x256x256) S4x256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x96_S96x256_S2000x256_1_0_0_1_n_n : DotDims S2000x96 S96x256 S2000x256 where
  lhsContracting := [1]
  rhsContracting := [0]
  lhsNonContracting := [0]
  rhsNonContracting := [1]
  lhsBatch := []
  rhsBatch := []
  wf := dot_S2000x96_S96x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v39) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S2000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v81) S2000x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v82) S4x96x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v84) S4x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v85) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v86) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x96 : Shape := ⟨2, ![50000, 96]⟩
abbrev S4x96x256 : Shape := ⟨3, ![4, 96, 256]⟩
abbrev S4x256 : Shape := ⟨2, ![4, 256]⟩
abbrev S1024x256 : Shape := ⟨2, ![1024, 256]⟩
abbrev S256 : Shape := ⟨1, ![256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x96 : Shape := ⟨2, ![850000, 96]⟩
abbrev S1x96x256 : Shape := ⟨3, ![1, 96, 256]⟩
abbrev S96x256 : Shape := ⟨2, ![96, 256]⟩
abbrev S50000x256 : Shape := ⟨2, ![50000, 256]⟩
abbrev S1x256 : Shape := ⟨2, ![1, 256]⟩
abbrev S50000x1024 : Shape := ⟨2, ![50000, 1024]⟩

abbrev nBuf : Space → Nat
  | .hbm => 160
  | .vmem => 0
  | .smem => 0
  | _ => 0

abbrev hbmTy0_0 (i : Nat) : BufTy := match i % 128 with
  | 0 => ⟨S2x800000, .i32⟩
  | 1 => ⟨S50000x96, .f32⟩
  | 2 => ⟨S4x96x256, .f32⟩
  | 3 => ⟨S4x256, .f32⟩
  | 4 => ⟨S1024x256, .f32⟩
  | 5 => ⟨S256, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S800000, .i1⟩
  | 14 => ⟨S800000, .f32⟩
  | 15 => ⟨S_, .f32⟩
  | 16 => ⟨S50000, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x96, .f32⟩
  | 51 => ⟨S_, .f32⟩
  | 52 => ⟨S50000, .f32⟩
  | 53 => ⟨S50000x1, .f32⟩
  | 54 => ⟨S50000x1, .f32⟩
  | 55 => ⟨S_, .f32⟩
  | 56 => ⟨S50000x1, .f32⟩
  | 57 => ⟨S50000x1, .f32⟩
  | 58 => ⟨S50000x96, .f32⟩
  | 59 => ⟨S50000x96, .f32⟩
  | 60 => ⟨S850000x1, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x96, .f32⟩
  | 70 => ⟨S850000x96, .f32⟩
  | 71 => ⟨S850000x96, .f32⟩
  | 72 => ⟨S_, .f32⟩
  | 73 => ⟨S50000x96, .f32⟩
  | 74 => ⟨S850000x1, .i32⟩
  | 75 => ⟨S50000x96, .f32⟩
  | 76 => ⟨S850000x1, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x96, .f32⟩
  | 86 => ⟨S850000x96, .f32⟩
  | 87 => ⟨S850000x96, .f32⟩
  | 88 => ⟨S_, .f32⟩
  | 89 => ⟨S50000x96, .f32⟩
  | 90 => ⟨S850000x1, .i32⟩
  | 91 => ⟨S50000x96, .f32⟩
  | 92 => ⟨S850000x1, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x96, .f32⟩
  | 102 => ⟨S850000x96, .f32⟩
  | 103 => ⟨S850000x96, .f32⟩
  | 104 => ⟨S_, .f32⟩
  | 105 => ⟨S50000x96, .f32⟩
  | 106 => ⟨S850000x1, .i32⟩
  | 107 => ⟨S50000x96, .f32⟩
  | 108 => ⟨S1x96x256, .f32⟩
  | 109 => ⟨S96x256, .f32⟩
  | 110 => ⟨S50000x256, .f32⟩
  | 111 => ⟨S1x256, .f32⟩
  | 112 => ⟨S256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S1x96x256, .f32⟩
  | 120 => ⟨S96x256, .f32⟩
  | 121 => ⟨S50000x256, .f32⟩
  | 122 => ⟨S1x256, .f32⟩
  | 123 => ⟨S256, .f32⟩
  | 124 => ⟨S1x256, .f32⟩
  | 125 => ⟨S50000x256, .f32⟩
  | 126 => ⟨S50000x256, .f32⟩
  | 127 => ⟨S_, .f32⟩
  | _ => ⟨S2x800000, .i32⟩

abbrev hbmTy0_1 (i : Nat) : BufTy := match i % 128 with
  | 0 => ⟨S50000x256, .f32⟩
  | 1 => ⟨S50000x256, .f32⟩
  | 2 => ⟨S1x96x256, .f32⟩
  | 3 => ⟨S96x256, .f32⟩
  | 4 => ⟨S50000x256, .f32⟩
  | 5 => ⟨S1x256, .f32⟩
  | 6 => ⟨S256, .f32⟩
  | 7 => ⟨S1x256, .f32⟩
  | 8 => ⟨S50000x256, .f32⟩
  | 9 => ⟨S50000x256, .f32⟩
  | 10 => ⟨S_, .f32⟩
  | 11 => ⟨S50000x256, .f32⟩
  | 12 => ⟨S50000x256, .f32⟩
  | 13 => ⟨S1x96x256, .f32⟩
  | 14 => ⟨S96x256, .f32⟩
  | 15 => ⟨S50000x256, .f32⟩
  | 16 => ⟨S1x256, .f32⟩
  | 17 => ⟨S256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S50000x1024, .f32⟩
  | 25 => ⟨S50000x256, .f32⟩
  | 26 => ⟨S1x256, .f32⟩
  | 27 => ⟨S50000x256, .f32⟩
  | 28 => ⟨S50000x256, .f32⟩
  | 29 => ⟨S_, .f32⟩
  | 30 => ⟨S50000x256, .f32⟩
  | 31 => ⟨S50000x256, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call2_cst : Ref sig .tc := ⟨.hbm, 116, rfl⟩
abbrev main_call2_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call3_cst : Ref sig .tc := ⟨.hbm, 127, rfl⟩
abbrev main_call3_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call4_cst : Ref sig .tc := ⟨.hbm, 138, rfl⟩
abbrev main_call4_v0 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_call5_cst : Ref sig .tc := ⟨.hbm, 149, rfl⟩
abbrev main_call5_v0 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_call6_cst : Ref sig .tc := ⟨.hbm, 157, rfl⟩
abbrev main_call6_v0 : Ref sig .tc := ⟨.hbm, 158, rfl⟩
abbrev main_v119 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  reducesTo_S50000x96_S50000_d1 : S50000x96.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S4x96x256_S1x96x256_0_0_0 : S4x96x256.Slices ![0, 0, 0] S1x96x256
  shapeCasts_S1x96x256_S96x256 : S1x96x256.ShapeCasts S96x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S4x96x256_S1x96x256_1_0_0 : S4x96x256.Slices ![1, 0, 0] S1x96x256
  slices_S4x256_S1x256_1_0 : S4x256.Slices ![1, 0] S1x256
  slices_S4x96x256_S1x96x256_2_0_0 : S4x96x256.Slices ![2, 0, 0] S1x96x256
  slices_S4x256_S1x256_2_0 : S4x256.Slices ![2, 0] S1x256
  slices_S4x96x256_S1x96x256_3_0_0 : S4x96x256.Slices ![3, 0, 0] S1x96x256
  slices_S4x256_S1x256_3_0 : S4x256.Slices ![3, 0] S1x256
  concatenates_S50000x256_S50000x256_S50000x256_S50000x256_S50000x1024_d1 : Shape.Concatenates [S50000x256, S50000x256, S50000x256, S50000x256] S50000x1024 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x256_S50000x256_1_0_0_1_n_n_wf : DotDims.WF S50000x96 S96x256 S50000x256 [1] [0] [0] [1] [] []
  dot_S50000x1024_S1024x256_S50000x256_1_0_0_1_n_n_wf : DotDims.WF S50000x1024 S1024x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf

class Facts : Prop extends Facts₀ where

variable [Facts]
-- ==== Proof.RefStages.lean ====
/-
  The graph stage of the network as named functions of the two inputs it reads — the edge list and the node features —,
  spelt with the reference program's own operations, in its order.

  From the edge list: the source and target node of each of the 850000 entries (the 800000 given edges, then one
  self-loop per node), the weight of each entry (1 where source and target differ, 0 on a given self-edge, 1 on an added
  self-loop), each node's degree (the sum of the weights of the entries leaving it), its inverse square root where the
  degree is positive (else 0), and the normalized weight of each entry (the weight between the two ends' factors).
  From the features: each row divided by the larger of its Euclidean norm and 1e-12. One propagation step gathers each
  entry's target row, scales it by the entry's normalized weight and adds it into the entry's source row; the four hop
  feature arrays are the normalized features and their first three propagations.
-/
import proofs.«146148_j87600152969918_2_alg».proof.Proof.Gen.ReferenceIdeal
import Idealize.ShloMosaic.Lib.Pipeline.Value

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

/-- Row `r` of the edge list (row 0: sources, row 1: targets) as a vector of 800000 node numbers. -/
def edgeRow0 (x0 : (⟨S2x800000, .i32⟩ : BufTy).Contents (Elt F)) : (⟨S800000, .i32⟩ : BufTy).Contents (Elt F) :=
  shapeCast _ (extractStridedSlice S1x800000 ![0, 0] x0 slices_S2x800000_S1x800000_0_0) shapeCasts_S1x800000_S800000
def edgeRow1 (x0 : (⟨S2x800000, .i32⟩ : BufTy).Contents (Elt F)) : (⟨S800000, .i32⟩ : BufTy).Contents (Elt F) :=
  shapeCast _ (extractStridedSlice S1x800000 ![1, 0] x0 slices_S2x800000_S1x800000_1_0) shapeCasts_S1x800000_S800000

/-- The node numbers `0 … 49999`: the self-loops' ends. -/
def nodes : (⟨S50000, .i32⟩ : BufTy).Contents (Elt F) := iotaInDim S50000 32 0

/-- Source node of every entry: the given edges' sources, then every node once. -/
def src (x0 : (⟨S2x800000, .i32⟩ : BufTy).Contents (Elt F)) : (⟨S850000, .i32⟩ : BufTy).Contents (Elt F) :=
  concatenate S850000 0 [⟨S800000, edgeRow0 (F := F) x0⟩, ⟨S50000, nodes (F := F)⟩] concatenates_S800000_S50000_S850000_d0
/-- Target node of every entry. -/
def dst (x0 : (⟨S2x800000, .i32⟩ : BufTy).Contents (Elt F)) : (⟨S850000, .i32⟩ : BufTy).Contents (Elt F) :=
  concatenate S850000 0 [⟨S800000, edgeRow1 (F := F) x0⟩, ⟨S50000, nodes (F := F)⟩] concatenates_S800000_S50000_S850000_d0

/-- Weight of every entry: 1 on a given edge between different nodes, 0 on a given self-edge, 1 on an added self-loop. -/
def wgt (x0 : (⟨S2x800000, .i32⟩ : BufTy).Contents (Elt F)) : (⟨S850000, .f32⟩ : BufTy).Contents (Elt F) :=
  concatenate S850000 0 [⟨S800000, uitofp .f32 (cmpi .ne (edgeRow0 (F := F) x0) (edgeRow1 (F := F) x0))⟩,
    ⟨S50000, broadcastInDim S50000 ![] bcast_S_S50000 (constant S_ .f32 0x3F800000#32)⟩] concatenates_S800000_S50000_S850000_d0

/-- Degree of every node: the weights of the entries leaving it, summed. -/
def deg (x0 : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 (src (F := F) x0)) (wgt (F := F) x0)

/-- `deg^(-1/2)` where the degree is positive, else 0. -/
def dinv (x0 : (⟨S2x800000, .i32⟩ : BufTy).Contents (Elt F)) : (⟨S50000, .f32⟩ : BufTy).Contents (Elt F) :=
  select (cmpf .ogt (deg (F := F) x0) (broadcastInDim S50000 ![] bcast_S_S50000 (constant S_ .f32 0x00000000#32)))
    (Host.rsqrt (deg (F := F) x0)) (broadcastInDim S50000 ![] bcast_S_S50000 (constant S_ .f32 0x00000000#32))

/-- A node number read as an index: a negative one counts from the end. -/
def wrapIdx (e : (⟨S850000, .i32⟩ : BufTy).Contents (Elt F)) : (⟨S850000x1, .i32⟩ : BufTy).Contents (Elt F) :=
  broadcastInDim S850000x1 ![0] bcast_S850000_S850000x1_0
    (select (cmpi .slt e (broadcastInDim S850000 ![] bcast_S_S850000 (constantI S_ 32 0#32)))
      (addi e (broadcastInDim S850000 ![] bcast_S_S850000 (constantI S_ 32 50000#32))) e)

/-- Normalized weight of every entry: the source's factor, the weight, the target's factor. -/
def edgeW (x0 : (⟨S2x800000, .i32⟩ : BufTy).Contents (Elt F)) : (⟨S850000, .f32⟩ : BufTy).Contents (Elt F) :=
  mulf (mulf (Host.gather gather_S50000_S850000x1_S850000_n_0_n_n_0_1_1 (dinv (F := F) x0) (wrapIdx (F := F) (src (F := F) x0))) (wgt (F := F) x0))
    (Host.gather gather_S50000_S850000x1_S850000_n_0_n_n_0_1_1 (dinv (F := F) x0) (wrapIdx (F := F) (dst (F := F) x0)))

/-- Hop 0: every feature row divided by the larger of its Euclidean norm and 1e-12. -/
def feat0 (x1 : (⟨S50000x96, .f32⟩ : BufTy).Contents (Elt F)) : (⟨S50000x96, .f32⟩ : BufTy).Contents (Elt F) :=
  Host.divf x1 (broadcastInDim S50000x96 ![0, 1] bcast_S50000x1_S50000x96_0_1
    (maximumf (Host.sqrt (broadcastInDim S50000x1 ![0] bcast_S50000_S50000x1_0
        (Host.reduceAdd (mulf x1 x1) (constant S_ .f32 0x00000000#32) reducesTo_S50000x96_S50000_d1 h_S_)))
      (broadcastInDim S50000x1 ![] bcast_S_S50000x1 (constant S_ .f32 0x2B8CBCCC#32))))

/-- One propagation step: each entry's target row, scaled by the entry's normalized weight, added into its source row. -/
def propagate (x0 : (⟨S2x800000, .i32⟩ : BufTy).Contents (Elt F)) (h : (⟨S50000x96, .f32⟩ : BufTy).Contents (Elt F)) :
    (⟨S50000x96, .f32⟩ : BufTy).Contents (Elt F) :=
  Host.scatterAdd scatter_S50000x96_S850000x1_S850000x96_1_0_0_1
    (broadcastInDim S50000x96 ![] bcast_S_S50000x96 (constant S_ .f32 0x00000000#32))
    (broadcastInDim S850000x1 ![0] bcast_S850000_S850000x1_0 (src (F := F) x0))
    (mulf (broadcastInDim S850000x96 ![0, 1] bcast_S850000x1_S850000x96_0_1
        (broadcastInDim S850000x1 ![0] bcast_S850000_S850000x1_0 (edgeW (F := F) x0)))
      (Host.gather gather_S50000x96_S850000x1_S850000x96_1_0_n_n_0_1_196 h (wrapIdx (F := F) (dst (F := F) x0))))

/-- Hops 1, 2, 3: the normalized features propagated once, twice, three times. -/
def feat1 (x0 : (⟨S2x800000, .i32⟩ : BufTy).Contents (Elt F)) (x1 : (⟨S50000x96, .f32⟩ : BufTy).Contents (Elt F)) :
    (⟨S50000x96, .f32⟩ : BufTy).Contents (Elt F) := propagate (F := F) x0 (feat0 (F := F) x1)
def feat2 (x0 : (⟨S2x800000, .i32⟩ : BufTy).Contents (Elt F)) (x1 : (⟨S50000x96, .f32⟩ : BufTy).Contents (Elt F)) :
    (⟨S50000x96, .f32⟩ : BufTy).Contents (Elt F) := propagate (F := F) x0 (feat1 (F := F) x0 x1)
def feat3 (x0 : (⟨S2x800000, .i32⟩ : BufTy).Contents (Elt F)) (x1 : (⟨S50000x96, .f32⟩ : BufTy).Contents (Elt F)) :
    (⟨S50000x96, .f32⟩ : BufTy).Contents (Elt F) := propagate (F := F) x0 (feat2 (F := F) x0 x1)

end Cert.RefStages

end
-- ==== Proof.LibAfterAppend.lean ====
/-
  A general fact about a straight line of host operations: running one list of operations and then another leaves
  every buffer holding what running their concatenation leaves. It lets a long line be read stretch by stretch, the
  contents after an earlier stretch standing as a name while a later stretch is computed.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.LibAfterAppend
-- ==== Proof.KernelHostA.lean ====
/-
  The host operations before the kernel's launch, first two stretches. The line of operations is read in three
  stretches — up to the degrees, the three operations that select the inverse square root where the degree is
  positive, and the rest — each over ANY contents of the buffers before it. Here: the arrays as the launch finds them
  are the three stretches run one after the other; after the first stretch the source, target and weight of every
  entry, the test "degree positive", the inverse square roots and the zero are the graph stage's named functions; the
  second stretch selects between the last two and leaves everything else alone.
-/
import proofs.«146148_j87600152969918_2_alg».proof.Proof.Gen.KernelIdeal.Frame
import proofs.«146148_j87600152969918_2_alg».proof.Proof.RefStages
import proofs.«146148_j87600152969918_2_alg».proof.Proof.LibAfterAppend
import Idealize.ShloMosaic.Lib.StableHlo.Run
import Idealize.ShloMosaic.PureOps.Ideal

set_option maxRecDepth 16384

noncomputable section

namespace Cert.KernelHost

open Cert.KernelIdeal Cert.KernelIdeal.Gen Idealize.ShloMosaic Idealize.ShloMosaic.TcCoe Idealize.SL.Sem Idealize.ShloMosaic.StableHlo
open Cert.RefStages

variable (m : (ℓ : Loc nD τ sig) → Buf (Elt Ideal) ℓ) (c : Dev nD)

/-- The operations after the selection of the inverse square roots. -/
abbrev restOps : List (HloOp τ sig (Elt Ideal)) := hostOps0_2 ++ (hostOps0_3 ++ hostOps0_4)

/-- The arrays as the launch finds them: the three stretches one after the other. -/
theorem V_split (b : Ref sig .tc) :
    V m c b = after restOps (after hostOps0_1 (after hostOps0 (fun b => m (c, b)))) (Proc.devRef .tc b) := by
  show after (List.flatten [hostOps0, hostOps0_1, hostOps0_2, hostOps0_3, hostOps0_4]) (fun b => m (c, b)) (Proc.devRef .tc b) = _
  simp only [List.flatten_cons, List.flatten_nil, List.append_nil, Cert.LibAfterAppend.after_append]

/-! ## First stretch: sources, targets, weights, degrees -/

set_option maxHeartbeats 4000000 in
theorem first_src : ((after hostOps0 (fun b => m (c, b))) (Proc.devRef .tc main_v5) : S850000.Idx → BitVec 32) = src (F := Ideal) (m ((c.tc : Thread nD τ).loc main_arg0)) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_dst : ((after hostOps0 (fun b => m (c, b))) (Proc.devRef .tc main_v6) : S850000.Idx → BitVec 32) = dst (F := Ideal) (m ((c.tc : Thread nD τ).loc main_arg0)) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_wgt : ((after hostOps0 (fun b => m (c, b))) (Proc.devRef .tc main_v10) : S850000.Idx → EReal) = wgt (F := Ideal) (m ((c.tc : Thread nD τ).loc main_arg0)) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_pos : ((after hostOps0 (fun b => m (c, b))) (Proc.devRef .tc main_v15) : S50000.Idx → BitVec 1) = cmpf .ogt (deg (F := Ideal) (m ((c.tc : Thread nD τ).loc main_arg0))) (broadcastInDim S50000 ![] bcast_S_S50000 (constant (F := Ideal) S_ .f32 0x00000000#32)) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_rsq : ((after hostOps0 (fun b => m (c, b))) (Proc.devRef .tc main_v16) : S50000.Idx → EReal) = Host.rsqrt (F := Ideal) (φ := .f32) (deg (F := Ideal) (m ((c.tc : Thread nD τ).loc main_arg0))) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_zero : ((after hostOps0 (fun b => m (c, b))) (Proc.devRef .tc main_cst_2) : S_.Idx → EReal) = constant (F := Ideal) S_ .f32 0x00000000#32 := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg1 : (after hostOps0 (fun b => m (c, b))) (Proc.devRef .tc main_arg1) = m ((c.tc : Thread nD τ).loc main_arg1) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg2 : (after hostOps0 (fun b => m (c, b))) (Proc.devRef .tc main_arg2) = m ((c.tc : Thread nD τ).loc main_arg2) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg4 : (after hostOps0 (fun b => m (c, b))) (Proc.devRef .tc main_arg4) = m ((c.tc : Thread nD τ).loc main_arg4) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg5 : (after hostOps0 (fun b => m (c, b))) (Proc.devRef .tc main_arg5) = m ((c.tc : Thread nD τ).loc main_arg5) := by
  simp only [hostOps0]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

/-! ## Second stretch: the inverse square root of the degree where it is positive, else zero -/

variable (X : Valuation τ sig (Elt Ideal))

theorem second_dinv :
    (after hostOps0_1 X (Proc.devRef .tc main_v17) : S50000.Idx → EReal)
      = select (X (Proc.devRef .tc main_v15) : S50000.Idx → BitVec 1) (X (Proc.devRef .tc main_v16) : S50000.Idx → EReal)
          (broadcastInDim S50000 ![] bcast_S_S50000 (X (Proc.devRef .tc main_cst_2) : S_.Idx → EReal)) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

theorem second_main_v5 : after hostOps0_1 X (Proc.devRef .tc main_v5) = X (Proc.devRef .tc main_v5) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_v6 : after hostOps0_1 X (Proc.devRef .tc main_v6) = X (Proc.devRef .tc main_v6) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_v10 : after hostOps0_1 X (Proc.devRef .tc main_v10) = X (Proc.devRef .tc main_v10) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg1 : after hostOps0_1 X (Proc.devRef .tc main_arg1) = X (Proc.devRef .tc main_arg1) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg2 : after hostOps0_1 X (Proc.devRef .tc main_arg2) = X (Proc.devRef .tc main_arg2) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg4 : after hostOps0_1 X (Proc.devRef .tc main_arg4) = X (Proc.devRef .tc main_arg4) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg5 : after hostOps0_1 X (Proc.devRef .tc main_arg5) = X (Proc.devRef .tc main_arg5) := by
  simp only [hostOps0_1]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

/-- A change of float format is the identity on an array of extended reals. -/
theorem truncf_ideal {s : Shape} {φ ψ : FTy} (a : FVec Ideal s φ) (h : ψ.bits < φ.bits) :
    (truncf ψ a h : s.Idx → EReal) = (a : s.Idx → EReal) := rfl

end Cert.KernelHost

end
-- ==== Proof.KernelHostB.lean ====
/-
  The host operations before the kernel's launch, third stretch, the four hop feature arrays: from ANY contents in
  which the entries' sources, targets, weights, the nodes' inverse-square-root factors and the feature argument are the
  graph stage's named functions, the buffers the four feature windows stage end holding the normalized features and
  their first three propagations (the change of float format put on each is the identity on extended reals).
-/
import proofs.«146148_j87600152969918_2_alg».proof.Proof.Gen.KernelIdeal.Frame
import proofs.«146148_j87600152969918_2_alg».proof.Proof.RefStages
import proofs.«146148_j87600152969918_2_alg».proof.Proof.LibAfterAppend
import proofs.«146148_j87600152969918_2_alg».proof.Proof.KernelHostA
import Idealize.ShloMosaic.Lib.StableHlo.Run
import Idealize.ShloMosaic.PureOps.Ideal

set_option maxRecDepth 16384

noncomputable section

namespace Cert.KernelHost

open Cert.KernelIdeal Cert.KernelIdeal.Gen Idealize.ShloMosaic Idealize.ShloMosaic.TcCoe Idealize.SL.Sem Idealize.ShloMosaic.StableHlo
open Cert.RefStages

variable (m : (ℓ : Loc nD τ sig) → Buf (Elt Ideal) ℓ) (c : Dev nD)

variable (X : Valuation τ sig (Elt Ideal))

/-! ## Third stretch: the normalized features, the three propagations, the weights as the windows take them -/

section Rest

variable (x0 : (⟨S2x800000, .i32⟩ : BufTy).Contents (Elt Ideal)) (x1 : (⟨S50000x96, .f32⟩ : BufTy).Contents (Elt Ideal))

set_option maxHeartbeats 4000000 in
theorem rest_feat0 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after restOps X (Proc.devRef .tc main_v39) : S50000x96.Idx → EReal) = feat0 (F := Ideal) x1 := by
  simp only [restOps, hostOps0_2, hostOps0_3, hostOps0_4, List.cons_append, List.nil_append, List.append_nil]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rw [hS]
  try rw [hT]
  try rw [hW]
  try rw [hD]
  try rw [h1]
  rw [truncf_ideal]
  rfl

set_option maxHeartbeats 4000000 in
theorem rest_feat1 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after restOps X (Proc.devRef .tc main_v53) : S50000x96.Idx → EReal) = feat1 (F := Ideal) x0 x1 := by
  simp only [restOps, hostOps0_2, hostOps0_3, hostOps0_4, List.cons_append, List.nil_append, List.append_nil]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rw [hS]
  try rw [hT]
  try rw [hW]
  try rw [hD]
  try rw [h1]
  rw [truncf_ideal]
  rfl

set_option maxHeartbeats 4000000 in
theorem rest_feat2 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after restOps X (Proc.devRef .tc main_v67) : S50000x96.Idx → EReal) = feat2 (F := Ideal) x0 x1 := by
  simp only [restOps, hostOps0_2, hostOps0_3, hostOps0_4, List.cons_append, List.nil_append, List.append_nil]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rw [hS]
  try rw [hT]
  try rw [hW]
  try rw [hD]
  try rw [h1]
  rw [truncf_ideal]
  rfl

set_option maxHeartbeats 4000000 in
theorem rest_feat3 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after restOps X (Proc.devRef .tc main_v81) : S50000x96.Idx → EReal) = feat3 (F := Ideal) x0 x1 := by
  simp only [restOps, hostOps0_2, hostOps0_3, hostOps0_4, List.cons_append, List.nil_append, List.append_nil]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rw [hS]
  try rw [hT]
  try rw [hW]
  try rw [hD]
  try rw [h1]
  rw [truncf_ideal]
  rfl

end Rest

end Cert.KernelHost

end
-- ==== Proof.KernelHost.lean ====
/-
  What the kernel's launch finds in the arrays its windows stage: the host operations before the launch are the
  reference's graph stage, operation for operation, with a change of float format (the identity on extended reals)
  put on each hop's features and on the two weight arrays. So the four feature windows hold the four hop feature
  arrays, the projection weights' window holds `Ws`, the fusion weights' window holds `Wf` with its 1024 rows
  regrouped as 4 × 256, and the bias window holds `bf` as one row.
-/
import proofs.«146148_j87600152969918_2_alg».proof.Proof.Gen.KernelIdeal.Frame
import proofs.«146148_j87600152969918_2_alg».proof.Proof.RefStages
import proofs.«146148_j87600152969918_2_alg».proof.Proof.LibAfterAppend
import proofs.«146148_j87600152969918_2_alg».proof.Proof.KernelHostA
import proofs.«146148_j87600152969918_2_alg».proof.Proof.KernelHostB
import Idealize.ShloMosaic.Lib.StableHlo.Run
import Idealize.ShloMosaic.PureOps.Ideal

set_option maxRecDepth 16384

noncomputable section

namespace Cert.KernelHost

open Cert.KernelIdeal Cert.KernelIdeal.Gen Idealize.ShloMosaic Idealize.ShloMosaic.TcCoe Idealize.SL.Sem Idealize.ShloMosaic.StableHlo
open Cert.RefStages

variable (m : (ℓ : Loc nD τ sig) → Buf (Elt Ideal) ℓ) (c : Dev nD)

variable (X : Valuation τ sig (Elt Ideal))

section Rest

set_option maxHeartbeats 4000000 in
theorem rest_ws : (after restOps X (Proc.devRef .tc main_v82) : S4x96x256.Idx → EReal) = (X (Proc.devRef .tc main_arg2) : S4x96x256.Idx → EReal) := by
  simp only [restOps, hostOps0_2, hostOps0_3, hostOps0_4, List.cons_append, List.nil_append, List.append_nil]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rw [truncf_ideal]
  try rfl

set_option maxHeartbeats 4000000 in
theorem rest_wf : (after restOps X (Proc.devRef .tc main_v84) : S4x256x256.Idx → EReal)
    = shapeCast S4x256x256 (X (Proc.devRef .tc main_arg4) : S1024x256.Idx → EReal) shapeCasts_S1024x256_S4x256x256 := by
  simp only [restOps, hostOps0_2, hostOps0_3, hostOps0_4, List.cons_append, List.nil_append, List.append_nil]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rw [truncf_ideal]
  try rfl

set_option maxHeartbeats 4000000 in
theorem rest_bf : (after restOps X (Proc.devRef .tc main_v85) : S1x256.Idx → EReal)
    = shapeCast S1x256 (X (Proc.devRef .tc main_arg5) : S256.Idx → EReal) shapeCasts_S256_S1x256 := by
  simp only [restOps, hostOps0_2, hostOps0_3, hostOps0_4, List.cons_append, List.nil_append, List.append_nil]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

end Rest

/-! ## The three stretches together -/

theorem w1_src : ((after hostOps0_1 (after hostOps0 (fun b => m (c, b)))) (Proc.devRef .tc main_v5) : S850000.Idx → BitVec 32) = src (F := Ideal) (m ((c.tc : Thread nD τ).loc main_arg0)) :=
  (second_main_v5 _).trans (first_src m c)
theorem w1_dst : ((after hostOps0_1 (after hostOps0 (fun b => m (c, b)))) (Proc.devRef .tc main_v6) : S850000.Idx → BitVec 32) = dst (F := Ideal) (m ((c.tc : Thread nD τ).loc main_arg0)) :=
  (second_main_v6 _).trans (first_dst m c)
theorem w1_wgt : ((after hostOps0_1 (after hostOps0 (fun b => m (c, b)))) (Proc.devRef .tc main_v10) : S850000.Idx → EReal) = wgt (F := Ideal) (m ((c.tc : Thread nD τ).loc main_arg0)) :=
  (second_main_v10 _).trans (first_wgt m c)
theorem w1_dinv : ((after hostOps0_1 (after hostOps0 (fun b => m (c, b)))) (Proc.devRef .tc main_v17) : S50000.Idx → EReal) = dinv (F := Ideal) (m ((c.tc : Thread nD τ).loc main_arg0)) := by
  rw [second_dinv, first_pos, first_rsq, first_zero]
  rfl
theorem w1_arg1 : ((after hostOps0_1 (after hostOps0 (fun b => m (c, b)))) (Proc.devRef .tc main_arg1) : S50000x96.Idx → EReal) = (m ((c.tc : Thread nD τ).loc main_arg1)) :=
  (second_main_arg1 _).trans (first_main_arg1 m c)
theorem w1_arg2 : ((after hostOps0_1 (after hostOps0 (fun b => m (c, b)))) (Proc.devRef .tc main_arg2) : S4x96x256.Idx → EReal) = m ((c.tc : Thread nD τ).loc main_arg2) :=
  (second_main_arg2 _).trans (first_main_arg2 m c)
theorem w1_arg4 : ((after hostOps0_1 (after hostOps0 (fun b => m (c, b)))) (Proc.devRef .tc main_arg4) : S1024x256.Idx → EReal) = m ((c.tc : Thread nD τ).loc main_arg4) :=
  (second_main_arg4 _).trans (first_main_arg4 m c)
theorem w1_arg5 : ((after hostOps0_1 (after hostOps0 (fun b => m (c, b)))) (Proc.devRef .tc main_arg5) : S256.Idx → EReal) = m ((c.tc : Thread nD τ).loc main_arg5) :=
  (second_main_arg5 _).trans (first_main_arg5 m c)

/-- Feature window 0's array: hop 0's features. -/
theorem V_feat0 : (V m c main_v39 : S50000x96.Idx → EReal)
    = feat0 (F := Ideal) (m ((c.tc : Thread nD τ).loc main_arg1)) := by
  rw [V_split]
  exact rest_feat0 _ _ _ (w1_src m c) (w1_dst m c) (w1_wgt m c) (w1_dinv m c) (w1_arg1 m c)

/-- Feature window 1's array: hop 1's features. -/
theorem V_feat1 : (V m c main_v53 : S50000x96.Idx → EReal)
    = feat1 (F := Ideal) (m ((c.tc : Thread nD τ).loc main_arg0)) (m ((c.tc : Thread nD τ).loc main_arg1)) := by
  rw [V_split]
  exact rest_feat1 _ _ _ (w1_src m c) (w1_dst m c) (w1_wgt m c) (w1_dinv m c) (w1_arg1 m c)

/-- Feature window 2's array: hop 2's features. -/
theorem V_feat2 : (V m c main_v67 : S50000x96.Idx → EReal)
    = feat2 (F := Ideal) (m ((c.tc : Thread nD τ).loc main_arg0)) (m ((c.tc : Thread nD τ).loc main_arg1)) := by
  rw [V_split]
  exact rest_feat2 _ _ _ (w1_src m c) (w1_dst m c) (w1_wgt m c) (w1_dinv m c) (w1_arg1 m c)

/-- Feature window 3's array: hop 3's features. -/
theorem V_feat3 : (V m c main_v81 : S50000x96.Idx → EReal)
    = feat3 (F := Ideal) (m ((c.tc : Thread nD τ).loc main_arg0)) (m ((c.tc : Thread nD τ).loc main_arg1)) := by
  rw [V_split]
  exact rest_feat3 _ _ _ (w1_src m c) (w1_dst m c) (w1_wgt m c) (w1_dinv m c) (w1_arg1 m c)

/-- The projection weights' window: `Ws` itself. -/
theorem V_ws : (V m c main_v82 : S4x96x256.Idx → EReal) = m ((c.tc : Thread nD τ).loc main_arg2) := by
  rw [V_split, rest_ws]
  exact w1_arg2 m c

/-- The fusion weights' window: `Wf`'s 1024 rows as 4 groups of 256. -/
theorem V_wf : (V m c main_v84 : S4x256x256.Idx → EReal)
    = shapeCast S4x256x256 (m ((c.tc : Thread nD τ).loc main_arg4) : S1024x256.Idx → EReal) shapeCasts_S1024x256_S4x256x256 := by
  rw [V_split, rest_wf, w1_arg4]

/-- The fusion bias's window: `bf` as one row. -/
theorem V_bf : (V m c main_v85 : S1x256.Idx → EReal)
    = shapeCast S1x256 (m ((c.tc : Thread nD τ).loc main_arg5) : S256.Idx → EReal) shapeCasts_S256_S1x256 := by
  rw [V_split, rest_bf, w1_arg5]

end Cert.KernelHost

end
-- ==== Proof.Spec.lean ====
/-
  The dense stage of the network, as one function of its inputs, and the one law that joins its two spellings.

  For one node with feature rows `f0 … f3` (96 features at each of the four hops), hop `h` has a hidden layer of 256
  units, `hidRow f_h h k = max (∑ l, f_h l · Ws h l k + bs h k) 0`, and output `j` of the node is
  `max (∑ over the 1024 concatenated hidden units u, cat u · Wf u j + bf j) 0`, where unit `256 h + k` of the
  concatenation is unit `k` of hop `h`. A sum over 1024 consecutive positions is the sum of the four sums over its
  consecutive quarters of 256: on the extended reals addition is commutative and associative (with no exception at the
  infinities), so the regrouping holds for every input and no finiteness is used.
-/
import Idealize.ShloMosaic.Lib.ValueIdx
import Idealize.ShloMosaic.PureOps.Ideal

noncomputable section

open scoped BigOperators

namespace Cert.Dense

open Idealize.ShloMosaic Idealize.ShloMosaic.ValueIdx

/-- A sum over `a * b` consecutive positions is the sum, over the `a` consecutive runs of length `b`, of the sums over
    each run. -/
theorem sum_runs {M : Type*} [AddCommMonoid M] (a b : Nat) (f : Fin (a * b) → M) :
    ∑ u, f u = ∑ h : Fin a, ∑ k : Fin b, f ⟨b * h.val + k.val, by
      have h1 := h.isLt; have h2 := k.isLt
      calc b * h.val + k.val < b * h.val + b := by omega
        _ = b * (h.val + 1) := by ring
        _ ≤ b * a := Nat.mul_le_mul_left b h1
        _ = a * b := Nat.mul_comm b a⟩ := by
  rw [← Fintype.sum_prod_type']
  refine (Fintype.sum_equiv finProdFinEquiv _ _ fun p => ?_).symm
  refine congrArg f (Fin.ext ?_)
  show b * p.1.val + p.2.val = p.2.val + b * p.1.val
  omega

/-- Hidden unit `k` of hop `h` for one node, from the node's 96 features at that hop: the rectified affine image. -/
def hidRow (feat : Fin 96 → EReal) (Ws : (⟨3, ![4, 96, 256]⟩ : Shape).Idx → EReal)
    (bs : (⟨2, ![4, 256]⟩ : Shape).Idx → EReal) (h : Fin 4) (k : Fin 256) : EReal :=
  max ((∑ l : Fin 96, feat l * Ws (ix3 h l k)) + bs (ix2 h k)) 0

/-- What hop `h`'s hidden layer adds to output `j` of the node through the hop's 256 rows `wf h` of the fusion weights. -/
def partRow (feat : Fin 96 → EReal) (Ws : (⟨3, ![4, 96, 256]⟩ : Shape).Idx → EReal)
    (bs : (⟨2, ![4, 256]⟩ : Shape).Idx → EReal) (wf : Fin 4 → Fin 256 → Fin 256 → EReal) (h : Fin 4) (j : Fin 256) : EReal :=
  ∑ k : Fin 256, hidRow feat Ws bs h k * wf h k j

/-- Output `j` of one node: the four hops' parts, the fusion bias `b`, rectified. -/
def outRow (f0 f1 f2 f3 : Fin 96 → EReal) (Ws : (⟨3, ![4, 96, 256]⟩ : Shape).Idx → EReal)
    (bs : (⟨2, ![4, 256]⟩ : Shape).Idx → EReal) (wf : Fin 4 → Fin 256 → Fin 256 → EReal) (b : EReal) (j : Fin 256) : EReal :=
  max ((partRow f0 Ws bs wf 0 j + partRow f1 Ws bs wf 1 j + partRow f2 Ws bs wf 2 j + partRow f3 Ws bs wf 3 j) + b) 0

/-- Row `256 h + k` of the fusion weights: unit `k` of hop `h` in the concatenation of the four hidden layers. -/
def wfRow (h : Fin 4) (k : Fin 256) : Fin 1024 := ⟨256 * h.val + k.val, by have := h.isLt; have := k.isLt; omega⟩

/-- The fused output array: entry `(n, j)` is output `j` of node `n`, from row `n` of each hop's feature array. -/
def out (H0 H1 H2 H3 : (⟨2, ![50000, 96]⟩ : Shape).Idx → EReal) (Ws : (⟨3, ![4, 96, 256]⟩ : Shape).Idx → EReal)
    (bs : (⟨2, ![4, 256]⟩ : Shape).Idx → EReal) (Wf : (⟨2, ![1024, 256]⟩ : Shape).Idx → EReal)
    (bf : (⟨1, ![256]⟩ : Shape).Idx → EReal) : (⟨2, ![50000, 256]⟩ : Shape).Idx → EReal := fun i =>
  outRow (fun l => H0 (ix2 (i 0) l)) (fun l => H1 (ix2 (i 0) l)) (fun l => H2 (ix2 (i 0) l)) (fun l => H3 (ix2 (i 0) l))
    Ws bs (fun h k j => Wf (ix2 (wfRow h k) j)) (bf (ix1 (i 1))) (i 1)

/-- A sum over the 1024 rows of the fusion weights, taken quarter by quarter. -/
theorem sum_quarters (f : Fin 1024 → EReal) :
    ∑ u, f u = (∑ k : Fin 256, f (wfRow 0 k)) + (∑ k : Fin 256, f (wfRow 1 k)) + (∑ k : Fin 256, f (wfRow 2 k))
      + (∑ k : Fin 256, f (wfRow 3 k)) := by
  rw [sum_runs 4 256 f, Fin.sum_univ_four]
  rfl

end Cert.Dense

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KernelPayload.lean ====
/-
  What one launch of the kernel body leaves in its output block, entry by entry.

  The body takes a block of 2000 rows of each hop's features, the whole weight arrays and the bias row. Per hop it
  multiplies the feature rows by the hop's 96 × 256 projection, adds the hop's bias row, rectifies, and multiplies the
  result by the hop's 256 × 256 block of the fusion weights; it adds the four products to a zero accumulator in hop order,
  adds the fusion bias row and rectifies. Each matrix product is accumulated into the zero splat, so an entry of it is
  the plain inner product of a row with a column; the changes of float format are the identity on extended reals; the
  zero accumulator contributes `0 +`. Entry `(r, j)` of the block is therefore `Cert.Dense.outRow` of row `r` of the
  four feature blocks.
-/
import proofs.«146148_j87600152969918_2_alg».proof.Proof.Gen.KernelIdeal.Frame
import proofs.«146148_j87600152969918_2_alg».proof.Proof.Spec
import proofs.«146148_j87600152969918_2_alg».proof.Proof.LibMatmulPlain
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelPayload

open Cert.KernelIdeal Cert.KernelIdeal.Gen Idealize.ShloMosaic Idealize.ShloMosaic.ValueIdx

/-- The zero the body splats is the real number zero. -/
theorem zero_word : Scalar.ofBits (F := Ideal) .f32 0x00000000#32 = (0 : EReal) := Ideal.ofBits_zero_f32

/-- A hop's hidden layer on a block of rows: the feature block times the hop's projection (read off a one-hop slab of
    the projection array), plus the hop's bias row, rectified; entry `(r, k)`. -/
theorem hidden_apply (f : FVec Ideal S2000x96 .bf16) (w : FVec Ideal S1x96x256 .bf16) (b : FVec Ideal S1x256 .f32)
    (r : Fin 2000) (k : Fin 256) :
    maximumf (addf (matmul dot_S2000x96_S96x256_S2000x256_1_0_0_1_n_n none (shapeCast S2000x96 f shapeCasts_S2000x96_S2000x96)
          (shapeCast S96x256 w shapeCasts_S1x96x256_S96x256) (constant (F := Ideal) S2000x256 .f32 0x00000000#32))
        (broadcastTo S2000x256 (shapeCast S1x256 (shapeCast S256 b shapeCasts_S1x256_S256) shapeCasts_S256_S1x256)
          broadcasts_S1x256_S2000x256))
      (broadcast S2000x256 (Scalar.ofBits (F := Ideal) .f32 0x00000000#32)) (ix2 r k)
    = max ((∑ l : Fin 96, (f (ix2 r l) : EReal) * (w (ix3 (0 : Fin 1) l k) : EReal)) + (b (ix2 (0 : Fin 1) k) : EReal)) 0 := by
  have hm : matmul dot_S2000x96_S96x256_S2000x256_1_0_0_1_n_n none (shapeCast S2000x96 f shapeCasts_S2000x96_S2000x96)
      (shapeCast S96x256 w shapeCasts_S1x96x256_S96x256) (constant (F := Ideal) S2000x256 .f32 0x00000000#32) (ix2 r k)
      = ∑ l : Fin 96, (shapeCast S2000x96 f shapeCasts_S2000x96_S2000x96) (ix2 r l)
          * (shapeCast S96x256 w shapeCasts_S1x96x256_S96x256) (ix2 l k) :=
    Cert.LibMatmulPlain.matmul_plain_zero_apply none _ _ r k
  have hb : broadcastTo S2000x256 (shapeCast S1x256 (shapeCast S256 b shapeCasts_S1x256_S256) shapeCasts_S256_S1x256)
      broadcasts_S1x256_S2000x256 (ix2 r k) = b (ix2 (0 : Fin 1) k) := by
    rw [broadcastTo_1b_ab_apply, shapeCast_a_1a_apply, shapeCast_1a_a_apply]
  rw [maximumf_apply, addf_apply, broadcast_apply, hb, zero_word, hm]
  refine congrArg (fun s : EReal => max (s + (b (ix2 (0 : Fin 1) k) : EReal)) 0) (Finset.sum_congr rfl fun l _ => ?_)
  rw [shapeCast_self, shapeCast_1ab_ab_apply]

/-- A hidden block times a hop's 256 × 256 slab of the fusion weights, entry `(r, j)`. -/
theorem fuse_apply (a : FVec Ideal S2000x256 .bf16) (w : FVec Ideal S1x256x256 .bf16) (r : Fin 2000) (j : Fin 256) :
    matmul dot_S2000x256_S256x256_S2000x256_1_0_0_1_n_n none a (shapeCast S256x256 w shapeCasts_S1x256x256_S256x256)
      (constant (F := Ideal) S2000x256 .f32 0x00000000#32) (ix2 r j)
    = ∑ k : Fin 256, a (ix2 r k) * w (ix3 (0 : Fin 1) k j) := by
  have hm : matmul dot_S2000x256_S256x256_S2000x256_1_0_0_1_n_n none a (shapeCast S256x256 w shapeCasts_S1x256x256_S256x256)
      (constant (F := Ideal) S2000x256 .f32 0x00000000#32) (ix2 r j)
      = ∑ k : Fin 256, a (ix2 r k) * (shapeCast S256x256 w shapeCasts_S1x256x256_S256x256) (ix2 k j) :=
    Cert.LibMatmulPlain.matmul_plain_zero_apply none _ _ r j
  rw [hm]
  refine Finset.sum_congr rfl fun k _ => ?_
  rw [shapeCast_1ab_ab_apply]

/-- A hidden block times a 256 × 256 matrix, entry `(r, j)`. -/
theorem fuse2_apply (a : FVec Ideal S2000x256 .bf16) (w : FVec Ideal S256x256 .bf16) (r : Fin 2000) (j : Fin 256) :
    matmul dot_S2000x256_S256x256_S2000x256_1_0_0_1_n_n none a w (constant (F := Ideal) S2000x256 .f32 0x00000000#32) (ix2 r j)
    = ∑ k : Fin 256, a (ix2 r k) * w (ix2 k j) :=
  Cert.LibMatmulPlain.matmul_plain_zero_apply none _ _ r j

/-! ## The body's named values, entry by entry -/

/-- Hop 1's hidden block (after the change of format, the identity). -/
theorem pay3_apply (v18 : FVec Ideal S2000x96 .bf16) (v20 : FVec Ideal S1x96x256 .bf16) (v22 : FVec Ideal S1x256 .f32)
    (r : Fin 2000) (k : Fin 256) :
    (k0_pay3 (F := Ideal) v18 v20 v22 (ix2 r k) : EReal) = max ((∑ l : Fin 96, (v18 (ix2 r l) : EReal) * (v20 (ix3 (0 : Fin 1) l k) : EReal)) + (v22 (ix2 (0 : Fin 1) k) : EReal)) 0 :=
  hidden_apply v18 v20 v22 r k

/-- Hop 3's hidden block. -/
theorem pay6_apply (v52 : FVec Ideal S2000x96 .bf16) (v54 : FVec Ideal S1x96x256 .bf16) (v56 : FVec Ideal S1x256 .f32)
    (r : Fin 2000) (k : Fin 256) :
    (k0_pay6 (F := Ideal) v52 v54 v56 (ix2 r k) : EReal) = max ((∑ l : Fin 96, (v52 (ix2 r l) : EReal) * (v54 (ix3 (0 : Fin 1) l k) : EReal)) + (v56 (ix2 (0 : Fin 1) k) : EReal)) 0 :=
  hidden_apply v52 v54 v56 r k

/-- Hop 1's slab of the fusion weights as a matrix. -/
theorem pay4_apply (v31 : FVec Ideal S1x256x256 .bf16) (k j : Fin 256) : (k0_pay4 (F := Ideal) v31 (ix2 k j) : EReal) = v31 (ix3 (0 : Fin 1) k j) :=
  shapeCast_1ab_ab_apply v31 shapeCasts_S1x256x256_S256x256 k j

/-- Hop 3's slab of the fusion weights as a matrix. -/
theorem pay7_apply (v65 : FVec Ideal S1x256x256 .bf16) (k j : Fin 256) : (k0_pay7 (F := Ideal) v65 (ix2 k j) : EReal) = v65 (ix3 (0 : Fin 1) k j) :=
  shapeCast_1ab_ab_apply v65 shapeCasts_S1x256x256_S256x256 k j

/-- The accumulator after hop 0: zero plus hop 0's product. -/
theorem pay2_apply (v1 : FVec Ideal S2000x96 .bf16) (v3 : FVec Ideal S1x96x256 .bf16) (v5 : FVec Ideal S1x256 .f32)
    (v14 : FVec Ideal S1x256x256 .bf16) (r : Fin 2000) (j : Fin 256) :
    (k0_pay2 (F := Ideal) v1 v3 v5 v14 (ix2 r j) : EReal)
      = 0 + ∑ k : Fin 256, (max ((∑ l : Fin 96, (v1 (ix2 r l) : EReal) * (v3 (ix3 (0 : Fin 1) l k) : EReal)) + (v5 (ix2 (0 : Fin 1) k) : EReal)) 0) * (v14 (ix3 (0 : Fin 1) k j) : EReal) := by
  unfold k0_pay2
  rw [addf_apply, broadcast_apply, fuse_apply]
  refine congrArg₂ (fun a s : EReal => a + s) zero_word (Finset.sum_congr rfl fun k _ => ?_)
  exact congrArg (fun s : EReal => s * (v14 (ix3 (0 : Fin 1) k j) : EReal)) (hidden_apply v1 v3 v5 r k)

/-- The accumulator after hops 1 and 2. -/
theorem pay5_apply (v17 : FVec Ideal S2000x256 .f32) (v30 : FVec Ideal S2000x256 .bf16) (v32 : FVec Ideal S256x256 .bf16)
    (v35 : FVec Ideal S2000x96 .bf16) (v37 : FVec Ideal S1x96x256 .bf16) (v39 : FVec Ideal S1x256 .f32)
    (v48 : FVec Ideal S1x256x256 .bf16) (r : Fin 2000) (j : Fin 256) :
    (k0_pay5 (F := Ideal) v17 v30 v32 v35 v37 v39 v48 (ix2 r j) : EReal)
      = ((v17 (ix2 r j) : EReal) + ∑ k : Fin 256, (v30 (ix2 r k) : EReal) * (v32 (ix2 k j) : EReal))
        + ∑ k : Fin 256, (max ((∑ l : Fin 96, (v35 (ix2 r l) : EReal) * (v37 (ix3 (0 : Fin 1) l k) : EReal)) + (v39 (ix2 (0 : Fin 1) k) : EReal)) 0) * (v48 (ix3 (0 : Fin 1) k j) : EReal) := by
  unfold k0_pay5
  rw [addf_apply, addf_apply, fuse2_apply, fuse_apply]
  refine congrArg (fun s : EReal => ((v17 (ix2 r j) : EReal) + ∑ k : Fin 256, (v30 (ix2 r k) : EReal) * (v32 (ix2 k j) : EReal)) + s) (Finset.sum_congr rfl fun k _ => ?_)
  exact congrArg (fun s : EReal => s * (v48 (ix3 (0 : Fin 1) k j) : EReal)) (hidden_apply v35 v37 v39 r k)

/-- The stored block: the accumulator after hop 3, plus the fusion bias row, rectified. -/
theorem pay1_apply (v51 : FVec Ideal S2000x256 .f32) (v64 : FVec Ideal S2000x256 .bf16) (v66 : FVec Ideal S256x256 .bf16)
    (v69 : FVec Ideal S1x256 .f32) (r : Fin 2000) (j : Fin 256) :
    (k0_pay1 (F := Ideal) v51 v64 v66 v69 (ix2 r j) : EReal)
      = max ((((v51 (ix2 r j) : EReal) + ∑ k : Fin 256, (v64 (ix2 r k) : EReal) * (v66 (ix2 k j) : EReal))) + (v69 (ix2 (0 : Fin 1) j) : EReal)) 0 := by
  unfold k0_pay1
  rw [maximumf_apply, addf_apply, addf_apply, broadcast_apply, zero_word, fuse2_apply, broadcastTo_1b_ab_apply,
    shapeCast_a_1a_apply, shapeCast_1a_a_apply]

/-! ## The body's loads: a one-hop slab of each weight array -/

theorem hz2 : (![0, 0] : Fin 2 → Nat) = fun _ => 0 := funext fun a => by fin_cases a <;> rfl

/-- Slab `h` of a three-axis array, kept as a three-axis array with a leading axis of extent one. -/
def slab3 {a b c : Nat} {α : Type} (x : (⟨3, ![a, b, c]⟩ : Shape).Idx → α) (h : Fin a) : (⟨3, ![1, b, c]⟩ : Shape).Idx → α :=
  fun y => x (ix3 h (y 1) (y 2))

/-- Row `h` of a two-axis array, kept as a one-row array. -/
def slab2 {a b : Nat} {α : Type} (x : (⟨2, ![a, b]⟩ : Shape).Idx → α) (h : Fin a) : (⟨2, ![1, b]⟩ : Shape).Idx → α :=
  fun y => x (ix2 h (y 1))

theorem ld_ws0 (x : Vec Ideal S4x96x256 .bf16) :
    View.ld (Val := Elt Ideal) (e' := .bf16) x r0_1 = slab3 x (0 : Fin 4) := by
  funext y
  show x _ = x _
  congr 1; funext a; apply Fin.ext
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_ws1 (x : Vec Ideal S4x96x256 .bf16) :
    View.ld (Val := Elt Ideal) (e' := .bf16) x r0_4 = slab3 x (1 : Fin 4) := by
  funext y
  show x _ = x _
  congr 1; funext a; apply Fin.ext
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld_ws2 (x : Vec Ideal S4x96x256 .bf16) :
    View.ld (Val := Elt Ideal) (e' := .bf16) x r0_7 = slab3 x (2 : Fin 4) := by
  funext y
  show x _ = x _
  congr 1; funext a; apply Fin.ext
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld_ws3 (x : Vec Ideal S4x96x256 .bf16) :
    View.ld (Val := Elt Ideal) (e' := .bf16) x r0_10 = slab3 x (3 : Fin 4) := by
  funext y
  show x _ = x _
  congr 1; funext a; apply Fin.ext
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld_bs0 (x : Vec Ideal S4x256 .f32) :
    View.ld (Val := Elt Ideal) (e' := .f32) x r0_2 = slab2 x (0 : Fin 4) := by
  funext y
  show x _ = x _
  congr 1; funext a; apply Fin.ext
  have h0 : (y 0).val < 1 := (y 0).isLt
  match a with
  | ⟨0, _⟩ => show 0 + 1 * (y 0).val = 0; omega
  | ⟨1, _⟩ => show 0 + 1 * (y 1).val = (y 1).val; omega
theorem ld_bs1 (x : Vec Ideal S4x256 .f32) :
    View.ld (Val := Elt Ideal) (e' := .f32) x r0_5 = slab2 x (1 : Fin 4) := by
  funext y
  show x _ = x _
  congr 1; funext a; apply Fin.ext
  have h0 : (y 0).val < 1 := (y 0).isLt
  match a with
  | ⟨0, _⟩ => show 1 + 1 * (y 0).val = 1; omega
  | ⟨1, _⟩ => show 0 + 1 * (y 1).val = (y 1).val; omega
theorem ld_bs2 (x : Vec Ideal S4x256 .f32) :
    View.ld (Val := Elt Ideal) (e' := .f32) x r0_8 = slab2 x (2 : Fin 4) := by
  funext y
  show x _ = x _
  congr 1; funext a; apply Fin.ext
  have h0 : (y 0).val < 1 := (y 0).isLt
  match a with
  | ⟨0, _⟩ => show 2 + 1 * (y 0).val = 2; omega
  | ⟨1, _⟩ => show 0 + 1 * (y 1).val = (y 1).val; omega
theorem ld_bs3 (x : Vec Ideal S4x256 .f32) :
    View.ld (Val := Elt Ideal) (e' := .f32) x r0_11 = slab2 x (3 : Fin 4) := by
  funext y
  show x _ = x _
  congr 1; funext a; apply Fin.ext
  have h0 : (y 0).val < 1 := (y 0).isLt
  match a with
  | ⟨0, _⟩ => show 3 + 1 * (y 0).val = 3; omega
  | ⟨1, _⟩ => show 0 + 1 * (y 1).val = (y 1).val; omega
theorem ld_wf0 (x : Vec Ideal S4x256x256 .bf16) :
    View.ld (Val := Elt Ideal) (e' := .bf16) x r0_3 = slab3 x (0 : Fin 4) := by
  funext y
  show x _ = x _
  congr 1; funext a; apply Fin.ext
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_wf1 (x : Vec Ideal S4x256x256 .bf16) :
    View.ld (Val := Elt Ideal) (e' := .bf16) x r0_6 = slab3 x (1 : Fin 4) := by
  funext y
  show x _ = x _
  congr 1; funext a; apply Fin.ext
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld_wf2 (x : Vec Ideal S4x256x256 .bf16) :
    View.ld (Val := Elt Ideal) (e' := .bf16) x r0_9 = slab3 x (2 : Fin 4) := by
  funext y
  show x _ = x _
  congr 1; funext a; apply Fin.ext
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld_wf3 (x : Vec Ideal S4x256x256 .bf16) :
    View.ld (Val := Elt Ideal) (e' := .bf16) x r0_12 = slab3 x (3 : Fin 4) := by
  funext y
  show x _ = x _
  congr 1; funext a; apply Fin.ext
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega

/-! ## The output block -/

/-- Entry `(r, j)` of what the body leaves in its output block: the dense stage's output `j` for the node whose
    features are row `r` of the four feature blocks. -/
theorem block_apply (x0 x1 x2 x3 : Vec Ideal S2000x96 .bf16) (x4 : Vec Ideal S4x96x256 .bf16) (x5 : Vec Ideal S4x256 .f32)
    (x6 : Vec Ideal S4x256x256 .bf16) (x7 : Vec Ideal S1x256 .f32) (r : Fin 2000) (j : Fin 256) :
    (out0_8 (F := Ideal) x0 x1 x2 x3 x4 x5 x6 x7 (ix2 r j) : EReal)
      = Cert.Dense.outRow (fun l => x0 (ix2 r l)) (fun l => x1 (ix2 r l)) (fun l => x2 (ix2 r l)) (fun l => x3 (ix2 r l))
          x4 x5 (fun h k j => x6 (ix3 h k j)) (x7 (ix2 (0 : Fin 1) j)) j := by
  unfold out0_8
  rw [View.canon_unit_zero hz2]
  simp only [View.ld_unit_zero (S := S2000x96) hz2, View.ld_unit_zero (S := S1x256) hz2, ld_ws0, ld_ws1, ld_ws2, ld_ws3,
    ld_bs0, ld_bs1, ld_bs2, ld_bs3, ld_wf0, ld_wf1, ld_wf2, ld_wf3]
  rw [pay1_apply, pay5_apply, pay2_apply]
  simp only [pay3_apply, pay6_apply, pay4_apply, pay7_apply]
  unfold Cert.Dense.outRow Cert.Dense.partRow Cert.Dense.hidRow
  rw [zero_add]
  rfl

end Cert.KernelPayload

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.KernelValueA.lean ====
/-
  The kernel's grid and windows in closed form. The grid has 25 points; at point `t` each feature window and the
  output window are on their block `t` of 2000 rows, so entry `(r, ·)` of the block is entry `(2000 t + r, ·)` of the
  array; the weight and bias windows are on their one block, the whole array. Also named here: the output array as ONE
  function of the six arguments.
-/
import proofs.«146148_j87600152969918_2_alg».proof.Proof.Gen.KernelIdeal.Value
import proofs.«146148_j87600152969918_2_alg».proof.Proof.KernelHost
import proofs.«146148_j87600152969918_2_alg».proof.Proof.KernelPayload
import proofs.«146148_j87600152969918_2_alg».proof.Proof.LibFlatten
import proofs.«146148_j87600152969918_2_alg».proof.Proof.Spec
import Idealize.ShloMosaic.Lib.ValueLayout
import Idealize.ShloMosaic.Lib.ValueIdx
import Idealize.ShloMosaic.Lib.Pipeline.Value

set_option maxRecDepth 16384

noncomputable section

namespace Cert.KernelValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output array as one function of the six arguments: the dense stage applied to the graph stage's four hop
    feature arrays. -/
def result (c : Dev nD) : S50000x256.Idx → EReal :=
  Cert.Dense.out (Cert.RefStages.feat0 (F := Ideal) (m ((c.tc : Thread nD τ).loc main_arg1)))
    (Cert.RefStages.feat1 (F := Ideal) (m ((c.tc : Thread nD τ).loc main_arg0)) (m ((c.tc : Thread nD τ).loc main_arg1)))
    (Cert.RefStages.feat2 (F := Ideal) (m ((c.tc : Thread nD τ).loc main_arg0)) (m ((c.tc : Thread nD τ).loc main_arg1)))
    (Cert.RefStages.feat3 (F := Ideal) (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4)) (m ((c.tc : Thread nD τ).loc main_arg5))

/-- The printed index maps over the 25 grid points: the four feature windows and the output move one block of rows per
    point; the weight and bias windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- There are 25 grid points. -/
theorem point_lt (t : Fin cfg0.N) : t.val < 25 := by
  have h := t.isLt
  have hN : grid0.N = 25 := N_0
  exact hN ▸ h

/-- The node whose row is row `r` of point `t`'s blocks. -/
def nodeOf (t : Fin cfg0.N) (r : Fin 2000) : Fin 50000 :=
  ⟨2000 * t.val + r.val, by have := point_lt t; have := r.isLt; omega⟩

/-- Row `r` of feature window 0's block at point `t` is row `2000 t + r` of its array. -/
theorem emb_feat0 (t : Fin cfg0.N) (r : Fin 2000) (l : Fin 96) :
    (((cfg0.win 0).blk t).view.emb (ix2 r l) : S50000x96.Idx) = ix2 (nodeOf t r) l := by
  obtain ⟨f00, f01, f10, f11, f20, f21, f30, f31, -⟩ := idx_facts t
  funext a; apply Fin.ext
  match a with
  | ⟨0, _⟩ => show win0_0.index t (0 : Fin 2) * 2000 + 1 * r.val = 2000 * t.val + r.val; omega
  | ⟨1, _⟩ => show win0_0.index t (1 : Fin 2) * 96 + 1 * l.val = l.val; omega

/-- Row `r` of feature window 1's block at point `t` is row `2000 t + r` of its array. -/
theorem emb_feat1 (t : Fin cfg0.N) (r : Fin 2000) (l : Fin 96) :
    (((cfg0.win 1).blk t).view.emb (ix2 r l) : S50000x96.Idx) = ix2 (nodeOf t r) l := by
  obtain ⟨f00, f01, f10, f11, f20, f21, f30, f31, -⟩ := idx_facts t
  funext a; apply Fin.ext
  match a with
  | ⟨0, _⟩ => show win0_1.index t (0 : Fin 2) * 2000 + 1 * r.val = 2000 * t.val + r.val; omega
  | ⟨1, _⟩ => show win0_1.index t (1 : Fin 2) * 96 + 1 * l.val = l.val; omega

/-- Row `r` of feature window 2's block at point `t` is row `2000 t + r` of its array. -/
theorem emb_feat2 (t : Fin cfg0.N) (r : Fin 2000) (l : Fin 96) :
    (((cfg0.win 2).blk t).view.emb (ix2 r l) : S50000x96.Idx) = ix2 (nodeOf t r) l := by
  obtain ⟨f00, f01, f10, f11, f20, f21, f30, f31, -⟩ := idx_facts t
  funext a; apply Fin.ext
  match a with
  | ⟨0, _⟩ => show win0_2.index t (0 : Fin 2) * 2000 + 1 * r.val = 2000 * t.val + r.val; omega
  | ⟨1, _⟩ => show win0_2.index t (1 : Fin 2) * 96 + 1 * l.val = l.val; omega

/-- Row `r` of feature window 3's block at point `t` is row `2000 t + r` of its array. -/
theorem emb_feat3 (t : Fin cfg0.N) (r : Fin 2000) (l : Fin 96) :
    (((cfg0.win 3).blk t).view.emb (ix2 r l) : S50000x96.Idx) = ix2 (nodeOf t r) l := by
  obtain ⟨f00, f01, f10, f11, f20, f21, f30, f31, -⟩ := idx_facts t
  funext a; apply Fin.ext
  match a with
  | ⟨0, _⟩ => show win0_3.index t (0 : Fin 2) * 2000 + 1 * r.val = 2000 * t.val + r.val; omega
  | ⟨1, _⟩ => show win0_3.index t (1 : Fin 2) * 96 + 1 * l.val = l.val; omega

/-- Entry `(r, j)` of the output window's block at point `t` is entry `(2000 t + r, j)` of the output array. -/
theorem emb_out (t : Fin cfg0.N) (r : Fin 2000) (j : Fin 256) :
    (((cfg0.win 8).blk t).view.emb (ix2 r j) : S50000x256.Idx) = ix2 (nodeOf t r) j := by
  obtain ⟨-, -, -, -, -, -, -, -, -, -, -, -, -, -, -, -, -, -, f80, f81⟩ := idx_facts t
  funext a; apply Fin.ext
  match a with
  | ⟨0, _⟩ => show win0_8.index t (0 : Fin 2) * 2000 + 1 * r.val = 2000 * t.val + r.val; omega
  | ⟨1, _⟩ => show win0_8.index t (1 : Fin 2) * 256 + 1 * j.val = j.val; omega

/-- The weight and bias windows' one block is their whole array. -/
theorem emb_ws (t : Fin cfg0.N) (y : S4x96x256.Idx) : (((cfg0.win 4).blk t).view.emb y : S4x96x256.Idx) = y := by
  obtain ⟨-, -, -, -, -, -, -, -, f0, f1, f2, -⟩ := idx_facts t
  funext a; apply Fin.ext
  match a with
  | ⟨0, _⟩ => show win0_4.index t (0 : Fin 3) * 4 + 1 * (y 0).val = (y 0).val; omega
  | ⟨1, _⟩ => show win0_4.index t (1 : Fin 3) * 96 + 1 * (y 1).val = (y 1).val; omega
  | ⟨2, _⟩ => show win0_4.index t (2 : Fin 3) * 256 + 1 * (y 2).val = (y 2).val; omega

theorem emb_bs (t : Fin cfg0.N) (y : S4x256.Idx) : (((cfg0.win 5).blk t).view.emb y : S4x256.Idx) = y := by
  obtain ⟨-, -, -, -, -, -, -, -, -, -, -, f0, f1, -⟩ := idx_facts t
  funext a; apply Fin.ext
  match a with
  | ⟨0, _⟩ => show win0_5.index t (0 : Fin 2) * 4 + 1 * (y 0).val = (y 0).val; omega
  | ⟨1, _⟩ => show win0_5.index t (1 : Fin 2) * 256 + 1 * (y 1).val = (y 1).val; omega

theorem emb_wf (t : Fin cfg0.N) (y : S4x256x256.Idx) : (((cfg0.win 6).blk t).view.emb y : S4x256x256.Idx) = y := by
  obtain ⟨-, -, -, -, -, -, -, -, -, -, -, -, -, f0, f1, f2, -⟩ := idx_facts t
  funext a; apply Fin.ext
  match a with
  | ⟨0, _⟩ => show win0_6.index t (0 : Fin 3) * 4 + 1 * (y 0).val = (y 0).val; omega
  | ⟨1, _⟩ => show win0_6.index t (1 : Fin 3) * 256 + 1 * (y 1).val = (y 1).val; omega
  | ⟨2, _⟩ => show win0_6.index t (2 : Fin 3) * 256 + 1 * (y 2).val = (y 2).val; omega

theorem emb_bf (t : Fin cfg0.N) (y : S1x256.Idx) : (((cfg0.win 7).blk t).view.emb y : S1x256.Idx) = y := by
  obtain ⟨-, -, -, -, -, -, -, -, -, -, -, -, -, -, -, -, f0, f1, -⟩ := idx_facts t
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega

end Cert.KernelValue

end
-- ==== Proof.KernelValueB.lean ====
/-
  What each window's block holds at a grid point, read off the arrays the launch finds (the host operations before it):
  row `r` of a feature window's block is row `2000 t + r` of that hop's features; the weight, bias and fusion blocks are
  `Ws`, `bs`, `Wf` (its rows regrouped as 4 × 256) and `bf` (as one row).
-/
import proofs.«146148_j87600152969918_2_alg».proof.Proof.Gen.KernelIdeal.Value
import proofs.«146148_j87600152969918_2_alg».proof.Proof.KernelHost
import proofs.«146148_j87600152969918_2_alg».proof.Proof.KernelPayload
import proofs.«146148_j87600152969918_2_alg».proof.Proof.LibFlatten
import proofs.«146148_j87600152969918_2_alg».proof.Proof.Spec
import proofs.«146148_j87600152969918_2_alg».proof.Proof.KernelValueA
import Idealize.ShloMosaic.Lib.ValueLayout
import Idealize.ShloMosaic.Lib.ValueIdx
import Idealize.ShloMosaic.Lib.Pipeline.Value

set_option maxRecDepth 16384

noncomputable section

namespace Cert.KernelValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Row `r` of feature window 0's block at point `t`, read off any array: row `2000 t + r` of the array. -/
theorem read_feat0 (A : S50000x96.Idx → EReal) (t : Fin cfg0.N) (r : Fin 2000) (l : Fin 96) :
    (((cfg0.win 0).blk t).view.read (Elt Ideal) A (ix2 r l) : EReal) = A (ix2 (nodeOf t r) l) := by
  show A (((cfg0.win 0).blk t).view.emb (ix2 r l)) = _
  rw [emb_feat0]

/-- Feature window 0's block at point `t`, row `r`: row `2000 t + r` of hop 0's features. -/
theorem iblk_feat0 (c : Dev nD) (t : Fin cfg0.N) (r : Fin 2000) (l : Fin 96) :
    (iblk m c 0 t (ix2 r l) : EReal) = Cert.RefStages.feat0 (F := Ideal) (m ((c.tc : Thread nD τ).loc main_arg1)) (ix2 (nodeOf t r) l) := by
  have hV : (V m c (Pipeline.arrRef spec0 0) : S50000x96.Idx → EReal) = Cert.RefStages.feat0 (F := Ideal) (m ((c.tc : Thread nD τ).loc main_arg1)) :=
    Cert.KernelHost.V_feat0 m c
  unfold iblk
  rw [hV]
  exact read_feat0 _ t r l

/-- Row `r` of feature window 1's block at point `t`, read off any array: row `2000 t + r` of the array. -/
theorem read_feat1 (A : S50000x96.Idx → EReal) (t : Fin cfg0.N) (r : Fin 2000) (l : Fin 96) :
    (((cfg0.win 1).blk t).view.read (Elt Ideal) A (ix2 r l) : EReal) = A (ix2 (nodeOf t r) l) := by
  show A (((cfg0.win 1).blk t).view.emb (ix2 r l)) = _
  rw [emb_feat1]

/-- Feature window 1's block at point `t`, row `r`: row `2000 t + r` of hop 1's features. -/
theorem iblk_feat1 (c : Dev nD) (t : Fin cfg0.N) (r : Fin 2000) (l : Fin 96) :
    (iblk m c 1 t (ix2 r l) : EReal) = Cert.RefStages.feat1 (F := Ideal) (m ((c.tc : Thread nD τ).loc main_arg0)) (m ((c.tc : Thread nD τ).loc main_arg1)) (ix2 (nodeOf t r) l) := by
  have hV : (V m c (Pipeline.arrRef spec0 1) : S50000x96.Idx → EReal) = Cert.RefStages.feat1 (F := Ideal) (m ((c.tc : Thread nD τ).loc main_arg0)) (m ((c.tc : Thread nD τ).loc main_arg1)) :=
    Cert.KernelHost.V_feat1 m c
  unfold iblk
  rw [hV]
  exact read_feat1 _ t r l

/-- Row `r` of feature window 2's block at point `t`, read off any array: row `2000 t + r` of the array. -/
theorem read_feat2 (A : S50000x96.Idx → EReal) (t : Fin cfg0.N) (r : Fin 2000) (l : Fin 96) :
    (((cfg0.win 2).blk t).view.read (Elt Ideal) A (ix2 r l) : EReal) = A (ix2 (nodeOf t r) l) := by
  show A (((cfg0.win 2).blk t).view.emb (ix2 r l)) = _
  rw [emb_feat2]

/-- Feature window 2's block at point `t`, row `r`: row `2000 t + r` of hop 2's features. -/
theorem iblk_feat2 (c : Dev nD) (t : Fin cfg0.N) (r : Fin 2000) (l : Fin 96) :
    (iblk m c 2 t (ix2 r l) : EReal) = Cert.RefStages.feat2 (F := Ideal) (m ((c.tc : Thread nD τ).loc main_arg0)) (m ((c.tc : Thread nD τ).loc main_arg1)) (ix2 (nodeOf t r) l) := by
  have hV : (V m c (Pipeline.arrRef spec0 2) : S50000x96.Idx → EReal) = Cert.RefStages.feat2 (F := Ideal) (m ((c.tc : Thread nD τ).loc main_arg0)) (m ((c.tc : Thread nD τ).loc main_arg1)) :=
    Cert.KernelHost.V_feat2 m c
  unfold iblk
  rw [hV]
  exact read_feat2 _ t r l

/-- Row `r` of feature window 3's block at point `t`, read off any array: row `2000 t + r` of the array. -/
theorem read_feat3 (A : S50000x96.Idx → EReal) (t : Fin cfg0.N) (r : Fin 2000) (l : Fin 96) :
    (((cfg0.win 3).blk t).view.read (Elt Ideal) A (ix2 r l) : EReal) = A (ix2 (nodeOf t r) l) := by
  show A (((cfg0.win 3).blk t).view.emb (ix2 r l)) = _
  rw [emb_feat3]

/-- Feature window 3's block at point `t`, row `r`: row `2000 t + r` of hop 3's features. -/
theorem iblk_feat3 (c : Dev nD) (t : Fin cfg0.N) (r : Fin 2000) (l : Fin 96) :
    (iblk m c 3 t (ix2 r l) : EReal) = Cert.RefStages.feat3 (F := Ideal) (m ((c.tc : Thread nD τ).loc main_arg0)) (m ((c.tc : Thread nD τ).loc main_arg1)) (ix2 (nodeOf t r) l) := by
  have hV : (V m c (Pipeline.arrRef spec0 3) : S50000x96.Idx → EReal) = Cert.RefStages.feat3 (F := Ideal) (m ((c.tc : Thread nD τ).loc main_arg0)) (m ((c.tc : Thread nD τ).loc main_arg1)) :=
    Cert.KernelHost.V_feat3 m c
  unfold iblk
  rw [hV]
  exact read_feat3 _ t r l

/-- A block that is the whole array, read off any array, is the array. -/
theorem read_ws (A : S4x96x256.Idx → EReal) (t : Fin cfg0.N) :
    (((cfg0.win 4).blk t).view.read (Elt Ideal) A : S4x96x256.Idx → EReal) = A := by
  funext y
  show A (((cfg0.win 4).blk t).view.emb y) = _
  rw [emb_ws]

theorem read_bs (A : S4x256.Idx → EReal) (t : Fin cfg0.N) :
    (((cfg0.win 5).blk t).view.read (Elt Ideal) A : S4x256.Idx → EReal) = A := by
  funext y
  show A (((cfg0.win 5).blk t).view.emb y) = _
  rw [emb_bs]

theorem read_wf (A : S4x256x256.Idx → EReal) (t : Fin cfg0.N) :
    (((cfg0.win 6).blk t).view.read (Elt Ideal) A : S4x256x256.Idx → EReal) = A := by
  funext y
  show A (((cfg0.win 6).blk t).view.emb y) = _
  rw [emb_wf]

theorem read_bf (A : S1x256.Idx → EReal) (t : Fin cfg0.N) :
    (((cfg0.win 7).blk t).view.read (Elt Ideal) A : S1x256.Idx → EReal) = A := by
  funext y
  show A (((cfg0.win 7).blk t).view.emb y) = _
  rw [emb_bf]

/-- The projection weights' block is `Ws`. -/
theorem iblk_ws (c : Dev nD) (t : Fin cfg0.N) : (iblk m c 4 t : S4x96x256.Idx → EReal) = (m ((c.tc : Thread nD τ).loc main_arg2)) := by
  have hV : (V m c (Pipeline.arrRef spec0 4) : S4x96x256.Idx → EReal) = (m ((c.tc : Thread nD τ).loc main_arg2)) := Cert.KernelHost.V_ws m c
  unfold iblk
  rw [hV]
  exact read_ws _ t

/-- The projection biases' block is `bs`. -/
theorem iblk_bs (c : Dev nD) (t : Fin cfg0.N) : (iblk m c 5 t : S4x256.Idx → EReal) = (m ((c.tc : Thread nD τ).loc main_arg3)) := by
  have hV : (V m c (Pipeline.arrRef spec0 5) : S4x256.Idx → EReal) = (m ((c.tc : Thread nD τ).loc main_arg3)) := V_main_arg3 m c
  unfold iblk
  rw [hV]
  exact read_bs _ t

/-- The fusion weights' block: entry `(h, k, j)` is row `256 h + k` of `Wf`. -/
theorem iblk_wf (c : Dev nD) (t : Fin cfg0.N) (h : Fin 4) (k j : Fin 256) :
    (iblk m c 6 t (ix3 h k j) : EReal) = ((m ((c.tc : Thread nD τ).loc main_arg4)) : S1024x256.Idx → EReal) (ix2 (Cert.Dense.wfRow h k) j) := by
  have hV : (V m c (Pipeline.arrRef spec0 6) : S4x256x256.Idx → EReal)
      = shapeCast S4x256x256 ((m ((c.tc : Thread nD τ).loc main_arg4)) : S1024x256.Idx → EReal) shapeCasts_S1024x256_S4x256x256 := Cert.KernelHost.V_wf m c
  unfold iblk
  rw [hV, read_wf]
  exact Cert.LibFlatten.split_apply _ shapeCasts_S1024x256_S4x256x256 h k j (Cert.Dense.wfRow h k) rfl

/-- The fusion bias's block: its one row is `bf`. -/
theorem iblk_bf (c : Dev nD) (t : Fin cfg0.N) (j : Fin 256) :
    (iblk m c 7 t (ix2 (0 : Fin 1) j) : EReal) = ((m ((c.tc : Thread nD τ).loc main_arg5)) : S256.Idx → EReal) (ix1 j) := by
  have hV : (V m c (Pipeline.arrRef spec0 7) : S1x256.Idx → EReal)
      = shapeCast S1x256 ((m ((c.tc : Thread nD τ).loc main_arg5)) : S256.Idx → EReal) shapeCasts_S256_S1x256 := Cert.KernelHost.V_bf m c
  unfold iblk
  rw [hV, read_bf]
  exact shapeCast_a_1a_apply _ shapeCasts_S256_S1x256 0 j

end Cert.KernelValue

end
-- ==== Proof.KernelValue.lean ====
/-
  From the blocks the kernel's launches write back to the whole output array.

  Point `t` writes back, entry by entry, the dense stage's output for nodes `2000 t … 2000 t + 1999`
  (`Cert.KernelPayload.block_apply` over the blocks of `Cert.KernelValue`'s block lemmas), that is block `t` of ONE function
  of the six arguments; the 25 blocks tile the 50000 rows (row `n` is in block `n / 2000`), so the array ends holding
  that function.
-/
import proofs.«146148_j87600152969918_2_alg».proof.Proof.Gen.KernelIdeal.Value
import proofs.«146148_j87600152969918_2_alg».proof.Proof.KernelHost
import proofs.«146148_j87600152969918_2_alg».proof.Proof.KernelPayload
import proofs.«146148_j87600152969918_2_alg».proof.Proof.LibFlatten
import proofs.«146148_j87600152969918_2_alg».proof.Proof.Spec
import proofs.«146148_j87600152969918_2_alg».proof.Proof.KernelValueA
import proofs.«146148_j87600152969918_2_alg».proof.Proof.KernelValueB
import Idealize.ShloMosaic.Lib.ValueLayout
import Idealize.ShloMosaic.Lib.ValueIdx
import Idealize.ShloMosaic.Lib.Pipeline.Value

set_option maxRecDepth 16384

noncomputable section

namespace Cert.KernelValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What point `t` writes back is block `t` of `result`. -/
theorem flushed_eq (c : Dev nD) (t : Fin cfg0.N) :
    (dats m 0 c).flushed 8 t = ((cfg0.win 8).blk t).view.read (Elt Ideal) (result m c) := by
  rw [Cert.KernelIdeal.Value.flushed8]
  funext y
  obtain ⟨r, j, rfl⟩ : ∃ (r : Fin 2000) (j : Fin 256), y = ix2 r j := ⟨y 0, y 1, eq_ix2 y⟩
  show (out0_8 (F := Ideal) (iblk m c 0 t) (iblk m c 1 t) (iblk m c 2 t) (iblk m c 3 t) (iblk m c 4 t) (iblk m c 5 t)
      (iblk m c 6 t) (iblk m c 7 t) (ix2 r j) : EReal) = result m c (((cfg0.win 8).blk t).view.emb (ix2 r j))
  rw [emb_out]
  refine (Cert.KernelPayload.block_apply (iblk m c 0 t) (iblk m c 1 t) (iblk m c 2 t) (iblk m c 3 t) (iblk m c 4 t)
    (iblk m c 5 t) (iblk m c 6 t) (iblk m c 7 t) r j).trans ?_
  have e0 : (fun l : Fin 96 => (iblk m c 0 t (ix2 r l) : EReal)) = fun l => Cert.RefStages.feat0 (F := Ideal) (m ((c.tc : Thread nD τ).loc main_arg1)) (ix2 (nodeOf t r) l) :=
    funext fun l => iblk_feat0 m c t r l
  have e1 : (fun l : Fin 96 => (iblk m c 1 t (ix2 r l) : EReal)) = fun l => Cert.RefStages.feat1 (F := Ideal) (m ((c.tc : Thread nD τ).loc main_arg0)) (m ((c.tc : Thread nD τ).loc main_arg1)) (ix2 (nodeOf t r) l) :=
    funext fun l => iblk_feat1 m c t r l
  have e2 : (fun l : Fin 96 => (iblk m c 2 t (ix2 r l) : EReal)) = fun l => Cert.RefStages.feat2 (F := Ideal) (m ((c.tc : Thread nD τ).loc main_arg0)) (m ((c.tc : Thread nD τ).loc main_arg1)) (ix2 (nodeOf t r) l) :=
    funext fun l => iblk_feat2 m c t r l
  have e3 : (fun l : Fin 96 => (iblk m c 3 t (ix2 r l) : EReal)) = fun l => Cert.RefStages.feat3 (F := Ideal) (m ((c.tc : Thread nD τ).loc main_arg0)) (m ((c.tc : Thread nD τ).loc main_arg1)) (ix2 (nodeOf t r) l) :=
    funext fun l => iblk_feat3 m c t r l
  have e6 : (fun (h : Fin 4) (k j : Fin 256) => (iblk m c 6 t (ix3 h k j) : EReal)) = fun h k j => ((m ((c.tc : Thread nD τ).loc main_arg4)) : S1024x256.Idx → EReal) (ix2 (Cert.Dense.wfRow h k) j) :=
    funext fun h => funext fun k => funext fun j => iblk_wf m c t h k j
  rw [e0, e1, e2, e3, e6, iblk_ws, iblk_bs, iblk_bf]
  rfl

/-- Row `n` of the output array is in the block of point `n / 2000`. -/
theorem cover (i : S50000x256.Idx) :
    ∃ t : Fin cfg0.N, (cfg0.win 8).flush t = true ∧ i ∈ ((cfg0.win 8).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; rw [hN]; omega⟩
  obtain ⟨-, -, -, -, -, -, -, -, -, -, -, -, -, -, -, -, -, -, f80, f81⟩ := idx_facts t
  have ht : t.val = (i 0).val / 2000 := rfl
  refine ⟨t, flush0_8 t, ?_⟩
  show i ∈ ((View.whole main_v86).slice (win0_8.rect t)).set
  rw [View.set_slice_whole, Rect.mem_set_unit]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 256 ≤ (i 1).val ∧ (i 1).val < win0_8.index t (1 : Fin 2) * 256 + 256; omega

/-- The output array after the run is `result`. -/
theorem final (c : Dev nD) : (dats m 0 c).arrAt 8 cfg0.N = result m c :=
  (dats m 0 c).arrAt_eq_of_cover 8 (result m c) (fun t _ => flushed_eq m c t) (cover)

/-- The kernel's run: every weakly fair execution terminates with the result buffer at `result` and the arguments
    unchanged. -/
theorem run : θ_run defs (onTc (τ := τ) (main (F := Ideal))) ⟨m, fun _ => 0, ρ⟩ fun r => ∀ c : Dev nD,
      r.2.mem ((c : Thread nD τ).loc main_v86) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelValue

end
-- ==== Proof.RefRunA.lean ====
/-
  The reference program as a straight line of host operations, and its first two stretches read back.

  Its @main is the list `ops`; the dense stage it ends with is named (`hidden`, `hiddenCat`, `result`). The line is read
  in five stretches — up to the degrees, the three operations that select the inverse square root where the degree is
  positive, the graph stage's rest, the four hidden layers, and the fusion — each over ANY contents of the buffers before it, so that a stretch's values are compared
  with the graph stage's named functions while the earlier stretches' values stay names. Here: the first stretch's
  values, the selection, and the fact that a typed reference to a buffer carries contents across as they are.
-/
import proofs.«146148_j87600152969918_2_alg».proof.Proof.RefStages
import Idealize.ShloMosaic.Lib.StableHlo.Run
import proofs.«146148_j87600152969918_2_alg».proof.Proof.LibAfterAppend
import Idealize.ShloMosaic.PureOps.Ideal

noncomputable section

namespace Cert.RefRun

open Cert.ReferenceIdeal Cert.ReferenceIdeal.Gen Cert.RefStages Idealize.ShloMosaic Idealize.ShloMosaic.TcCoe Idealize.SL.Sem Idealize.ShloMosaic.StableHlo

variable {F : FTy → Type} [FloatOps F]

/-- @main's 154 operations, in order (a called function's operations stand in its call's place, spelt `TRef.…`). -/
abbrev ops : List (HloOp τ sig (Elt F)) :=
  [ unary main_arg0 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg0 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v1 main_v3 main_v7 (cmpi .ne : (⟨S800000, .i32⟩ : BufTy).Contents (Elt F) → (⟨S800000, .i32⟩ : BufTy).Contents (Elt F) → (⟨S800000, .i1⟩ : BufTy).Contents (Elt F)),
    unary main_v7 main_v8 (uitofp .f32 : (⟨S800000, .i1⟩ : BufTy).Contents (Elt F) → (⟨S800000, .f32⟩ : BufTy).Contents (Elt F)),
    nullary main_cst (constant S_ .f32 0x3F800000#32),
    unary main_cst main_v9 (broadcastInDim S50000 ![] bcast_S_S50000 : (⟨S_, .f32⟩ : BufTy).Contents (Elt F) → (⟨S50000, .f32⟩ : BufTy).Contents (Elt F)),
    binary main_v8 main_v9 main_v10 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_0 (constant S_ .f32 0x00000000#32),
    unary main_cst_0 main_v11 (broadcastInDim S50000 ![] bcast_S_S50000 : (⟨S_, .f32⟩ : BufTy).Contents (Elt F) → (⟨S50000, .f32⟩ : BufTy).Contents (Elt F)),
    unary main_v5 main_v12 (broadcastInDim S850000x1 ![0] bcast_S850000_S850000x1_0 : (⟨S850000, .i32⟩ : BufTy).Contents (Elt F) → (⟨S850000x1, .i32⟩ : BufTy).Contents (Elt F)),
    ternary main_v11 main_v12 main_v10 main_v13 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v14 (broadcastInDim S50000 ![] bcast_S_S50000 : (⟨S_, .f32⟩ : BufTy).Contents (Elt F) → (⟨S50000, .f32⟩ : BufTy).Contents (Elt F)),
    binary main_v13 main_v14 main_v15 (cmpf .ogt : (⟨S50000, .f32⟩ : BufTy).Contents (Elt F) → (⟨S50000, .f32⟩ : BufTy).Contents (Elt F) → (⟨S50000, .i1⟩ : BufTy).Contents (Elt F)),
    unary main_v13 main_v16 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v15) (TRef.of (T := ⟨S50000, .f32⟩) main_v16) (TRef.of (T := ⟨S50000, .f32⟩) main_call0_v1) (TRef.of (T := ⟨S50000, .f32⟩) main_v17) select,
    nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v5 main_v18 main_v19 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v20 (broadcastInDim S850000 ![] bcast_S_S850000 : (⟨S_, .i32⟩ : BufTy).Contents (Elt F) → (⟨S850000, .i32⟩ : BufTy).Contents (Elt F)),
    binary main_v5 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v5 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v10 main_v25 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v17 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)),
    TRef.binary (TRef.of (T := ⟨S50000x96, .f32⟩) main_arg1) (TRef.of (T := ⟨S50000x96, .f32⟩) main_arg1) (TRef.of (T := ⟨S50000x96, .f32⟩) main_call1_v0) mulf,
    TRef.nullary (TRef.of (T := ⟨S_, .f32⟩) main_call1_cst) (constant S_ .f32 0x00000000#32),
    TRef.binary (TRef.of (T := ⟨S50000x96, .f32⟩) main_call1_v0) (TRef.of (T := ⟨S_, .f32⟩) main_call1_cst) (TRef.of (T := ⟨S50000, .f32⟩) main_call1_v1) (fun x v => Host.reduceAdd x v reducesTo_S50000x96_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v34) Host.sqrt,
    nullary main_cst_6 (constant S_ .f32 0x2B8CBCCC#32),
    unary main_cst_6 main_v35 (broadcastInDim S50000x1 ![] bcast_S_S50000x1 : (⟨S_, .f32⟩ : BufTy).Contents (Elt F) → (⟨S50000x1, .f32⟩ : BufTy).Contents (Elt F)),
    binary main_v34 main_v35 main_v36 (maximumf : (⟨S50000x1, .f32⟩ : BufTy).Contents (Elt F) → (⟨S50000x1, .f32⟩ : BufTy).Contents (Elt F) → (⟨S50000x1, .f32⟩ : BufTy).Contents (Elt F)),
    unary main_v36 main_v37 (broadcastInDim S50000x96 ![0, 1] bcast_S50000x1_S50000x96_0_1 : (⟨S50000x1, .f32⟩ : BufTy).Contents (Elt F) → (⟨S50000x96, .f32⟩ : BufTy).Contents (Elt F)),
    binary main_arg1 main_v37 main_v38 (Host.divf : (⟨S50000x96, .f32⟩ : BufTy).Contents (Elt F) → (⟨S50000x96, .f32⟩ : BufTy).Contents (Elt F) → (⟨S50000x96, .f32⟩ : BufTy).Contents (Elt F)),
    unary main_v33 main_v39 (broadcastInDim S850000x1 ![0] bcast_S850000_S850000x1_0 : (⟨S850000, .f32⟩ : BufTy).Contents (Elt F) → (⟨S850000x1, .f32⟩ : BufTy).Contents (Elt F)),
    nullary main_c_7 (constantI S_ 32 0#32),
    unary main_c_7 main_v40 (broadcastInDim S850000 ![] bcast_S_S850000 : (⟨S_, .i32⟩ : BufTy).Contents (Elt F) → (⟨S850000, .i32⟩ : BufTy).Contents (Elt F)),
    binary main_v6 main_v40 main_v41 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v42 (broadcastInDim S850000 ![] bcast_S_S850000 : (⟨S_, .i32⟩ : BufTy).Contents (Elt F) → (⟨S850000, .i32⟩ : BufTy).Contents (Elt F)),
    binary main_v6 main_v42 main_v43 (addi : (⟨S850000, .i32⟩ : BufTy).Contents (Elt F) → (⟨S850000, .i32⟩ : BufTy).Contents (Elt F) → (⟨S850000, .i32⟩ : BufTy).Contents (Elt F)),
    ternary main_v41 main_v43 main_v6 main_v44 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v44 main_v45 (broadcastInDim S850000x1 ![0] bcast_S850000_S850000x1_0 : (⟨S850000, .i32⟩ : BufTy).Contents (Elt F) → (⟨S850000x1, .i32⟩ : BufTy).Contents (Elt F)),
    binary main_v38 main_v45 main_v46 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v39 main_v47 (broadcastInDim S850000x96 ![0, 1] bcast_S850000x1_S850000x96_0_1 : (⟨S850000x1, .f32⟩ : BufTy).Contents (Elt F) → (⟨S850000x96, .f32⟩ : BufTy).Contents (Elt F)),
    binary main_v47 main_v46 main_v48 (mulf : (⟨S850000x96, .f32⟩ : BufTy).Contents (Elt F) → (⟨S850000x96, .f32⟩ : BufTy).Contents (Elt F) → (⟨S850000x96, .f32⟩ : BufTy).Contents (Elt F)),
    nullary main_cst_9 (constant S_ .f32 0x00000000#32),
    unary main_cst_9 main_v49 (broadcastInDim S50000x96 ![] bcast_S_S50000x96 : (⟨S_, .f32⟩ : BufTy).Contents (Elt F) → (⟨S50000x96, .f32⟩ : BufTy).Contents (Elt F)),
    unary main_v5 main_v50 (broadcastInDim S850000x1 ![0] bcast_S850000_S850000x1_0 : (⟨S850000, .i32⟩ : BufTy).Contents (Elt F) → (⟨S850000x1, .i32⟩ : BufTy).Contents (Elt F)),
    ternary main_v49 main_v50 main_v48 main_v51 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_v33 main_v52 (broadcastInDim S850000x1 ![0] bcast_S850000_S850000x1_0 : (⟨S850000, .f32⟩ : BufTy).Contents (Elt F) → (⟨S850000x1, .f32⟩ : BufTy).Contents (Elt F)),
    nullary main_c_10 (constantI S_ 32 0#32),
    unary main_c_10 main_v53 (broadcastInDim S850000 ![] bcast_S_S850000 : (⟨S_, .i32⟩ : BufTy).Contents (Elt F) → (⟨S850000, .i32⟩ : BufTy).Contents (Elt F)),
    binary main_v6 main_v53 main_v54 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v55 (broadcastInDim S850000 ![] bcast_S_S850000 : (⟨S_, .i32⟩ : BufTy).Contents (Elt F) → (⟨S850000, .i32⟩ : BufTy).Contents (Elt F)),
    binary main_v6 main_v55 main_v56 (addi : (⟨S850000, .i32⟩ : BufTy).Contents (Elt F) → (⟨S850000, .i32⟩ : BufTy).Contents (Elt F) → (⟨S850000, .i32⟩ : BufTy).Contents (Elt F)),
    ternary main_v54 main_v56 main_v6 main_v57 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v57 main_v58 (broadcastInDim S850000x1 ![0] bcast_S850000_S850000x1_0 : (⟨S850000, .i32⟩ : BufTy).Contents (Elt F) → (⟨S850000x1, .i32⟩ : BufTy).Contents (Elt F)),
    binary main_v51 main_v58 main_v59 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v52 main_v60 (broadcastInDim S850000x96 ![0, 1] bcast_S850000x1_S850000x96_0_1 : (⟨S850000x1, .f32⟩ : BufTy).Contents (Elt F) → (⟨S850000x96, .f32⟩ : BufTy).Contents (Elt F)),
    binary main_v60 main_v59 main_v61 (mulf : (⟨S850000x96, .f32⟩ : BufTy).Contents (Elt F) → (⟨S850000x96, .f32⟩ : BufTy).Contents (Elt F) → (⟨S850000x96, .f32⟩ : BufTy).Contents (Elt F)),
    nullary main_cst_12 (constant S_ .f32 0x00000000#32),
    unary main_cst_12 main_v62 (broadcastInDim S50000x96 ![] bcast_S_S50000x96 : (⟨S_, .f32⟩ : BufTy).Contents (Elt F) → (⟨S50000x96, .f32⟩ : BufTy).Contents (Elt F)),
    unary main_v5 main_v63 (broadcastInDim S850000x1 ![0] bcast_S850000_S850000x1_0 : (⟨S850000, .i32⟩ : BufTy).Contents (Elt F) → (⟨S850000x1, .i32⟩ : BufTy).Contents (Elt F)),
    ternary main_v62 main_v63 main_v61 main_v64 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_v33 main_v65 (broadcastInDim S850000x1 ![0] bcast_S850000_S850000x1_0 : (⟨S850000, .f32⟩ : BufTy).Contents (Elt F) → (⟨S850000x1, .f32⟩ : BufTy).Contents (Elt F)),
    nullary main_c_13 (constantI S_ 32 0#32),
    unary main_c_13 main_v66 (broadcastInDim S850000 ![] bcast_S_S850000 : (⟨S_, .i32⟩ : BufTy).Contents (Elt F) → (⟨S850000, .i32⟩ : BufTy).Contents (Elt F)),
    binary main_v6 main_v66 main_v67 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v68 (broadcastInDim S850000 ![] bcast_S_S850000 : (⟨S_, .i32⟩ : BufTy).Contents (Elt F) → (⟨S850000, .i32⟩ : BufTy).Contents (Elt F)),
    binary main_v6 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v6 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v64 main_v71 main_v72 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v65 main_v73 (broadcastInDim S850000x96 ![0, 1] bcast_S850000x1_S850000x96_0_1 : (⟨S850000x1, .f32⟩ : BufTy).Contents (Elt F) → (⟨S850000x96, .f32⟩ : BufTy).Contents (Elt F)),
    binary main_v73 main_v72 main_v74 (mulf : (⟨S850000x96, .f32⟩ : BufTy).Contents (Elt F) → (⟨S850000x96, .f32⟩ : BufTy).Contents (Elt F) → (⟨S850000x96, .f32⟩ : BufTy).Contents (Elt F)),
    nullary main_cst_15 (constant S_ .f32 0x00000000#32),
    unary main_cst_15 main_v75 (broadcastInDim S50000x96 ![] bcast_S_S50000x96 : (⟨S_, .f32⟩ : BufTy).Contents (Elt F) → (⟨S50000x96, .f32⟩ : BufTy).Contents (Elt F)),
    unary main_v5 main_v76 (broadcastInDim S850000x1 ![0] bcast_S850000_S850000x1_0 : (⟨S850000, .i32⟩ : BufTy).Contents (Elt F) → (⟨S850000x1, .i32⟩ : BufTy).Contents (Elt F)),
    ternary main_v75 main_v76 main_v74 main_v77 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg2 main_v78 ((extractStridedSlice S1x96x256 ![0, 0, 0] · slices_S4x96x256_S1x96x256_0_0_0) : (⟨S4x96x256, .f32⟩ : BufTy).Contents (Elt F) → (⟨S1x96x256, .f32⟩ : BufTy).Contents (Elt F)),
    reshape main_v78 main_v79 rfl shapeCasts_S1x96x256_S96x256,
    binary main_v38 main_v79 main_v80 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v81 ((extractStridedSlice S1x256 ![0, 0] · slices_S4x256_S1x256_0_0) : (⟨S4x256, .f32⟩ : BufTy).Contents (Elt F) → (⟨S1x256, .f32⟩ : BufTy).Contents (Elt F)),
    reshape main_v81 main_v82 rfl shapeCasts_S1x256_S256,
    unary main_v82 main_v83 (broadcastInDim S1x256 ![1] bcast_S256_S1x256_1 : (⟨S256, .f32⟩ : BufTy).Contents (Elt F) → (⟨S1x256, .f32⟩ : BufTy).Contents (Elt F)),
    unary main_v83 main_v84 (broadcastInDim S50000x256 ![0, 1] bcast_S1x256_S50000x256_0_1 : (⟨S1x256, .f32⟩ : BufTy).Contents (Elt F) → (⟨S50000x256, .f32⟩ : BufTy).Contents (Elt F)),
    binary main_v80 main_v84 main_v85 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v85) (TRef.of (T := ⟨S50000x256, .f32⟩) main_call2_v0) (TRef.of (T := ⟨S50000x256, .f32⟩) main_v86) maximumf,
    unary main_arg2 main_v87 ((extractStridedSlice S1x96x256 ![1, 0, 0] · slices_S4x96x256_S1x96x256_1_0_0) : (⟨S4x96x256, .f32⟩ : BufTy).Contents (Elt F) → (⟨S1x96x256, .f32⟩ : BufTy).Contents (Elt F)),
    reshape main_v87 main_v88 rfl shapeCasts_S1x96x256_S96x256,
    binary main_v51 main_v88 main_v89 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v90 ((extractStridedSlice S1x256 ![1, 0] · slices_S4x256_S1x256_1_0) : (⟨S4x256, .f32⟩ : BufTy).Contents (Elt F) → (⟨S1x256, .f32⟩ : BufTy).Contents (Elt F)),
    reshape main_v90 main_v91 rfl shapeCasts_S1x256_S256,
    unary main_v91 main_v92 (broadcastInDim S1x256 ![1] bcast_S256_S1x256_1 : (⟨S256, .f32⟩ : BufTy).Contents (Elt F) → (⟨S1x256, .f32⟩ : BufTy).Contents (Elt F)),
    unary main_v92 main_v93 (broadcastInDim S50000x256 ![0, 1] bcast_S1x256_S50000x256_0_1 : (⟨S1x256, .f32⟩ : BufTy).Contents (Elt F) → (⟨S50000x256, .f32⟩ : BufTy).Contents (Elt F)),
    binary main_v89 main_v93 main_v94 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v94) (TRef.of (T := ⟨S50000x256, .f32⟩) main_call3_v0) (TRef.of (T := ⟨S50000x256, .f32⟩) main_v95) maximumf,
    unary main_arg2 main_v96 ((extractStridedSlice S1x96x256 ![2, 0, 0] · slices_S4x96x256_S1x96x256_2_0_0) : (⟨S4x96x256, .f32⟩ : BufTy).Contents (Elt F) → (⟨S1x96x256, .f32⟩ : BufTy).Contents (Elt F)),
    reshape main_v96 main_v97 rfl shapeCasts_S1x96x256_S96x256,
    binary main_v64 main_v97 main_v98 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v99 ((extractStridedSlice S1x256 ![2, 0] · slices_S4x256_S1x256_2_0) : (⟨S4x256, .f32⟩ : BufTy).Contents (Elt F) → (⟨S1x256, .f32⟩ : BufTy).Contents (Elt F)),
    reshape main_v99 main_v100 rfl shapeCasts_S1x256_S256,
    unary main_v100 main_v101 (broadcastInDim S1x256 ![1] bcast_S256_S1x256_1 : (⟨S256, .f32⟩ : BufTy).Contents (Elt F) → (⟨S1x256, .f32⟩ : BufTy).Contents (Elt F)),
    unary main_v101 main_v102 (broadcastInDim S50000x256 ![0, 1] bcast_S1x256_S50000x256_0_1 : (⟨S1x256, .f32⟩ : BufTy).Contents (Elt F) → (⟨S50000x256, .f32⟩ : BufTy).Contents (Elt F)),
    binary main_v98 main_v102 main_v103 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v103) (TRef.of (T := ⟨S50000x256, .f32⟩) main_call4_v0) (TRef.of (T := ⟨S50000x256, .f32⟩) main_v104) maximumf,
    unary main_arg2 main_v105 ((extractStridedSlice S1x96x256 ![3, 0, 0] · slices_S4x96x256_S1x96x256_3_0_0) : (⟨S4x96x256, .f32⟩ : BufTy).Contents (Elt F) → (⟨S1x96x256, .f32⟩ : BufTy).Contents (Elt F)),
    reshape main_v105 main_v106 rfl shapeCasts_S1x96x256_S96x256,
    binary main_v77 main_v106 main_v107 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v108 ((extractStridedSlice S1x256 ![3, 0] · slices_S4x256_S1x256_3_0) : (⟨S4x256, .f32⟩ : BufTy).Contents (Elt F) → (⟨S1x256, .f32⟩ : BufTy).Contents (Elt F)),
    reshape main_v108 main_v109 rfl shapeCasts_S1x256_S256,
    unary main_v109 main_v110 (broadcastInDim S1x256 ![1] bcast_S256_S1x256_1 : (⟨S256, .f32⟩ : BufTy).Contents (Elt F) → (⟨S1x256, .f32⟩ : BufTy).Contents (Elt F)),
    unary main_v110 main_v111 (broadcastInDim S50000x256 ![0, 1] bcast_S1x256_S50000x256_0_1 : (⟨S1x256, .f32⟩ : BufTy).Contents (Elt F) → (⟨S50000x256, .f32⟩ : BufTy).Contents (Elt F)),
    binary main_v107 main_v111 main_v112 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v112) (TRef.of (T := ⟨S50000x256, .f32⟩) main_call5_v0) (TRef.of (T := ⟨S50000x256, .f32⟩) main_v113) maximumf,
    nary ![main_v86, main_v95, main_v104, main_v113] main_v114 (fun u => concatenate S50000x1024 1 [⟨S50000x256, u 0⟩, ⟨S50000x256, u 1⟩, ⟨S50000x256, u 2⟩, ⟨S50000x256, u 3⟩] concatenates_S50000x256_S50000x256_S50000x256_S50000x256_S50000x1024_d1),
    binary main_v114 main_arg4 main_v115 ((fun l r => Host.dotGeneral dot_S50000x1024_S1024x256_S50000x256_1_0_0_1_n_n none l r) : (⟨S50000x1024, .f32⟩ : BufTy).Contents (Elt F) → (⟨S1024x256, .f32⟩ : BufTy).Contents (Elt F) → (⟨S50000x256, .f32⟩ : BufTy).Contents (Elt F)),
    unary main_arg5 main_v116 (broadcastInDim S1x256 ![1] bcast_S256_S1x256_1 : (⟨S256, .f32⟩ : BufTy).Contents (Elt F) → (⟨S1x256, .f32⟩ : BufTy).Contents (Elt F)),
    unary main_v116 main_v117 (broadcastInDim S50000x256 ![0, 1] bcast_S1x256_S50000x256_0_1 : (⟨S1x256, .f32⟩ : BufTy).Contents (Elt F) → (⟨S50000x256, .f32⟩ : BufTy).Contents (Elt F)),
    binary main_v115 main_v117 main_v118 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x256, .f32⟩) main_call6_v0) (broadcastInDim S50000x256 ![] bcast_S_S50000x256),
    TRef.binary (TRef.of (T := ⟨S50000x256, .f32⟩) main_v118) (TRef.of (T := ⟨S50000x256, .f32⟩) main_call6_v0) (TRef.of (T := ⟨S50000x256, .f32⟩) main_v119) maximumf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- One hop's hidden layer over all nodes: the hop's features times its slab of the projection array, plus its row of
    the biases, rectified. -/
def hidden (H : (⟨S50000x96, .f32⟩ : BufTy).Contents (Elt F)) (x2 : (⟨S4x96x256, .f32⟩ : BufTy).Contents (Elt F)) (x3 : (⟨S4x256, .f32⟩ : BufTy).Contents (Elt F))
    (o2 : Fin S4x96x256.rank → Nat) (h2 : S4x96x256.Slices o2 S1x96x256) (o3 : Fin S4x256.rank → Nat) (h3 : S4x256.Slices o3 S1x256) :
    (⟨S50000x256, .f32⟩ : BufTy).Contents (Elt F) :=
  maximumf (addf (Host.dotGeneral dot_S50000x96_S96x256_S50000x256_1_0_0_1_n_n none H
        (shapeCast _ (extractStridedSlice S1x96x256 o2 x2 h2) shapeCasts_S1x96x256_S96x256))
      (broadcastInDim S50000x256 ![0, 1] bcast_S1x256_S50000x256_0_1 (broadcastInDim S1x256 ![1] bcast_S256_S1x256_1
        (shapeCast _ (extractStridedSlice S1x256 o3 x3 h3) shapeCasts_S1x256_S256))))
    (broadcastInDim S50000x256 ![] bcast_S_S50000x256 (constant S_ .f32 0x00000000#32))

/-- The four hidden layers side by side: 1024 columns per node. -/
def hiddenCat (x0 : (⟨S2x800000, .i32⟩ : BufTy).Contents (Elt F)) (x1 : (⟨S50000x96, .f32⟩ : BufTy).Contents (Elt F)) (x2 : (⟨S4x96x256, .f32⟩ : BufTy).Contents (Elt F)) (x3 : (⟨S4x256, .f32⟩ : BufTy).Contents (Elt F)) :
    (⟨S50000x1024, .f32⟩ : BufTy).Contents (Elt F) :=
  concatenate S50000x1024 1
    [⟨S50000x256, hidden (F := F) (feat0 (F := F) x1) x2 x3 ![0, 0, 0] slices_S4x96x256_S1x96x256_0_0_0 ![0, 0] slices_S4x256_S1x256_0_0⟩,
     ⟨S50000x256, hidden (F := F) (feat1 (F := F) x0 x1) x2 x3 ![1, 0, 0] slices_S4x96x256_S1x96x256_1_0_0 ![1, 0] slices_S4x256_S1x256_1_0⟩,
     ⟨S50000x256, hidden (F := F) (feat2 (F := F) x0 x1) x2 x3 ![2, 0, 0] slices_S4x96x256_S1x96x256_2_0_0 ![2, 0] slices_S4x256_S1x256_2_0⟩,
     ⟨S50000x256, hidden (F := F) (feat3 (F := F) x0 x1) x2 x3 ![3, 0, 0] slices_S4x96x256_S1x96x256_3_0_0 ![3, 0] slices_S4x256_S1x256_3_0⟩]
    concatenates_S50000x256_S50000x256_S50000x256_S50000x256_S50000x1024_d1

/-- The reference's result as a function of its six arguments. -/
def result (x0 : (⟨S2x800000, .i32⟩ : BufTy).Contents (Elt F)) (x1 : (⟨S50000x96, .f32⟩ : BufTy).Contents (Elt F)) (x2 : (⟨S4x96x256, .f32⟩ : BufTy).Contents (Elt F)) (x3 : (⟨S4x256, .f32⟩ : BufTy).Contents (Elt F))
    (x4 : (⟨S1024x256, .f32⟩ : BufTy).Contents (Elt F)) (x5 : (⟨S256, .f32⟩ : BufTy).Contents (Elt F)) : (⟨S50000x256, .f32⟩ : BufTy).Contents (Elt F) :=
  maximumf (addf (Host.dotGeneral dot_S50000x1024_S1024x256_S50000x256_1_0_0_1_n_n none (hiddenCat (F := F) x0 x1 x2 x3) x4)
      (broadcastInDim S50000x256 ![0, 1] bcast_S1x256_S50000x256_0_1 (broadcastInDim S1x256 ![1] bcast_S256_S1x256_1 x5)))
    (broadcastInDim S50000x256 ![] bcast_S_S50000x256 (constant S_ .f32 0x00000000#32))

/-- The operations up to the degrees and the two candidates of the selection. -/
abbrev opsA : List (HloOp τ sig (Elt F)) :=
  [ unary main_arg0 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg0 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v1 main_v3 main_v7 (cmpi .ne : (⟨S800000, .i32⟩ : BufTy).Contents (Elt F) → (⟨S800000, .i32⟩ : BufTy).Contents (Elt F) → (⟨S800000, .i1⟩ : BufTy).Contents (Elt F)),
    unary main_v7 main_v8 (uitofp .f32 : (⟨S800000, .i1⟩ : BufTy).Contents (Elt F) → (⟨S800000, .f32⟩ : BufTy).Contents (Elt F)),
    nullary main_cst (constant S_ .f32 0x3F800000#32),
    unary main_cst main_v9 (broadcastInDim S50000 ![] bcast_S_S50000 : (⟨S_, .f32⟩ : BufTy).Contents (Elt F) → (⟨S50000, .f32⟩ : BufTy).Contents (Elt F)),
    binary main_v8 main_v9 main_v10 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_0 (constant S_ .f32 0x00000000#32),
    unary main_cst_0 main_v11 (broadcastInDim S50000 ![] bcast_S_S50000 : (⟨S_, .f32⟩ : BufTy).Contents (Elt F) → (⟨S50000, .f32⟩ : BufTy).Contents (Elt F)),
    unary main_v5 main_v12 (broadcastInDim S850000x1 ![0] bcast_S850000_S850000x1_0 : (⟨S850000, .i32⟩ : BufTy).Contents (Elt F) → (⟨S850000x1, .i32⟩ : BufTy).Contents (Elt F)),
    ternary main_v11 main_v12 main_v10 main_v13 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v14 (broadcastInDim S50000 ![] bcast_S_S50000 : (⟨S_, .f32⟩ : BufTy).Contents (Elt F) → (⟨S50000, .f32⟩ : BufTy).Contents (Elt F)),
    binary main_v13 main_v14 main_v15 (cmpf .ogt : (⟨S50000, .f32⟩ : BufTy).Contents (Elt F) → (⟨S50000, .f32⟩ : BufTy).Contents (Elt F) → (⟨S50000, .i1⟩ : BufTy).Contents (Elt F)),
    unary main_v13 main_v16 (Host.rsqrt : (⟨S50000, .f32⟩ : BufTy).Contents (Elt F) → (⟨S50000, .f32⟩ : BufTy).Contents (Elt F)),
    nullary main_cst_2 (constant S_ .f32 0x00000000#32) ]

/-- The three operations that select the inverse square root where the degree is positive. -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v15) (TRef.of (T := ⟨S50000, .f32⟩) main_v16) (TRef.of (T := ⟨S50000, .f32⟩) main_call0_v1) (TRef.of (T := ⟨S50000, .f32⟩) main_v17) select ]

/-- The third stretch: normalized weights and features, the three propagations. -/
abbrev opsC1a : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v5 main_v18 main_v19 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v20 (broadcastInDim S850000 ![] bcast_S_S850000 : (⟨S_, .i32⟩ : BufTy).Contents (Elt F) → (⟨S850000, .i32⟩ : BufTy).Contents (Elt F)),
    binary main_v5 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v5 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v10 main_v25 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v17 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)),
    TRef.binary (TRef.of (T := ⟨S50000x96, .f32⟩) main_arg1) (TRef.of (T := ⟨S50000x96, .f32⟩) main_arg1) (TRef.of (T := ⟨S50000x96, .f32⟩) main_call1_v0) mulf,
    TRef.nullary (TRef.of (T := ⟨S_, .f32⟩) main_call1_cst) (constant S_ .f32 0x00000000#32),
    TRef.binary (TRef.of (T := ⟨S50000x96, .f32⟩) main_call1_v0) (TRef.of (T := ⟨S_, .f32⟩) main_call1_cst) (TRef.of (T := ⟨S50000, .f32⟩) main_call1_v1) (fun x v => Host.reduceAdd x v reducesTo_S50000x96_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v34) Host.sqrt,
    nullary main_cst_6 (constant S_ .f32 0x2B8CBCCC#32),
    unary main_cst_6 main_v35 (broadcastInDim S50000x1 ![] bcast_S_S50000x1 : (⟨S_, .f32⟩ : BufTy).Contents (Elt F) → (⟨S50000x1, .f32⟩ : BufTy).Contents (Elt F)),
    binary main_v34 main_v35 main_v36 (maximumf : (⟨S50000x1, .f32⟩ : BufTy).Contents (Elt F) → (⟨S50000x1, .f32⟩ : BufTy).Contents (Elt F) → (⟨S50000x1, .f32⟩ : BufTy).Contents (Elt F)),
    unary main_v36 main_v37 (broadcastInDim S50000x96 ![0, 1] bcast_S50000x1_S50000x96_0_1 : (⟨S50000x1, .f32⟩ : BufTy).Contents (Elt F) → (⟨S50000x96, .f32⟩ : BufTy).Contents (Elt F)),
    binary main_arg1 main_v37 main_v38 (Host.divf : (⟨S50000x96, .f32⟩ : BufTy).Contents (Elt F) → (⟨S50000x96, .f32⟩ : BufTy).Contents (Elt F) → (⟨S50000x96, .f32⟩ : BufTy).Contents (Elt F)),
    unary main_v33 main_v39 (broadcastInDim S850000x1 ![0] bcast_S850000_S850000x1_0 : (⟨S850000, .f32⟩ : BufTy).Contents (Elt F) → (⟨S850000x1, .f32⟩ : BufTy).Contents (Elt F)),
    nullary main_c_7 (constantI S_ 32 0#32),
    unary main_c_7 main_v40 (broadcastInDim S850000 ![] bcast_S_S850000 : (⟨S_, .i32⟩ : BufTy).Contents (Elt F) → (⟨S850000, .i32⟩ : BufTy).Contents (Elt F)),
    binary main_v6 main_v40 main_v41 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v42 (broadcastInDim S850000 ![] bcast_S_S850000 : (⟨S_, .i32⟩ : BufTy).Contents (Elt F) → (⟨S850000, .i32⟩ : BufTy).Contents (Elt F)),
    binary main_v6 main_v42 main_v43 (addi : (⟨S850000, .i32⟩ : BufTy).Contents (Elt F) → (⟨S850000, .i32⟩ : BufTy).Contents (Elt F) → (⟨S850000, .i32⟩ : BufTy).Contents (Elt F)),
    ternary main_v41 main_v43 main_v6 main_v44 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v44 main_v45 (broadcastInDim S850000x1 ![0] bcast_S850000_S850000x1_0 : (⟨S850000, .i32⟩ : BufTy).Contents (Elt F) → (⟨S850000x1, .i32⟩ : BufTy).Contents (Elt F)),
    binary main_v38 main_v45 main_v46 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v39 main_v47 (broadcastInDim S850000x96 ![0, 1] bcast_S850000x1_S850000x96_0_1 : (⟨S850000x1, .f32⟩ : BufTy).Contents (Elt F) → (⟨S850000x96, .f32⟩ : BufTy).Contents (Elt F)),
    binary main_v47 main_v46 main_v48 (mulf : (⟨S850000x96, .f32⟩ : BufTy).Contents (Elt F) → (⟨S850000x96, .f32⟩ : BufTy).Contents (Elt F) → (⟨S850000x96, .f32⟩ : BufTy).Contents (Elt F)),
    nullary main_cst_9 (constant S_ .f32 0x00000000#32),
    unary main_cst_9 main_v49 (broadcastInDim S50000x96 ![] bcast_S_S50000x96 : (⟨S_, .f32⟩ : BufTy).Contents (Elt F) → (⟨S50000x96, .f32⟩ : BufTy).Contents (Elt F)),
    unary main_v5 main_v50 (broadcastInDim S850000x1 ![0] bcast_S850000_S850000x1_0 : (⟨S850000, .i32⟩ : BufTy).Contents (Elt F) → (⟨S850000x1, .i32⟩ : BufTy).Contents (Elt F)),
    ternary main_v49 main_v50 main_v48 main_v51 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_v33 main_v52 (broadcastInDim S850000x1 ![0] bcast_S850000_S850000x1_0 : (⟨S850000, .f32⟩ : BufTy).Contents (Elt F) → (⟨S850000x1, .f32⟩ : BufTy).Contents (Elt F)),
    nullary main_c_10 (constantI S_ 32 0#32),
    unary main_c_10 main_v53 (broadcastInDim S850000 ![] bcast_S_S850000 : (⟨S_, .i32⟩ : BufTy).Contents (Elt F) → (⟨S850000, .i32⟩ : BufTy).Contents (Elt F)),
    binary main_v6 main_v53 main_v54 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v55 (broadcastInDim S850000 ![] bcast_S_S850000 : (⟨S_, .i32⟩ : BufTy).Contents (Elt F) → (⟨S850000, .i32⟩ : BufTy).Contents (Elt F)),
    binary main_v6 main_v55 main_v56 (addi : (⟨S850000, .i32⟩ : BufTy).Contents (Elt F) → (⟨S850000, .i32⟩ : BufTy).Contents (Elt F) → (⟨S850000, .i32⟩ : BufTy).Contents (Elt F)),
    ternary main_v54 main_v56 main_v6 main_v57 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v57 main_v58 (broadcastInDim S850000x1 ![0] bcast_S850000_S850000x1_0 : (⟨S850000, .i32⟩ : BufTy).Contents (Elt F) → (⟨S850000x1, .i32⟩ : BufTy).Contents (Elt F)),
    binary main_v51 main_v58 main_v59 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v52 main_v60 (broadcastInDim S850000x96 ![0, 1] bcast_S850000x1_S850000x96_0_1 : (⟨S850000x1, .f32⟩ : BufTy).Contents (Elt F) → (⟨S850000x96, .f32⟩ : BufTy).Contents (Elt F)),
    binary main_v60 main_v59 main_v61 (mulf : (⟨S850000x96, .f32⟩ : BufTy).Contents (Elt F) → (⟨S850000x96, .f32⟩ : BufTy).Contents (Elt F) → (⟨S850000x96, .f32⟩ : BufTy).Contents (Elt F)),
    nullary main_cst_12 (constant S_ .f32 0x00000000#32),
    unary main_cst_12 main_v62 (broadcastInDim S50000x96 ![] bcast_S_S50000x96 : (⟨S_, .f32⟩ : BufTy).Contents (Elt F) → (⟨S50000x96, .f32⟩ : BufTy).Contents (Elt F)),
    unary main_v5 main_v63 (broadcastInDim S850000x1 ![0] bcast_S850000_S850000x1_0 : (⟨S850000, .i32⟩ : BufTy).Contents (Elt F) → (⟨S850000x1, .i32⟩ : BufTy).Contents (Elt F)),
    ternary main_v62 main_v63 main_v61 main_v64 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_v33 main_v65 (broadcastInDim S850000x1 ![0] bcast_S850000_S850000x1_0 : (⟨S850000, .f32⟩ : BufTy).Contents (Elt F) → (⟨S850000x1, .f32⟩ : BufTy).Contents (Elt F)),
    nullary main_c_13 (constantI S_ 32 0#32),
    unary main_c_13 main_v66 (broadcastInDim S850000 ![] bcast_S_S850000 : (⟨S_, .i32⟩ : BufTy).Contents (Elt F) → (⟨S850000, .i32⟩ : BufTy).Contents (Elt F)),
    binary main_v6 main_v66 main_v67 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v68 (broadcastInDim S850000 ![] bcast_S_S850000 : (⟨S_, .i32⟩ : BufTy).Contents (Elt F) → (⟨S850000, .i32⟩ : BufTy).Contents (Elt F)),
    binary main_v6 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v6 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v64 main_v71 main_v72 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v65 main_v73 (broadcastInDim S850000x96 ![0, 1] bcast_S850000x1_S850000x96_0_1 : (⟨S850000x1, .f32⟩ : BufTy).Contents (Elt F) → (⟨S850000x96, .f32⟩ : BufTy).Contents (Elt F)),
    binary main_v73 main_v72 main_v74 (mulf : (⟨S850000x96, .f32⟩ : BufTy).Contents (Elt F) → (⟨S850000x96, .f32⟩ : BufTy).Contents (Elt F) → (⟨S850000x96, .f32⟩ : BufTy).Contents (Elt F)),
    nullary main_cst_15 (constant S_ .f32 0x00000000#32),
    unary main_cst_15 main_v75 (broadcastInDim S50000x96 ![] bcast_S_S50000x96 : (⟨S_, .f32⟩ : BufTy).Contents (Elt F) → (⟨S50000x96, .f32⟩ : BufTy).Contents (Elt F)),
    unary main_v5 main_v76 (broadcastInDim S850000x1 ![0] bcast_S850000_S850000x1_0 : (⟨S850000, .i32⟩ : BufTy).Contents (Elt F) → (⟨S850000x1, .i32⟩ : BufTy).Contents (Elt F)),
    ternary main_v75 main_v76 main_v74 main_v77 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) ]

/-- The fourth stretch: the four hops' hidden layers. -/
abbrev opsC1b : List (HloOp τ sig (Elt F)) :=
  [ unary main_arg2 main_v78 ((extractStridedSlice S1x96x256 ![0, 0, 0] · slices_S4x96x256_S1x96x256_0_0_0) : (⟨S4x96x256, .f32⟩ : BufTy).Contents (Elt F) → (⟨S1x96x256, .f32⟩ : BufTy).Contents (Elt F)),
    reshape main_v78 main_v79 rfl shapeCasts_S1x96x256_S96x256,
    binary main_v38 main_v79 main_v80 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v81 ((extractStridedSlice S1x256 ![0, 0] · slices_S4x256_S1x256_0_0) : (⟨S4x256, .f32⟩ : BufTy).Contents (Elt F) → (⟨S1x256, .f32⟩ : BufTy).Contents (Elt F)),
    reshape main_v81 main_v82 rfl shapeCasts_S1x256_S256,
    unary main_v82 main_v83 (broadcastInDim S1x256 ![1] bcast_S256_S1x256_1 : (⟨S256, .f32⟩ : BufTy).Contents (Elt F) → (⟨S1x256, .f32⟩ : BufTy).Contents (Elt F)),
    unary main_v83 main_v84 (broadcastInDim S50000x256 ![0, 1] bcast_S1x256_S50000x256_0_1 : (⟨S1x256, .f32⟩ : BufTy).Contents (Elt F) → (⟨S50000x256, .f32⟩ : BufTy).Contents (Elt F)),
    binary main_v80 main_v84 main_v85 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v85) (TRef.of (T := ⟨S50000x256, .f32⟩) main_call2_v0) (TRef.of (T := ⟨S50000x256, .f32⟩) main_v86) maximumf,
    unary main_arg2 main_v87 ((extractStridedSlice S1x96x256 ![1, 0, 0] · slices_S4x96x256_S1x96x256_1_0_0) : (⟨S4x96x256, .f32⟩ : BufTy).Contents (Elt F) → (⟨S1x96x256, .f32⟩ : BufTy).Contents (Elt F)),
    reshape main_v87 main_v88 rfl shapeCasts_S1x96x256_S96x256,
    binary main_v51 main_v88 main_v89 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v90 ((extractStridedSlice S1x256 ![1, 0] · slices_S4x256_S1x256_1_0) : (⟨S4x256, .f32⟩ : BufTy).Contents (Elt F) → (⟨S1x256, .f32⟩ : BufTy).Contents (Elt F)),
    reshape main_v90 main_v91 rfl shapeCasts_S1x256_S256,
    unary main_v91 main_v92 (broadcastInDim S1x256 ![1] bcast_S256_S1x256_1 : (⟨S256, .f32⟩ : BufTy).Contents (Elt F) → (⟨S1x256, .f32⟩ : BufTy).Contents (Elt F)),
    unary main_v92 main_v93 (broadcastInDim S50000x256 ![0, 1] bcast_S1x256_S50000x256_0_1 : (⟨S1x256, .f32⟩ : BufTy).Contents (Elt F) → (⟨S50000x256, .f32⟩ : BufTy).Contents (Elt F)),
    binary main_v89 main_v93 main_v94 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v94) (TRef.of (T := ⟨S50000x256, .f32⟩) main_call3_v0) (TRef.of (T := ⟨S50000x256, .f32⟩) main_v95) maximumf,
    unary main_arg2 main_v96 ((extractStridedSlice S1x96x256 ![2, 0, 0] · slices_S4x96x256_S1x96x256_2_0_0) : (⟨S4x96x256, .f32⟩ : BufTy).Contents (Elt F) → (⟨S1x96x256, .f32⟩ : BufTy).Contents (Elt F)),
    reshape main_v96 main_v97 rfl shapeCasts_S1x96x256_S96x256,
    binary main_v64 main_v97 main_v98 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v99 ((extractStridedSlice S1x256 ![2, 0] · slices_S4x256_S1x256_2_0) : (⟨S4x256, .f32⟩ : BufTy).Contents (Elt F) → (⟨S1x256, .f32⟩ : BufTy).Contents (Elt F)),
    reshape main_v99 main_v100 rfl shapeCasts_S1x256_S256,
    unary main_v100 main_v101 (broadcastInDim S1x256 ![1] bcast_S256_S1x256_1 : (⟨S256, .f32⟩ : BufTy).Contents (Elt F) → (⟨S1x256, .f32⟩ : BufTy).Contents (Elt F)),
    unary main_v101 main_v102 (broadcastInDim S50000x256 ![0, 1] bcast_S1x256_S50000x256_0_1 : (⟨S1x256, .f32⟩ : BufTy).Contents (Elt F) → (⟨S50000x256, .f32⟩ : BufTy).Contents (Elt F)),
    binary main_v98 main_v102 main_v103 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v103) (TRef.of (T := ⟨S50000x256, .f32⟩) main_call4_v0) (TRef.of (T := ⟨S50000x256, .f32⟩) main_v104) maximumf,
    unary main_arg2 main_v105 ((extractStridedSlice S1x96x256 ![3, 0, 0] · slices_S4x96x256_S1x96x256_3_0_0) : (⟨S4x96x256, .f32⟩ : BufTy).Contents (Elt F) → (⟨S1x96x256, .f32⟩ : BufTy).Contents (Elt F)),
    reshape main_v105 main_v106 rfl shapeCasts_S1x96x256_S96x256,
    binary main_v77 main_v106 main_v107 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v108 ((extractStridedSlice S1x256 ![3, 0] · slices_S4x256_S1x256_3_0) : (⟨S4x256, .f32⟩ : BufTy).Contents (Elt F) → (⟨S1x256, .f32⟩ : BufTy).Contents (Elt F)),
    reshape main_v108 main_v109 rfl shapeCasts_S1x256_S256,
    unary main_v109 main_v110 (broadcastInDim S1x256 ![1] bcast_S256_S1x256_1 : (⟨S256, .f32⟩ : BufTy).Contents (Elt F) → (⟨S1x256, .f32⟩ : BufTy).Contents (Elt F)),
    unary main_v110 main_v111 (broadcastInDim S50000x256 ![0, 1] bcast_S1x256_S50000x256_0_1 : (⟨S1x256, .f32⟩ : BufTy).Contents (Elt F) → (⟨S50000x256, .f32⟩ : BufTy).Contents (Elt F)),
    binary main_v107 main_v111 main_v112 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v112) (TRef.of (T := ⟨S50000x256, .f32⟩) main_call5_v0) (TRef.of (T := ⟨S50000x256, .f32⟩) main_v113) maximumf ]

/-- The last stretch: the hidden layers side by side, the fusion product, its bias, the last rectifier. -/
abbrev opsC2 : List (HloOp τ sig (Elt F)) :=
  [ nary ![main_v86, main_v95, main_v104, main_v113] main_v114 (fun u => concatenate S50000x1024 1 [⟨S50000x256, u 0⟩, ⟨S50000x256, u 1⟩, ⟨S50000x256, u 2⟩, ⟨S50000x256, u 3⟩] concatenates_S50000x256_S50000x256_S50000x256_S50000x256_S50000x1024_d1),
    binary main_v114 main_arg4 main_v115 ((fun l r => Host.dotGeneral dot_S50000x1024_S1024x256_S50000x256_1_0_0_1_n_n none l r) : (⟨S50000x1024, .f32⟩ : BufTy).Contents (Elt F) → (⟨S1024x256, .f32⟩ : BufTy).Contents (Elt F) → (⟨S50000x256, .f32⟩ : BufTy).Contents (Elt F)),
    unary main_arg5 main_v116 (broadcastInDim S1x256 ![1] bcast_S256_S1x256_1 : (⟨S256, .f32⟩ : BufTy).Contents (Elt F) → (⟨S1x256, .f32⟩ : BufTy).Contents (Elt F)),
    unary main_v116 main_v117 (broadcastInDim S50000x256 ![0, 1] bcast_S1x256_S50000x256_0_1 : (⟨S1x256, .f32⟩ : BufTy).Contents (Elt F) → (⟨S50000x256, .f32⟩ : BufTy).Contents (Elt F)),
    binary main_v115 main_v117 main_v118 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x256, .f32⟩) main_call6_v0) (broadcastInDim S50000x256 ![] bcast_S_S50000x256),
    TRef.binary (TRef.of (T := ⟨S50000x256, .f32⟩) main_v118) (TRef.of (T := ⟨S50000x256, .f32⟩) main_call6_v0) (TRef.of (T := ⟨S50000x256, .f32⟩) main_v119) maximumf ]

set_option maxRecDepth 8192 in
/-- The line is its five stretches. -/
theorem ops_split : (ops : List (HloOp τ sig (Elt F))) = opsA ++ (opsB ++ (opsC1a ++ (opsC1b ++ opsC2))) := rfl

/-! ## The result buffer, read stretch by stretch at the ideal values -/

section Read

variable (m : (ℓ : Loc nD τ sig) → Buf (Elt Ideal) ℓ) (c : Dev nD)

set_option maxHeartbeats 4000000 in
theorem first_src : ((after (opsA (F := Ideal)) (launchContents m c)) (Proc.devRef .tc main_v5) : S850000.Idx → BitVec 32) = src (F := Ideal) (m ((c.tc : Thread nD τ).loc main_arg0)) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_dst : ((after (opsA (F := Ideal)) (launchContents m c)) (Proc.devRef .tc main_v6) : S850000.Idx → BitVec 32) = dst (F := Ideal) (m ((c.tc : Thread nD τ).loc main_arg0)) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_wgt : ((after (opsA (F := Ideal)) (launchContents m c)) (Proc.devRef .tc main_v10) : S850000.Idx → EReal) = wgt (F := Ideal) (m ((c.tc : Thread nD τ).loc main_arg0)) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_pos : ((after (opsA (F := Ideal)) (launchContents m c)) (Proc.devRef .tc main_v15) : S50000.Idx → BitVec 1) = cmpf .ogt (deg (F := Ideal) (m ((c.tc : Thread nD τ).loc main_arg0))) (broadcastInDim S50000 ![] bcast_S_S50000 (constant (F := Ideal) S_ .f32 0x00000000#32)) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_rsq : ((after (opsA (F := Ideal)) (launchContents m c)) (Proc.devRef .tc main_v16) : S50000.Idx → EReal) = Host.rsqrt (F := Ideal) (φ := .f32) (deg (F := Ideal) (m ((c.tc : Thread nD τ).loc main_arg0))) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

set_option maxHeartbeats 4000000 in
theorem first_zero : ((after (opsA (F := Ideal)) (launchContents m c)) (Proc.devRef .tc main_cst_2) : S_.Idx → EReal) = constant (F := Ideal) S_ .f32 0x00000000#32 := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg0 : (after (opsA (F := Ideal)) (launchContents m c)) (Proc.devRef .tc main_arg0) = m ((c.tc : Thread nD τ).loc main_arg0) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg1 : (after (opsA (F := Ideal)) (launchContents m c)) (Proc.devRef .tc main_arg1) = m ((c.tc : Thread nD τ).loc main_arg1) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg2 : (after (opsA (F := Ideal)) (launchContents m c)) (Proc.devRef .tc main_arg2) = m ((c.tc : Thread nD τ).loc main_arg2) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg3 : (after (opsA (F := Ideal)) (launchContents m c)) (Proc.devRef .tc main_arg3) = m ((c.tc : Thread nD τ).loc main_arg3) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg4 : (after (opsA (F := Ideal)) (launchContents m c)) (Proc.devRef .tc main_arg4) = m ((c.tc : Thread nD τ).loc main_arg4) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

set_option maxHeartbeats 4000000 in
theorem first_main_arg5 : (after (opsA (F := Ideal)) (launchContents m c)) (Proc.devRef .tc main_arg5) = m ((c.tc : Thread nD τ).loc main_arg5) := by
  simp only [opsA]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

variable (X : Valuation τ sig (Elt Ideal))

theorem second_dinv :
    (after (opsB (F := Ideal)) X (Proc.devRef .tc main_v17) : S50000.Idx → EReal)
      = select (X (Proc.devRef .tc main_v15) : S50000.Idx → BitVec 1) (X (Proc.devRef .tc main_v16) : S50000.Idx → EReal)
          (broadcastInDim S50000 ![] bcast_S_S50000 (X (Proc.devRef .tc main_cst_2) : S_.Idx → EReal)) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  rfl

theorem second_main_v5 : after (opsB (F := Ideal)) X (Proc.devRef .tc main_v5) = X (Proc.devRef .tc main_v5) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_v6 : after (opsB (F := Ideal)) X (Proc.devRef .tc main_v6) = X (Proc.devRef .tc main_v6) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_v10 : after (opsB (F := Ideal)) X (Proc.devRef .tc main_v10) = X (Proc.devRef .tc main_v10) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg0 : after (opsB (F := Ideal)) X (Proc.devRef .tc main_arg0) = X (Proc.devRef .tc main_arg0) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg1 : after (opsB (F := Ideal)) X (Proc.devRef .tc main_arg1) = X (Proc.devRef .tc main_arg1) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg2 : after (opsB (F := Ideal)) X (Proc.devRef .tc main_arg2) = X (Proc.devRef .tc main_arg2) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg3 : after (opsB (F := Ideal)) X (Proc.devRef .tc main_arg3) = X (Proc.devRef .tc main_arg3) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg4 : after (opsB (F := Ideal)) X (Proc.devRef .tc main_arg4) = X (Proc.devRef .tc main_arg4) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

theorem second_main_arg5 : after (opsB (F := Ideal)) X (Proc.devRef .tc main_arg5) = X (Proc.devRef .tc main_arg5) := by
  simp only [opsB]
  after_results_simp
  repeat (first
    | rw [nullary_result] | rw [unary_result] | rw [binary_result] | rw [ternary_result] | rw [quaternary_result]
    | rw [reshape_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try rfl

/-! A typed reference to a buffer carries contents of the buffer's own type to contents of the stated type and back;
   both are the identity. -/

theorem toBuf_main_arg1 (v : (⟨S50000x96, .f32⟩ : BufTy).Contents (Elt Ideal)) :
    ((TRef.of (T := ⟨S50000x96, .f32⟩) main_arg1).toBuf v : (⟨S50000x96, .f32⟩ : BufTy).Contents (Elt Ideal)) = v := rfl
theorem ofBuf_main_arg1 (v : (⟨S50000x96, .f32⟩ : BufTy).Contents (Elt Ideal)) :
    ((TRef.of (T := ⟨S50000x96, .f32⟩) main_arg1).ofBuf v : (⟨S50000x96, .f32⟩ : BufTy).Contents (Elt Ideal)) = v := rfl
theorem toBuf_main_call1_v0 (v : (⟨S50000x96, .f32⟩ : BufTy).Contents (Elt Ideal)) :
    ((TRef.of (T := ⟨S50000x96, .f32⟩) main_call1_v0).toBuf v : (⟨S50000x96, .f32⟩ : BufTy).Contents (Elt Ideal)) = v := rfl
theorem ofBuf_main_call1_v0 (v : (⟨S50000x96, .f32⟩ : BufTy).Contents (Elt Ideal)) :
    ((TRef.of (T := ⟨S50000x96, .f32⟩) main_call1_v0).ofBuf v : (⟨S50000x96, .f32⟩ : BufTy).Contents (Elt Ideal)) = v := rfl
theorem toBuf_main_call1_cst (v : (⟨S_, .f32⟩ : BufTy).Contents (Elt Ideal)) :
    ((TRef.of (T := ⟨S_, .f32⟩) main_call1_cst).toBuf v : (⟨S_, .f32⟩ : BufTy).Contents (Elt Ideal)) = v := rfl
theorem ofBuf_main_call1_cst (v : (⟨S_, .f32⟩ : BufTy).Contents (Elt Ideal)) :
    ((TRef.of (T := ⟨S_, .f32⟩) main_call1_cst).ofBuf v : (⟨S_, .f32⟩ : BufTy).Contents (Elt Ideal)) = v := rfl
theorem toBuf_main_call1_v1 (v : (⟨S50000, .f32⟩ : BufTy).Contents (Elt Ideal)) :
    ((TRef.of (T := ⟨S50000, .f32⟩) main_call1_v1).toBuf v : (⟨S50000, .f32⟩ : BufTy).Contents (Elt Ideal)) = v := rfl
theorem ofBuf_main_call1_v1 (v : (⟨S50000, .f32⟩ : BufTy).Contents (Elt Ideal)) :
    ((TRef.of (T := ⟨S50000, .f32⟩) main_call1_v1).ofBuf v : (⟨S50000, .f32⟩ : BufTy).Contents (Elt Ideal)) = v := rfl
theorem toBuf_main_call1_v2 (v : (⟨S50000x1, .f32⟩ : BufTy).Contents (Elt Ideal)) :
    ((TRef.of (T := ⟨S50000x1, .f32⟩) main_call1_v2).toBuf v : (⟨S50000x1, .f32⟩ : BufTy).Contents (Elt Ideal)) = v := rfl
theorem ofBuf_main_call1_v2 (v : (⟨S50000x1, .f32⟩ : BufTy).Contents (Elt Ideal)) :
    ((TRef.of (T := ⟨S50000x1, .f32⟩) main_call1_v2).ofBuf v : (⟨S50000x1, .f32⟩ : BufTy).Contents (Elt Ideal)) = v := rfl
theorem toBuf_main_v34 (v : (⟨S50000x1, .f32⟩ : BufTy).Contents (Elt Ideal)) :
    ((TRef.of (T := ⟨S50000x1, .f32⟩) main_v34).toBuf v : (⟨S50000x1, .f32⟩ : BufTy).Contents (Elt Ideal)) = v := rfl
theorem ofBuf_main_v34 (v : (⟨S50000x1, .f32⟩ : BufTy).Contents (Elt Ideal)) :
    ((TRef.of (T := ⟨S50000x1, .f32⟩) main_v34).ofBuf v : (⟨S50000x1, .f32⟩ : BufTy).Contents (Elt Ideal)) = v := rfl
theorem toBuf_main_v85 (v : (⟨S50000x256, .f32⟩ : BufTy).Contents (Elt Ideal)) :
    ((TRef.of (T := ⟨S50000x256, .f32⟩) main_v85).toBuf v : (⟨S50000x256, .f32⟩ : BufTy).Contents (Elt Ideal)) = v := rfl
theorem ofBuf_main_v85 (v : (⟨S50000x256, .f32⟩ : BufTy).Contents (Elt Ideal)) :
    ((TRef.of (T := ⟨S50000x256, .f32⟩) main_v85).ofBuf v : (⟨S50000x256, .f32⟩ : BufTy).Contents (Elt Ideal)) = v := rfl
theorem toBuf_main_call2_cst (v : (⟨S_, .f32⟩ : BufTy).Contents (Elt Ideal)) :
    ((TRef.of (T := ⟨S_, .f32⟩) main_call2_cst).toBuf v : (⟨S_, .f32⟩ : BufTy).Contents (Elt Ideal)) = v := rfl
theorem ofBuf_main_call2_cst (v : (⟨S_, .f32⟩ : BufTy).Contents (Elt Ideal)) :
    ((TRef.of (T := ⟨S_, .f32⟩) main_call2_cst).ofBuf v : (⟨S_, .f32⟩ : BufTy).Contents (Elt Ideal)) = v := rfl
theorem toBuf_main_call2_v0 (v : (⟨S50000x256, .f32⟩ : BufTy).Contents (Elt Ideal)) :
    ((TRef.of (T := ⟨S50000x256, .f32⟩) main_call2_v0).toBuf v : (⟨S50000x256, .f32⟩ : BufTy).Contents (Elt Ideal)) = v := rfl
theorem ofBuf_main_call2_v0 (v : (⟨S50000x256, .f32⟩ : BufTy).Contents (Elt Ideal)) :
    ((TRef.of (T := ⟨S50000x256, .f32⟩) main_call2_v0).ofBuf v : (⟨S50000x256, .f32⟩ : BufTy).Contents (Elt Ideal)) = v := rfl
theorem toBuf_main_v86 (v : (⟨S50000x256, .f32⟩ : BufTy).Contents (Elt Ideal)) :
    ((TRef.of (T := ⟨S50000x256, .f32⟩) main_v86).toBuf v : (⟨S50000x256, .f32⟩ : BufTy).Contents (Elt Ideal)) = v := rfl
theorem ofBuf_main_v86 (v : (⟨S50000x256, .f32⟩ : BufTy).Contents (Elt Ideal)) :
    ((TRef.of (T := ⟨S50000x256, .f32⟩) main_v86).ofBuf v : (⟨S50000x256, .f32⟩ : BufTy).Contents (Elt Ideal)) = v := rfl
theorem toBuf_main_v94 (v : (⟨S50000x256, .f32⟩ : BufTy).Contents (Elt Ideal)) :
    ((TRef.of (T := ⟨S50000x256, .f32⟩) main_v94).toBuf v : (⟨S50000x256, .f32⟩ : BufTy).Contents (Elt Ideal)) = v := rfl
theorem ofBuf_main_v94 (v : (⟨S50000x256, .f32⟩ : BufTy).Contents (Elt Ideal)) :
    ((TRef.of (T := ⟨S50000x256, .f32⟩) main_v94).ofBuf v : (⟨S50000x256, .f32⟩ : BufTy).Contents (Elt Ideal)) = v := rfl
theorem toBuf_main_call3_cst (v : (⟨S_, .f32⟩ : BufTy).Contents (Elt Ideal)) :
    ((TRef.of (T := ⟨S_, .f32⟩) main_call3_cst).toBuf v : (⟨S_, .f32⟩ : BufTy).Contents (Elt Ideal)) = v := rfl
theorem ofBuf_main_call3_cst (v : (⟨S_, .f32⟩ : BufTy).Contents (Elt Ideal)) :
    ((TRef.of (T := ⟨S_, .f32⟩) main_call3_cst).ofBuf v : (⟨S_, .f32⟩ : BufTy).Contents (Elt Ideal)) = v := rfl
theorem toBuf_main_call3_v0 (v : (⟨S50000x256, .f32⟩ : BufTy).Contents (Elt Ideal)) :
    ((TRef.of (T := ⟨S50000x256, .f32⟩) main_call3_v0).toBuf v : (⟨S50000x256, .f32⟩ : BufTy).Contents (Elt Ideal)) = v := rfl
theorem ofBuf_main_call3_v0 (v : (⟨S50000x256, .f32⟩ : BufTy).Contents (Elt Ideal)) :
    ((TRef.of (T := ⟨S50000x256, .f32⟩) main_call3_v0).ofBuf v : (⟨S50000x256, .f32⟩ : BufTy).Contents (Elt Ideal)) = v := rfl
theorem toBuf_main_v95 (v : (⟨S50000x256, .f32⟩ : BufTy).Contents (Elt Ideal)) :
    ((TRef.of (T := ⟨S50000x256, .f32⟩) main_v95).toBuf v : (⟨S50000x256, .f32⟩ : BufTy).Contents (Elt Ideal)) = v := rfl
theorem ofBuf_main_v95 (v : (⟨S50000x256, .f32⟩ : BufTy).Contents (Elt Ideal)) :
    ((TRef.of (T := ⟨S50000x256, .f32⟩) main_v95).ofBuf v : (⟨S50000x256, .f32⟩ : BufTy).Contents (Elt Ideal)) = v := rfl
theorem toBuf_main_v103 (v : (⟨S50000x256, .f32⟩ : BufTy).Contents (Elt Ideal)) :
    ((TRef.of (T := ⟨S50000x256, .f32⟩) main_v103).toBuf v : (⟨S50000x256, .f32⟩ : BufTy).Contents (Elt Ideal)) = v := rfl
theorem ofBuf_main_v103 (v : (⟨S50000x256, .f32⟩ : BufTy).Contents (Elt Ideal)) :
    ((TRef.of (T := ⟨S50000x256, .f32⟩) main_v103).ofBuf v : (⟨S50000x256, .f32⟩ : BufTy).Contents (Elt Ideal)) = v := rfl
theorem toBuf_main_call4_cst (v : (⟨S_, .f32⟩ : BufTy).Contents (Elt Ideal)) :
    ((TRef.of (T := ⟨S_, .f32⟩) main_call4_cst).toBuf v : (⟨S_, .f32⟩ : BufTy).Contents (Elt Ideal)) = v := rfl
theorem ofBuf_main_call4_cst (v : (⟨S_, .f32⟩ : BufTy).Contents (Elt Ideal)) :
    ((TRef.of (T := ⟨S_, .f32⟩) main_call4_cst).ofBuf v : (⟨S_, .f32⟩ : BufTy).Contents (Elt Ideal)) = v := rfl
theorem toBuf_main_call4_v0 (v : (⟨S50000x256, .f32⟩ : BufTy).Contents (Elt Ideal)) :
    ((TRef.of (T := ⟨S50000x256, .f32⟩) main_call4_v0).toBuf v : (⟨S50000x256, .f32⟩ : BufTy).Contents (Elt Ideal)) = v := rfl
theorem ofBuf_main_call4_v0 (v : (⟨S50000x256, .f32⟩ : BufTy).Contents (Elt Ideal)) :
    ((TRef.of (T := ⟨S50000x256, .f32⟩) main_call4_v0).ofBuf v : (⟨S50000x256, .f32⟩ : BufTy).Contents (Elt Ideal)) = v := rfl
theorem toBuf_main_v104 (v : (⟨S50000x256, .f32⟩ : BufTy).Contents (Elt Ideal)) :
    ((TRef.of (T := ⟨S50000x256, .f32⟩) main_v104).toBuf v : (⟨S50000x256, .f32⟩ : BufTy).Contents (Elt Ideal)) = v := rfl
theorem ofBuf_main_v104 (v : (⟨S50000x256, .f32⟩ : BufTy).Contents (Elt Ideal)) :
    ((TRef.of (T := ⟨S50000x256, .f32⟩) main_v104).ofBuf v : (⟨S50000x256, .f32⟩ : BufTy).Contents (Elt Ideal)) = v := rfl
theorem toBuf_main_v112 (v : (⟨S50000x256, .f32⟩ : BufTy).Contents (Elt Ideal)) :
    ((TRef.of (T := ⟨S50000x256, .f32⟩) main_v112).toBuf v : (⟨S50000x256, .f32⟩ : BufTy).Contents (Elt Ideal)) = v := rfl
theorem ofBuf_main_v112 (v : (⟨S50000x256, .f32⟩ : BufTy).Contents (Elt Ideal)) :
    ((TRef.of (T := ⟨S50000x256, .f32⟩) main_v112).ofBuf v : (⟨S50000x256, .f32⟩ : BufTy).Contents (Elt Ideal)) = v := rfl
theorem toBuf_main_call5_cst (v : (⟨S_, .f32⟩ : BufTy).Contents (Elt Ideal)) :
    ((TRef.of (T := ⟨S_, .f32⟩) main_call5_cst).toBuf v : (⟨S_, .f32⟩ : BufTy).Contents (Elt Ideal)) = v := rfl
theorem ofBuf_main_call5_cst (v : (⟨S_, .f32⟩ : BufTy).Contents (Elt Ideal)) :
    ((TRef.of (T := ⟨S_, .f32⟩) main_call5_cst).ofBuf v : (⟨S_, .f32⟩ : BufTy).Contents (Elt Ideal)) = v := rfl
theorem toBuf_main_call5_v0 (v : (⟨S50000x256, .f32⟩ : BufTy).Contents (Elt Ideal)) :
    ((TRef.of (T := ⟨S50000x256, .f32⟩) main_call5_v0).toBuf v : (⟨S50000x256, .f32⟩ : BufTy).Contents (Elt Ideal)) = v := rfl
theorem ofBuf_main_call5_v0 (v : (⟨S50000x256, .f32⟩ : BufTy).Contents (Elt Ideal)) :
    ((TRef.of (T := ⟨S50000x256, .f32⟩) main_call5_v0).ofBuf v : (⟨S50000x256, .f32⟩ : BufTy).Contents (Elt Ideal)) = v := rfl
theorem toBuf_main_v113 (v : (⟨S50000x256, .f32⟩ : BufTy).Contents (Elt Ideal)) :
    ((TRef.of (T := ⟨S50000x256, .f32⟩) main_v113).toBuf v : (⟨S50000x256, .f32⟩ : BufTy).Contents (Elt Ideal)) = v := rfl
theorem ofBuf_main_v113 (v : (⟨S50000x256, .f32⟩ : BufTy).Contents (Elt Ideal)) :
    ((TRef.of (T := ⟨S50000x256, .f32⟩) main_v113).ofBuf v : (⟨S50000x256, .f32⟩ : BufTy).Contents (Elt Ideal)) = v := rfl
theorem toBuf_main_v118 (v : (⟨S50000x256, .f32⟩ : BufTy).Contents (Elt Ideal)) :
    ((TRef.of (T := ⟨S50000x256, .f32⟩) main_v118).toBuf v : (⟨S50000x256, .f32⟩ : BufTy).Contents (Elt Ideal)) = v := rfl
theorem ofBuf_main_v118 (v : (⟨S50000x256, .f32⟩ : BufTy).Contents (Elt Ideal)) :
    ((TRef.of (T := ⟨S50000x256, .f32⟩) main_v118).ofBuf v : (⟨S50000x256, .f32⟩ : BufTy).Contents (Elt Ideal)) = v := rfl
theorem toBuf_main_call6_cst (v : (⟨S_, .f32⟩ : BufTy).Contents (Elt Ideal)) :
    ((TRef.of (T := ⟨S_, .f32⟩) main_call6_cst).toBuf v : (⟨S_, .f32⟩ : BufTy).Contents (Elt Ideal)) = v := rfl
theorem ofBuf_main_call6_cst (v : (⟨S_, .f32⟩ : BufTy).Contents (Elt Ideal)) :
    ((TRef.of (T := ⟨S_, .f32⟩) main_call6_cst).ofBuf v : (⟨S_, .f32⟩ : BufTy).Contents (Elt Ideal)) = v := rfl
theorem toBuf_main_call6_v0 (v : (⟨S50000x256, .f32⟩ : BufTy).Contents (Elt Ideal)) :
    ((TRef.of (T := ⟨S50000x256, .f32⟩) main_call6_v0).toBuf v : (⟨S50000x256, .f32⟩ : BufTy).Contents (Elt Ideal)) = v := rfl
theorem ofBuf_main_call6_v0 (v : (⟨S50000x256, .f32⟩ : BufTy).Contents (Elt Ideal)) :
    ((TRef.of (T := ⟨S50000x256, .f32⟩) main_call6_v0).ofBuf v : (⟨S50000x256, .f32⟩ : BufTy).Contents (Elt Ideal)) = v := rfl
theorem toBuf_main_v119 (v : (⟨S50000x256, .f32⟩ : BufTy).Contents (Elt Ideal)) :
    ((TRef.of (T := ⟨S50000x256, .f32⟩) main_v119).toBuf v : (⟨S50000x256, .f32⟩ : BufTy).Contents (Elt Ideal)) = v := rfl
theorem ofBuf_main_v119 (v : (⟨S50000x256, .f32⟩ : BufTy).Contents (Elt Ideal)) :
    ((TRef.of (T := ⟨S50000x256, .f32⟩) main_v119).ofBuf v : (⟨S50000x256, .f32⟩ : BufTy).Contents (Elt Ideal)) = v := rfl

end Read

end Cert.RefRun

end
-- ==== Proof.RefRunB.lean ====
/-
  The reference's line of host operations, third stretch: from ANY contents in which the entries' sources, targets and
  weights, the nodes' inverse-square-root factors and the feature argument are the named ones, the four buffers that hold
  the hops' features end at the graph stage's four hop feature arrays, and the argument buffers are left alone.
-/
import proofs.«146148_j87600152969918_2_alg».proof.Proof.RefStages
import proofs.«146148_j87600152969918_2_alg».proof.Proof.RefRunA
import Idealize.ShloMosaic.Lib.StableHlo.Run
import proofs.«146148_j87600152969918_2_alg».proof.Proof.LibAfterAppend
import Idealize.ShloMosaic.PureOps.Ideal

noncomputable section

namespace Cert.RefRun

open Cert.ReferenceIdeal Cert.ReferenceIdeal.Gen Cert.RefStages Idealize.ShloMosaic Idealize.ShloMosaic.TcCoe Idealize.SL.Sem Idealize.ShloMosaic.StableHlo

section Read

variable (X : Valuation τ sig (Elt Ideal))

variable (x0 : (⟨S2x800000, .i32⟩ : BufTy).Contents (Elt Ideal)) (x1 : (⟨S50000x96, .f32⟩ : BufTy).Contents (Elt Ideal))

set_option maxRecDepth 65536 in
set_option maxHeartbeats 16000000 in
/-- Hop 0's features after the third stretch. -/
theorem third_feat0 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after (opsC1a (F := Ideal)) X (Proc.devRef .tc main_v38) : S50000x96.Idx → EReal) = feat0 (F := Ideal) x1 := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [hS]
  try rw [hT]
  try rw [hW]
  try rw [hD]
  rw [h1]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxRecDepth 65536 in
set_option maxHeartbeats 16000000 in
/-- Hop 1's features after the third stretch. -/
theorem third_feat1 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after (opsC1a (F := Ideal)) X (Proc.devRef .tc main_v51) : S50000x96.Idx → EReal) = feat1 (F := Ideal) x0 x1 := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [hS]
  try rw [hT]
  try rw [hW]
  try rw [hD]
  rw [h1]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxRecDepth 65536 in
set_option maxHeartbeats 16000000 in
/-- Hop 2's features after the third stretch. -/
theorem third_feat2 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after (opsC1a (F := Ideal)) X (Proc.devRef .tc main_v64) : S50000x96.Idx → EReal) = feat2 (F := Ideal) x0 x1 := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [hS]
  try rw [hT]
  try rw [hW]
  try rw [hD]
  rw [h1]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxRecDepth 65536 in
set_option maxHeartbeats 16000000 in
/-- Hop 3's features after the third stretch. -/
theorem third_feat3 (hS : (X (Proc.devRef .tc main_v5) : S850000.Idx → BitVec 32) = src (F := Ideal) x0)
    (hT : (X (Proc.devRef .tc main_v6) : S850000.Idx → BitVec 32) = dst (F := Ideal) x0)
    (hW : (X (Proc.devRef .tc main_v10) : S850000.Idx → EReal) = wgt (F := Ideal) x0)
    (hD : (X (Proc.devRef .tc main_v17) : S50000.Idx → EReal) = dinv (F := Ideal) x0)
    (h1 : (X (Proc.devRef .tc main_arg1) : S50000x96.Idx → EReal) = x1) :
    (after (opsC1a (F := Ideal)) X (Proc.devRef .tc main_v77) : S50000x96.Idx → EReal) = feat3 (F := Ideal) x0 x1 := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  try rw [hS]
  try rw [hT]
  try rw [hW]
  try rw [hD]
  rw [h1]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxHeartbeats 4000000 in
theorem third_main_arg0 : after (opsC1a (F := Ideal)) X (Proc.devRef .tc main_arg0) = X (Proc.devRef .tc main_arg0) := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem third_main_arg1 : after (opsC1a (F := Ideal)) X (Proc.devRef .tc main_arg1) = X (Proc.devRef .tc main_arg1) := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem third_main_arg2 : after (opsC1a (F := Ideal)) X (Proc.devRef .tc main_arg2) = X (Proc.devRef .tc main_arg2) := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem third_main_arg3 : after (opsC1a (F := Ideal)) X (Proc.devRef .tc main_arg3) = X (Proc.devRef .tc main_arg3) := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem third_main_arg4 : after (opsC1a (F := Ideal)) X (Proc.devRef .tc main_arg4) = X (Proc.devRef .tc main_arg4) := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem third_main_arg5 : after (opsC1a (F := Ideal)) X (Proc.devRef .tc main_arg5) = X (Proc.devRef .tc main_arg5) := by
  simp only [opsC1a]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

end Read

end Cert.RefRun

end
-- ==== Proof.RefRunC.lean ====
/-
  The reference's line of host operations, fourth stretch: from ANY contents, each hop's hidden-layer buffer ends at
  `hidden` of whatever the hop's feature buffer holds — the features times the hop's slab of the projection array, plus
  its row of the biases, rectified — and the argument buffers are left alone.
-/
import proofs.«146148_j87600152969918_2_alg».proof.Proof.RefStages
import proofs.«146148_j87600152969918_2_alg».proof.Proof.RefRunA
import Idealize.ShloMosaic.Lib.StableHlo.Run
import proofs.«146148_j87600152969918_2_alg».proof.Proof.LibAfterAppend
import Idealize.ShloMosaic.PureOps.Ideal

noncomputable section

namespace Cert.RefRun

open Cert.ReferenceIdeal Cert.ReferenceIdeal.Gen Cert.RefStages Idealize.ShloMosaic Idealize.ShloMosaic.TcCoe Idealize.SL.Sem Idealize.ShloMosaic.StableHlo

section Read

variable (X : Valuation τ sig (Elt Ideal))

variable (x2 : (⟨S4x96x256, .f32⟩ : BufTy).Contents (Elt Ideal)) (x3 : (⟨S4x256, .f32⟩ : BufTy).Contents (Elt Ideal))

set_option maxHeartbeats 4000000 in
/-- Hop 0's hidden layer after the fourth stretch, from any features `H` in the hop's feature buffer. -/
theorem fourth_hidden0 (H : (⟨S50000x96, .f32⟩ : BufTy).Contents (Elt Ideal)) (hH : (X (Proc.devRef .tc main_v38) : S50000x96.Idx → EReal) = H)
    (h2 : (X (Proc.devRef .tc main_arg2) : S4x96x256.Idx → EReal) = x2) (h3 : (X (Proc.devRef .tc main_arg3) : S4x256.Idx → EReal) = x3) :
    (after (opsC1b (F := Ideal)) X (Proc.devRef .tc main_v86) : S50000x256.Idx → EReal)
      = hidden (F := Ideal) H x2 x3 ![0, 0, 0] slices_S4x96x256_S1x96x256_0_0_0 ![0, 0] slices_S4x256_S1x256_0_0 := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  rw [hH, h2, h3]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxHeartbeats 4000000 in
/-- Hop 1's hidden layer after the fourth stretch, from any features `H` in the hop's feature buffer. -/
theorem fourth_hidden1 (H : (⟨S50000x96, .f32⟩ : BufTy).Contents (Elt Ideal)) (hH : (X (Proc.devRef .tc main_v51) : S50000x96.Idx → EReal) = H)
    (h2 : (X (Proc.devRef .tc main_arg2) : S4x96x256.Idx → EReal) = x2) (h3 : (X (Proc.devRef .tc main_arg3) : S4x256.Idx → EReal) = x3) :
    (after (opsC1b (F := Ideal)) X (Proc.devRef .tc main_v95) : S50000x256.Idx → EReal)
      = hidden (F := Ideal) H x2 x3 ![1, 0, 0] slices_S4x96x256_S1x96x256_1_0_0 ![1, 0] slices_S4x256_S1x256_1_0 := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  rw [hH, h2, h3]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxHeartbeats 4000000 in
/-- Hop 2's hidden layer after the fourth stretch, from any features `H` in the hop's feature buffer. -/
theorem fourth_hidden2 (H : (⟨S50000x96, .f32⟩ : BufTy).Contents (Elt Ideal)) (hH : (X (Proc.devRef .tc main_v64) : S50000x96.Idx → EReal) = H)
    (h2 : (X (Proc.devRef .tc main_arg2) : S4x96x256.Idx → EReal) = x2) (h3 : (X (Proc.devRef .tc main_arg3) : S4x256.Idx → EReal) = x3) :
    (after (opsC1b (F := Ideal)) X (Proc.devRef .tc main_v104) : S50000x256.Idx → EReal)
      = hidden (F := Ideal) H x2 x3 ![2, 0, 0] slices_S4x96x256_S1x96x256_2_0_0 ![2, 0] slices_S4x256_S1x256_2_0 := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  rw [hH, h2, h3]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxHeartbeats 4000000 in
/-- Hop 3's hidden layer after the fourth stretch, from any features `H` in the hop's feature buffer. -/
theorem fourth_hidden3 (H : (⟨S50000x96, .f32⟩ : BufTy).Contents (Elt Ideal)) (hH : (X (Proc.devRef .tc main_v77) : S50000x96.Idx → EReal) = H)
    (h2 : (X (Proc.devRef .tc main_arg2) : S4x96x256.Idx → EReal) = x2) (h3 : (X (Proc.devRef .tc main_arg3) : S4x256.Idx → EReal) = x3) :
    (after (opsC1b (F := Ideal)) X (Proc.devRef .tc main_v113) : S50000x256.Idx → EReal)
      = hidden (F := Ideal) H x2 x3 ![3, 0, 0] slices_S4x96x256_S1x96x256_3_0_0 ![3, 0] slices_S4x256_S1x256_3_0 := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  rw [hH, h2, h3]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxHeartbeats 4000000 in
theorem fourth_main_arg0 : after (opsC1b (F := Ideal)) X (Proc.devRef .tc main_arg0) = X (Proc.devRef .tc main_arg0) := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem fourth_main_arg1 : after (opsC1b (F := Ideal)) X (Proc.devRef .tc main_arg1) = X (Proc.devRef .tc main_arg1) := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem fourth_main_arg2 : after (opsC1b (F := Ideal)) X (Proc.devRef .tc main_arg2) = X (Proc.devRef .tc main_arg2) := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem fourth_main_arg3 : after (opsC1b (F := Ideal)) X (Proc.devRef .tc main_arg3) = X (Proc.devRef .tc main_arg3) := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem fourth_main_arg4 : after (opsC1b (F := Ideal)) X (Proc.devRef .tc main_arg4) = X (Proc.devRef .tc main_arg4) := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem fourth_main_arg5 : after (opsC1b (F := Ideal)) X (Proc.devRef .tc main_arg5) = X (Proc.devRef .tc main_arg5) := by
  simp only [opsC1b]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

end Read

end Cert.RefRun

end
-- ==== Proof.RefRun.lean ====
/-
  The reference program's run, read back: its @main is a straight line of host operations, so every weakly fair
  execution terminates with each buffer at the fold of the operations' results over the launch contents; reading the
  line stretch by stretch, the result buffer holds the dense stage of the network applied to the four hop feature arrays
  of the graph stage, and the arguments are unchanged.
-/
import proofs.«146148_j87600152969918_2_alg».proof.Proof.RefStages
import proofs.«146148_j87600152969918_2_alg».proof.Proof.RefRunA
import proofs.«146148_j87600152969918_2_alg».proof.Proof.RefRunB
import proofs.«146148_j87600152969918_2_alg».proof.Proof.RefRunC
import Idealize.ShloMosaic.Lib.StableHlo.Run
import proofs.«146148_j87600152969918_2_alg».proof.Proof.LibAfterAppend
import Idealize.ShloMosaic.PureOps.Ideal

noncomputable section

namespace Cert.RefRun

open Cert.ReferenceIdeal Cert.ReferenceIdeal.Gen Cert.RefStages Idealize.ShloMosaic Idealize.ShloMosaic.TcCoe Idealize.SL.Sem Idealize.ShloMosaic.StableHlo

section Read

variable (m : (ℓ : Loc nD τ sig) → Buf (Elt Ideal) ℓ) (c : Dev nD)

section Last

variable (X : Valuation τ sig (Elt Ideal))

variable (x0 : (⟨S2x800000, .i32⟩ : BufTy).Contents (Elt Ideal)) (x1 : (⟨S50000x96, .f32⟩ : BufTy).Contents (Elt Ideal)) (x2 : (⟨S4x96x256, .f32⟩ : BufTy).Contents (Elt Ideal)) (x3 : (⟨S4x256, .f32⟩ : BufTy).Contents (Elt Ideal))
  (x4 : (⟨S1024x256, .f32⟩ : BufTy).Contents (Elt Ideal)) (x5 : (⟨S256, .f32⟩ : BufTy).Contents (Elt Ideal))

set_option maxHeartbeats 4000000 in
/-- The last stretch: from contents in which the four hidden-layer buffers and the fusion arguments are the named ones,
    the result buffer ends at `result`. -/
theorem last_result
    (hH0 : (X (Proc.devRef .tc main_v86) : S50000x256.Idx → EReal) = hidden (F := Ideal) (feat0 (F := Ideal) x1) x2 x3 ![0, 0, 0] slices_S4x96x256_S1x96x256_0_0_0 ![0, 0] slices_S4x256_S1x256_0_0)
    (hH1 : (X (Proc.devRef .tc main_v95) : S50000x256.Idx → EReal) = hidden (F := Ideal) (feat1 (F := Ideal) x0 x1) x2 x3 ![1, 0, 0] slices_S4x96x256_S1x96x256_1_0_0 ![1, 0] slices_S4x256_S1x256_1_0)
    (hH2 : (X (Proc.devRef .tc main_v104) : S50000x256.Idx → EReal) = hidden (F := Ideal) (feat2 (F := Ideal) x0 x1) x2 x3 ![2, 0, 0] slices_S4x96x256_S1x96x256_2_0_0 ![2, 0] slices_S4x256_S1x256_2_0)
    (hH3 : (X (Proc.devRef .tc main_v113) : S50000x256.Idx → EReal) = hidden (F := Ideal) (feat3 (F := Ideal) x0 x1) x2 x3 ![3, 0, 0] slices_S4x96x256_S1x96x256_3_0_0 ![3, 0] slices_S4x256_S1x256_3_0)
    (h4 : (X (Proc.devRef .tc main_arg4) : S1024x256.Idx → EReal) = x4) (h5 : (X (Proc.devRef .tc main_arg5) : S256.Idx → EReal) = x5) :
    (after (opsC2 (F := Ideal)) X (Proc.devRef .tc main_v119) : S50000x256.Idx → EReal) = result (F := Ideal) x0 x1 x2 x3 x4 x5 := by
  simp only [opsC2]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  rw [hH0, hH1, hH2, hH3, h4, h5]
  simp only [toBuf_main_arg1, ofBuf_main_arg1, toBuf_main_call1_v0, ofBuf_main_call1_v0, toBuf_main_call1_cst, ofBuf_main_call1_cst, toBuf_main_call1_v1, ofBuf_main_call1_v1, toBuf_main_call1_v2, ofBuf_main_call1_v2, toBuf_main_v34, ofBuf_main_v34, toBuf_main_v85, ofBuf_main_v85, toBuf_main_call2_cst, ofBuf_main_call2_cst, toBuf_main_call2_v0, ofBuf_main_call2_v0, toBuf_main_v86, ofBuf_main_v86, toBuf_main_v94, ofBuf_main_v94, toBuf_main_call3_cst, ofBuf_main_call3_cst, toBuf_main_call3_v0, ofBuf_main_call3_v0, toBuf_main_v95, ofBuf_main_v95, toBuf_main_v103, ofBuf_main_v103, toBuf_main_call4_cst, ofBuf_main_call4_cst, toBuf_main_call4_v0, ofBuf_main_call4_v0, toBuf_main_v104, ofBuf_main_v104, toBuf_main_v112, ofBuf_main_v112, toBuf_main_call5_cst, ofBuf_main_call5_cst, toBuf_main_call5_v0, ofBuf_main_call5_v0, toBuf_main_v113, ofBuf_main_v113, toBuf_main_v118, ofBuf_main_v118, toBuf_main_call6_cst, ofBuf_main_call6_cst, toBuf_main_call6_v0, ofBuf_main_call6_v0, toBuf_main_v119, ofBuf_main_v119]
  rfl

set_option maxHeartbeats 4000000 in
theorem last_main_arg0 : after (opsC2 (F := Ideal)) X (Proc.devRef .tc main_arg0) = X (Proc.devRef .tc main_arg0) := by
  simp only [opsC2]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem last_main_arg1 : after (opsC2 (F := Ideal)) X (Proc.devRef .tc main_arg1) = X (Proc.devRef .tc main_arg1) := by
  simp only [opsC2]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem last_main_arg2 : after (opsC2 (F := Ideal)) X (Proc.devRef .tc main_arg2) = X (Proc.devRef .tc main_arg2) := by
  simp only [opsC2]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem last_main_arg3 : after (opsC2 (F := Ideal)) X (Proc.devRef .tc main_arg3) = X (Proc.devRef .tc main_arg3) := by
  simp only [opsC2]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem last_main_arg4 : after (opsC2 (F := Ideal)) X (Proc.devRef .tc main_arg4) = X (Proc.devRef .tc main_arg4) := by
  simp only [opsC2]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 4000000 in
theorem last_main_arg5 : after (opsC2 (F := Ideal)) X (Proc.devRef .tc main_arg5) = X (Proc.devRef .tc main_arg5) := by
  simp only [opsC2]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']

end Last

theorem w1_dinv : ((after (opsB (F := Ideal)) (after (opsA (F := Ideal)) (launchContents m c))) (Proc.devRef .tc main_v17) : S50000.Idx → EReal) = dinv (F := Ideal) (m ((c.tc : Thread nD τ).loc main_arg0)) := by
  rw [second_dinv, first_pos, first_rsq, first_zero]
  rfl

theorem w2_feat0 : ((after (opsC1a (F := Ideal)) (after (opsB (F := Ideal)) (after (opsA (F := Ideal)) (launchContents m c)))) (Proc.devRef .tc main_v38) : S50000x96.Idx → EReal) = feat0 (F := Ideal) (m ((c.tc : Thread nD τ).loc main_arg1)) :=
  third_feat0 _ _ _ ((second_main_v5 _).trans (first_src m c)) ((second_main_v6 _).trans (first_dst m c)) ((second_main_v10 _).trans (first_wgt m c))
    (w1_dinv m c) ((second_main_arg1 _).trans (first_main_arg1 m c))

theorem w3_hidden0 : ((after (opsC1b (F := Ideal)) (after (opsC1a (F := Ideal)) (after (opsB (F := Ideal)) (after (opsA (F := Ideal)) (launchContents m c))))) (Proc.devRef .tc main_v86) : S50000x256.Idx → EReal) = hidden (F := Ideal) (feat0 (F := Ideal) (m ((c.tc : Thread nD τ).loc main_arg1))) (m ((c.tc : Thread nD τ).loc main_arg2)) (m ((c.tc : Thread nD τ).loc main_arg3)) ![0, 0, 0] slices_S4x96x256_S1x96x256_0_0_0 ![0, 0] slices_S4x256_S1x256_0_0 :=
  fourth_hidden0 _ _ _ _ (w2_feat0 m c) ((third_main_arg2 _).trans ((second_main_arg2 _).trans (first_main_arg2 m c))) ((third_main_arg3 _).trans ((second_main_arg3 _).trans (first_main_arg3 m c)))

theorem w2_feat1 : ((after (opsC1a (F := Ideal)) (after (opsB (F := Ideal)) (after (opsA (F := Ideal)) (launchContents m c)))) (Proc.devRef .tc main_v51) : S50000x96.Idx → EReal) = feat1 (F := Ideal) (m ((c.tc : Thread nD τ).loc main_arg0)) (m ((c.tc : Thread nD τ).loc main_arg1)) :=
  third_feat1 _ _ _ ((second_main_v5 _).trans (first_src m c)) ((second_main_v6 _).trans (first_dst m c)) ((second_main_v10 _).trans (first_wgt m c))
    (w1_dinv m c) ((second_main_arg1 _).trans (first_main_arg1 m c))

theorem w3_hidden1 : ((after (opsC1b (F := Ideal)) (after (opsC1a (F := Ideal)) (after (opsB (F := Ideal)) (after (opsA (F := Ideal)) (launchContents m c))))) (Proc.devRef .tc main_v95) : S50000x256.Idx → EReal) = hidden (F := Ideal) (feat1 (F := Ideal) (m ((c.tc : Thread nD τ).loc main_arg0)) (m ((c.tc : Thread nD τ).loc main_arg1))) (m ((c.tc : Thread nD τ).loc main_arg2)) (m ((c.tc : Thread nD τ).loc main_arg3)) ![1, 0, 0] slices_S4x96x256_S1x96x256_1_0_0 ![1, 0] slices_S4x256_S1x256_1_0 :=
  fourth_hidden1 _ _ _ _ (w2_feat1 m c) ((third_main_arg2 _).trans ((second_main_arg2 _).trans (first_main_arg2 m c))) ((third_main_arg3 _).trans ((second_main_arg3 _).trans (first_main_arg3 m c)))

theorem w2_feat2 : ((after (opsC1a (F := Ideal)) (after (opsB (F := Ideal)) (after (opsA (F := Ideal)) (launchContents m c)))) (Proc.devRef .tc main_v64) : S50000x96.Idx → EReal) = feat2 (F := Ideal) (m ((c.tc : Thread nD τ).loc main_arg0)) (m ((c.tc : Thread nD τ).loc main_arg1)) :=
  third_feat2 _ _ _ ((second_main_v5 _).trans (first_src m c)) ((second_main_v6 _).trans (first_dst m c)) ((second_main_v10 _).trans (first_wgt m c))
    (w1_dinv m c) ((second_main_arg1 _).trans (first_main_arg1 m c))

theorem w3_hidden2 : ((after (opsC1b (F := Ideal)) (after (opsC1a (F := Ideal)) (after (opsB (F := Ideal)) (after (opsA (F := Ideal)) (launchContents m c))))) (Proc.devRef .tc main_v104) : S50000x256.Idx → EReal) = hidden (F := Ideal) (feat2 (F := Ideal) (m ((c.tc : Thread nD τ).loc main_arg0)) (m ((c.tc : Thread nD τ).loc main_arg1))) (m ((c.tc : Thread nD τ).loc main_arg2)) (m ((c.tc : Thread nD τ).loc main_arg3)) ![2, 0, 0] slices_S4x96x256_S1x96x256_2_0_0 ![2, 0] slices_S4x256_S1x256_2_0 :=
  fourth_hidden2 _ _ _ _ (w2_feat2 m c) ((third_main_arg2 _).trans ((second_main_arg2 _).trans (first_main_arg2 m c))) ((third_main_arg3 _).trans ((second_main_arg3 _).trans (first_main_arg3 m c)))

theorem w2_feat3 : ((after (opsC1a (F := Ideal)) (after (opsB (F := Ideal)) (after (opsA (F := Ideal)) (launchContents m c)))) (Proc.devRef .tc main_v77) : S50000x96.Idx → EReal) = feat3 (F := Ideal) (m ((c.tc : Thread nD τ).loc main_arg0)) (m ((c.tc : Thread nD τ).loc main_arg1)) :=
  third_feat3 _ _ _ ((second_main_v5 _).trans (first_src m c)) ((second_main_v6 _).trans (first_dst m c)) ((second_main_v10 _).trans (first_wgt m c))
    (w1_dinv m c) ((second_main_arg1 _).trans (first_main_arg1 m c))

theorem w3_hidden3 : ((after (opsC1b (F := Ideal)) (after (opsC1a (F := Ideal)) (after (opsB (F := Ideal)) (after (opsA (F := Ideal)) (launchContents m c))))) (Proc.devRef .tc main_v113) : S50000x256.Idx → EReal) = hidden (F := Ideal) (feat3 (F := Ideal) (m ((c.tc : Thread nD τ).loc main_arg0)) (m ((c.tc : Thread nD τ).loc main_arg1))) (m ((c.tc : Thread nD τ).loc main_arg2)) (m ((c.tc : Thread nD τ).loc main_arg3)) ![3, 0, 0] slices_S4x96x256_S1x96x256_3_0_0 ![3, 0] slices_S4x256_S1x256_3_0 :=
  fourth_hidden3 _ _ _ _ (w2_feat3 m c) ((third_main_arg2 _).trans ((second_main_arg2 _).trans (first_main_arg2 m c))) ((third_main_arg3 _).trans ((second_main_arg3 _).trans (first_main_arg3 m c)))

/-- The result buffer after the whole line. -/
theorem after_result :
    (after (ops (F := Ideal)) (launchContents m c) (Proc.devRef .tc main_v119) : S50000x256.Idx → EReal)
      = result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, Cert.LibAfterAppend.after_append, Cert.LibAfterAppend.after_append, Cert.LibAfterAppend.after_append,
    Cert.LibAfterAppend.after_append]
  exact last_result _ _ _ _ _ _ _ (w3_hidden0 m c) (w3_hidden1 m c) (w3_hidden2 m c) (w3_hidden3 m c)
    ((fourth_main_arg4 _).trans ((third_main_arg4 _).trans ((second_main_arg4 _).trans (first_main_arg4 m c))))
    ((fourth_main_arg5 _).trans ((third_main_arg5 _).trans ((second_main_arg5 _).trans (first_main_arg5 m c))))

/-- The line leaves `main_arg0` as launched. -/
theorem after_main_arg0 : after (ops (F := Ideal)) (launchContents m c) (Proc.devRef .tc main_arg0) = m ((c.tc : Thread nD τ).loc main_arg0) := by
  rw [ops_split, Cert.LibAfterAppend.after_append, Cert.LibAfterAppend.after_append, Cert.LibAfterAppend.after_append,
    Cert.LibAfterAppend.after_append, last_main_arg0, fourth_main_arg0, third_main_arg0, second_main_arg0]
  exact first_main_arg0 m c

/-- The line leaves `main_arg1` as launched. -/
theorem after_main_arg1 : after (ops (F := Ideal)) (launchContents m c) (Proc.devRef .tc main_arg1) = m ((c.tc : Thread nD τ).loc main_arg1) := by
  rw [ops_split, Cert.LibAfterAppend.after_append, Cert.LibAfterAppend.after_append, Cert.LibAfterAppend.after_append,
    Cert.LibAfterAppend.after_append, last_main_arg1, fourth_main_arg1, third_main_arg1, second_main_arg1]
  exact first_main_arg1 m c

/-- The line leaves `main_arg2` as launched. -/
theorem after_main_arg2 : after (ops (F := Ideal)) (launchContents m c) (Proc.devRef .tc main_arg2) = m ((c.tc : Thread nD τ).loc main_arg2) := by
  rw [ops_split, Cert.LibAfterAppend.after_append, Cert.LibAfterAppend.after_append, Cert.LibAfterAppend.after_append,
    Cert.LibAfterAppend.after_append, last_main_arg2, fourth_main_arg2, third_main_arg2, second_main_arg2]
  exact first_main_arg2 m c

/-- The line leaves `main_arg3` as launched. -/
theorem after_main_arg3 : after (ops (F := Ideal)) (launchContents m c) (Proc.devRef .tc main_arg3) = m ((c.tc : Thread nD τ).loc main_arg3) := by
  rw [ops_split, Cert.LibAfterAppend.after_append, Cert.LibAfterAppend.after_append, Cert.LibAfterAppend.after_append,
    Cert.LibAfterAppend.after_append, last_main_arg3, fourth_main_arg3, third_main_arg3, second_main_arg3]
  exact first_main_arg3 m c

/-- The line leaves `main_arg4` as launched. -/
theorem after_main_arg4 : after (ops (F := Ideal)) (launchContents m c) (Proc.devRef .tc main_arg4) = m ((c.tc : Thread nD τ).loc main_arg4) := by
  rw [ops_split, Cert.LibAfterAppend.after_append, Cert.LibAfterAppend.after_append, Cert.LibAfterAppend.after_append,
    Cert.LibAfterAppend.after_append, last_main_arg4, fourth_main_arg4, third_main_arg4, second_main_arg4]
  exact first_main_arg4 m c

/-- The line leaves `main_arg5` as launched. -/
theorem after_main_arg5 : after (ops (F := Ideal)) (launchContents m c) (Proc.devRef .tc main_arg5) = m ((c.tc : Thread nD τ).loc main_arg5) := by
  rw [ops_split, Cert.LibAfterAppend.after_append, Cert.LibAfterAppend.after_append, Cert.LibAfterAppend.after_append,
    Cert.LibAfterAppend.after_append, last_main_arg5, fourth_main_arg5, third_main_arg5, second_main_arg5]
  exact first_main_arg5 m c

end Read

/-- On every device, from any memory with zero counters: every weakly fair execution of @main terminates with the
    result buffer at `result` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v119) = result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v119).trans (after_result m c),
      (h c main_arg0).trans (after_main_arg0 m c), (h c main_arg1).trans (after_main_arg1 m c),
      (h c main_arg2).trans (after_main_arg2 m c), (h c main_arg3).trans (after_main_arg3 m c),
      (h c main_arg4).trans (after_main_arg4 m c), (h c main_arg5).trans (after_main_arg5 m c)⟩)
    (run_seq scopedRefs_eq scopedSems_eq defs main (fun _ => ops) main_eq (fun _ => ops_sub) m ρ)

end Cert.RefRun

end
-- ==== Proof.RefValue.lean ====
/-
  The reference's result, entry by entry, is the dense stage's output function of the four hop feature arrays.

  Entry `(n, j)` of the last matrix product is the sum over the 1024 columns `u` of the concatenated hidden layers of
  `cat n u · Wf u j`; column `256 h + k` of the concatenation is unit `k` of hop `h`'s hidden layer, and unit `k` of
  hop `h` at node `n` is `hidRow` of the node's row of the hop's features. Taking the sum quarter by quarter
  (`Cert.Dense.sum_quarters`) gives the four hops' parts.
-/
import proofs.«146148_j87600152969918_2_alg».proof.Proof.RefRun
import proofs.«146148_j87600152969918_2_alg».proof.Proof.Spec
import Idealize.ShloMosaic.Lib.StackMember
import Idealize.ShloMosaic.Lib.ValueLayout
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.Gen Cert.RefStages Cert.RefRun Idealize.ShloMosaic Idealize.ShloMosaic.ValueIdx

/-- One row broadcast down all nodes, read at an entry. -/
theorem bcastRows_apply (v : (⟨S1x256, .f32⟩ : BufTy).Contents (Elt Ideal)) (n : Fin 50000) (k : Fin 256) :
    broadcastInDim S50000x256 ![0, 1] bcast_S1x256_S50000x256_0_1 v (ix2 n k) = v (ix2 (0 : Fin 1) k) :=
  broadcastInDim_apply _ bcast_S1x256_S50000x256_0_1 v (ix2 n k) (ix2 (0 : Fin 1) k) (fun a => match a with
    | ⟨0, _⟩ => by show 0 = if (1 : Nat) = 1 then 0 else n.val; rw [if_pos rfl]
    | ⟨1, _⟩ => by show k.val = if (256 : Nat) = 1 then 0 else k.val; rw [if_neg (by decide)])

/-- A vector as one row, read at an entry. -/
theorem bcastRow_apply (v : (⟨S256, .f32⟩ : BufTy).Contents (Elt Ideal)) (u : Fin 1) (k : Fin 256) :
    broadcastInDim S1x256 ![1] bcast_S256_S1x256_1 v (ix2 u k) = v (ix1 k) :=
  broadcastInDim_apply _ bcast_S256_S1x256_1 v (ix2 u k) (ix1 k) (fun a => match a with
    | ⟨0, _⟩ => by show k.val = if (256 : Nat) = 1 then 0 else k.val; rw [if_neg (by decide)])

/-- The zero array the rectifier compares with. -/
theorem zeros_apply (i : S50000x256.Idx) :
    broadcastInDim S50000x256 ![] bcast_S_S50000x256 (constant (F := Ideal) S_ .f32 0x00000000#32) i = (0 : EReal) := by
  rw [broadcastInDim_scalar_apply, constant_apply]
  exact Ideal.ofBits_zero_f32

/-- A hop's projection: features times a 96 × 256 matrix, entry `(n, k)`. -/
theorem proj_apply (H : FVec Ideal S50000x96 .f32) (W : FVec Ideal S96x256 .f32) (n : Fin 50000) (k : Fin 256) :
    (Host.dotGeneral (F := Ideal) (φ₁ := .f32) (φ₂ := .f32) dot_S50000x96_S96x256_S50000x256_1_0_0_1_n_n none H W (ix2 n k) : EReal) = ∑ l : Fin 96, (H (ix2 n l) : EReal) * (W (ix2 l k) : EReal) :=
  StackMember.dotGeneral_plain_apply none H W n k

/-- The fusion product: the concatenated hidden layers times the fusion weights, entry `(n, j)`. -/
theorem fusion_apply (C : FVec Ideal S50000x1024 .f32) (W : FVec Ideal S1024x256 .f32) (n : Fin 50000) (j : Fin 256) :
    (Host.dotGeneral (F := Ideal) (φ₁ := .f32) (φ₂ := .f32) dot_S50000x1024_S1024x256_S50000x256_1_0_0_1_n_n none C W (ix2 n j) : EReal) = ∑ u : Fin 1024, (C (ix2 n u) : EReal) * (W (ix2 u j) : EReal) :=
  StackMember.dotGeneral_plain_apply none C W n j

/-- Hop 0's hidden layer at node `n`, unit `k`. -/
theorem hidden0_apply (H : (⟨S50000x96, .f32⟩ : BufTy).Contents (Elt Ideal)) (x2 : (⟨S4x96x256, .f32⟩ : BufTy).Contents (Elt Ideal)) (x3 : (⟨S4x256, .f32⟩ : BufTy).Contents (Elt Ideal)) (n : Fin 50000) (k : Fin 256) :
    Cert.RefRun.hidden (F := Ideal) H x2 x3 ![0, 0, 0] slices_S4x96x256_S1x96x256_0_0_0 ![0, 0] slices_S4x256_S1x256_0_0 (ix2 n k)
      = Cert.Dense.hidRow (fun l => H (ix2 n l)) x2 x3 0 k := by
  unfold Cert.RefRun.hidden Cert.Dense.hidRow
  rw [maximumf_apply, addf_apply, zeros_apply, bcastRows_apply, bcastRow_apply, shapeCast_1a_a_apply, proj_apply]
  have hb : extractStridedSlice S1x256 ![0, 0] x3 slices_S4x256_S1x256_0_0 (ix2 (0 : Fin 1) k) = x3 (ix2 (0 : Fin 4) k) :=
    extractStridedSlice_apply ![0, 0] x3 slices_S4x256_S1x256_0_0 _ _ (fun a => match a with
      | ⟨0, _⟩ => by show 0 = 0 + 0; omega
      | ⟨1, _⟩ => by show k.val = 0 + k.val; omega)
  rw [hb]
  refine congrArg (fun s => max (s + x3 (ix2 (0 : Fin 4) k)) 0) (Finset.sum_congr rfl fun l _ => ?_)
  refine congrArg (fun s => H (ix2 n l) * s) ?_
  rw [shapeCast_1ab_ab_apply]
  exact extractStridedSlice_apply ![0, 0, 0] x2 slices_S4x96x256_S1x96x256_0_0_0 _ _ (fun a => match a with
    | ⟨0, _⟩ => by show 0 = 0 + 0; omega
    | ⟨1, _⟩ => by show l.val = 0 + l.val; omega
    | ⟨2, _⟩ => by show k.val = 0 + k.val; omega)

/-- Hop 1's hidden layer at node `n`, unit `k`. -/
theorem hidden1_apply (H : (⟨S50000x96, .f32⟩ : BufTy).Contents (Elt Ideal)) (x2 : (⟨S4x96x256, .f32⟩ : BufTy).Contents (Elt Ideal)) (x3 : (⟨S4x256, .f32⟩ : BufTy).Contents (Elt Ideal)) (n : Fin 50000) (k : Fin 256) :
    Cert.RefRun.hidden (F := Ideal) H x2 x3 ![1, 0, 0] slices_S4x96x256_S1x96x256_1_0_0 ![1, 0] slices_S4x256_S1x256_1_0 (ix2 n k)
      = Cert.Dense.hidRow (fun l => H (ix2 n l)) x2 x3 1 k := by
  unfold Cert.RefRun.hidden Cert.Dense.hidRow
  rw [maximumf_apply, addf_apply, zeros_apply, bcastRows_apply, bcastRow_apply, shapeCast_1a_a_apply, proj_apply]
  have hb : extractStridedSlice S1x256 ![1, 0] x3 slices_S4x256_S1x256_1_0 (ix2 (0 : Fin 1) k) = x3 (ix2 (1 : Fin 4) k) :=
    extractStridedSlice_apply ![1, 0] x3 slices_S4x256_S1x256_1_0 _ _ (fun a => match a with
      | ⟨0, _⟩ => by show 1 = 1 + 0; omega
      | ⟨1, _⟩ => by show k.val = 0 + k.val; omega)
  rw [hb]
  refine congrArg (fun s => max (s + x3 (ix2 (1 : Fin 4) k)) 0) (Finset.sum_congr rfl fun l _ => ?_)
  refine congrArg (fun s => H (ix2 n l) * s) ?_
  rw [shapeCast_1ab_ab_apply]
  exact extractStridedSlice_apply ![1, 0, 0] x2 slices_S4x96x256_S1x96x256_1_0_0 _ _ (fun a => match a with
    | ⟨0, _⟩ => by show 1 = 1 + 0; omega
    | ⟨1, _⟩ => by show l.val = 0 + l.val; omega
    | ⟨2, _⟩ => by show k.val = 0 + k.val; omega)

/-- Hop 2's hidden layer at node `n`, unit `k`. -/
theorem hidden2_apply (H : (⟨S50000x96, .f32⟩ : BufTy).Contents (Elt Ideal)) (x2 : (⟨S4x96x256, .f32⟩ : BufTy).Contents (Elt Ideal)) (x3 : (⟨S4x256, .f32⟩ : BufTy).Contents (Elt Ideal)) (n : Fin 50000) (k : Fin 256) :
    Cert.RefRun.hidden (F := Ideal) H x2 x3 ![2, 0, 0] slices_S4x96x256_S1x96x256_2_0_0 ![2, 0] slices_S4x256_S1x256_2_0 (ix2 n k)
      = Cert.Dense.hidRow (fun l => H (ix2 n l)) x2 x3 2 k := by
  unfold Cert.RefRun.hidden Cert.Dense.hidRow
  rw [maximumf_apply, addf_apply, zeros_apply, bcastRows_apply, bcastRow_apply, shapeCast_1a_a_apply, proj_apply]
  have hb : extractStridedSlice S1x256 ![2, 0] x3 slices_S4x256_S1x256_2_0 (ix2 (0 : Fin 1) k) = x3 (ix2 (2 : Fin 4) k) :=
    extractStridedSlice_apply ![2, 0] x3 slices_S4x256_S1x256_2_0 _ _ (fun a => match a with
      | ⟨0, _⟩ => by show 2 = 2 + 0; omega
      | ⟨1, _⟩ => by show k.val = 0 + k.val; omega)
  rw [hb]
  refine congrArg (fun s => max (s + x3 (ix2 (2 : Fin 4) k)) 0) (Finset.sum_congr rfl fun l _ => ?_)
  refine congrArg (fun s => H (ix2 n l) * s) ?_
  rw [shapeCast_1ab_ab_apply]
  exact extractStridedSlice_apply ![2, 0, 0] x2 slices_S4x96x256_S1x96x256_2_0_0 _ _ (fun a => match a with
    | ⟨0, _⟩ => by show 2 = 2 + 0; omega
    | ⟨1, _⟩ => by show l.val = 0 + l.val; omega
    | ⟨2, _⟩ => by show k.val = 0 + k.val; omega)

/-- Hop 3's hidden layer at node `n`, unit `k`. -/
theorem hidden3_apply (H : (⟨S50000x96, .f32⟩ : BufTy).Contents (Elt Ideal)) (x2 : (⟨S4x96x256, .f32⟩ : BufTy).Contents (Elt Ideal)) (x3 : (⟨S4x256, .f32⟩ : BufTy).Contents (Elt Ideal)) (n : Fin 50000) (k : Fin 256) :
    Cert.RefRun.hidden (F := Ideal) H x2 x3 ![3, 0, 0] slices_S4x96x256_S1x96x256_3_0_0 ![3, 0] slices_S4x256_S1x256_3_0 (ix2 n k)
      = Cert.Dense.hidRow (fun l => H (ix2 n l)) x2 x3 3 k := by
  unfold Cert.RefRun.hidden Cert.Dense.hidRow
  rw [maximumf_apply, addf_apply, zeros_apply, bcastRows_apply, bcastRow_apply, shapeCast_1a_a_apply, proj_apply]
  have hb : extractStridedSlice S1x256 ![3, 0] x3 slices_S4x256_S1x256_3_0 (ix2 (0 : Fin 1) k) = x3 (ix2 (3 : Fin 4) k) :=
    extractStridedSlice_apply ![3, 0] x3 slices_S4x256_S1x256_3_0 _ _ (fun a => match a with
      | ⟨0, _⟩ => by show 3 = 3 + 0; omega
      | ⟨1, _⟩ => by show k.val = 0 + k.val; omega)
  rw [hb]
  refine congrArg (fun s => max (s + x3 (ix2 (3 : Fin 4) k)) 0) (Finset.sum_congr rfl fun l _ => ?_)
  refine congrArg (fun s => H (ix2 n l) * s) ?_
  rw [shapeCast_1ab_ab_apply]
  exact extractStridedSlice_apply ![3, 0, 0] x2 slices_S4x96x256_S1x96x256_3_0_0 _ _ (fun a => match a with
    | ⟨0, _⟩ => by show 3 = 3 + 0; omega
    | ⟨1, _⟩ => by show l.val = 0 + l.val; omega
    | ⟨2, _⟩ => by show k.val = 0 + k.val; omega)

/-- Columns `0 … 255` of the concatenation are hop 0's hidden layer. -/
theorem cat0_apply (x0 : (⟨S2x800000, .i32⟩ : BufTy).Contents (Elt Ideal)) (x1 : (⟨S50000x96, .f32⟩ : BufTy).Contents (Elt Ideal)) (x2 : (⟨S4x96x256, .f32⟩ : BufTy).Contents (Elt Ideal)) (x3 : (⟨S4x256, .f32⟩ : BufTy).Contents (Elt Ideal))
    (n : Fin 50000) (k : Fin 256) :
    hiddenCat (F := Ideal) x0 x1 x2 x3 (ix2 n (Cert.Dense.wfRow 0 k))
      = Cert.RefRun.hidden (F := Ideal) (feat0 (F := Ideal) x1) x2 x3 ![0, 0, 0] slices_S4x96x256_S1x96x256_0_0_0 ![0, 0] slices_S4x256_S1x256_0_0 (ix2 n k) := by
  unfold hiddenCat
  refine concatenate_apply_piece (t := S50000x1024) 1 _ _ (ix2 n (Cert.Dense.wfRow 0 k)) 0 (by show (0 : Nat) < 4; omega) S50000x256 _ rfl rfl 0 (by rfl)
    (ix2 n k) (fun b hb => ?_) ?_
  · match b with
    | ⟨0, _⟩ => rfl
    | ⟨1, _⟩ => exact absurd rfl hb
  · show 0 + k.val = 256 * 0 + k.val
    omega

/-- Columns `256 … 511` of the concatenation are hop 1's hidden layer. -/
theorem cat1_apply (x0 : (⟨S2x800000, .i32⟩ : BufTy).Contents (Elt Ideal)) (x1 : (⟨S50000x96, .f32⟩ : BufTy).Contents (Elt Ideal)) (x2 : (⟨S4x96x256, .f32⟩ : BufTy).Contents (Elt Ideal)) (x3 : (⟨S4x256, .f32⟩ : BufTy).Contents (Elt Ideal))
    (n : Fin 50000) (k : Fin 256) :
    hiddenCat (F := Ideal) x0 x1 x2 x3 (ix2 n (Cert.Dense.wfRow 1 k))
      = Cert.RefRun.hidden (F := Ideal) (feat1 (F := Ideal) x0 x1) x2 x3 ![1, 0, 0] slices_S4x96x256_S1x96x256_1_0_0 ![1, 0] slices_S4x256_S1x256_1_0 (ix2 n k) := by
  unfold hiddenCat
  refine concatenate_apply_piece (t := S50000x1024) 1 _ _ (ix2 n (Cert.Dense.wfRow 1 k)) 1 (by show (1 : Nat) < 4; omega) S50000x256 _ rfl rfl 256 (by rfl)
    (ix2 n k) (fun b hb => ?_) ?_
  · match b with
    | ⟨0, _⟩ => rfl
    | ⟨1, _⟩ => exact absurd rfl hb
  · show 256 + k.val = 256 * 1 + k.val
    omega

/-- Columns `512 … 767` of the concatenation are hop 2's hidden layer. -/
theorem cat2_apply (x0 : (⟨S2x800000, .i32⟩ : BufTy).Contents (Elt Ideal)) (x1 : (⟨S50000x96, .f32⟩ : BufTy).Contents (Elt Ideal)) (x2 : (⟨S4x96x256, .f32⟩ : BufTy).Contents (Elt Ideal)) (x3 : (⟨S4x256, .f32⟩ : BufTy).Contents (Elt Ideal))
    (n : Fin 50000) (k : Fin 256) :
    hiddenCat (F := Ideal) x0 x1 x2 x3 (ix2 n (Cert.Dense.wfRow 2 k))
      = Cert.RefRun.hidden (F := Ideal) (feat2 (F := Ideal) x0 x1) x2 x3 ![2, 0, 0] slices_S4x96x256_S1x96x256_2_0_0 ![2, 0] slices_S4x256_S1x256_2_0 (ix2 n k) := by
  unfold hiddenCat
  refine concatenate_apply_piece (t := S50000x1024) 1 _ _ (ix2 n (Cert.Dense.wfRow 2 k)) 2 (by show (2 : Nat) < 4; omega) S50000x256 _ rfl rfl 512 (by rfl)
    (ix2 n k) (fun b hb => ?_) ?_
  · match b with
    | ⟨0, _⟩ => rfl
    | ⟨1, _⟩ => exact absurd rfl hb
  · show 512 + k.val = 256 * 2 + k.val
    omega

/-- Columns `768 … 1023` of the concatenation are hop 3's hidden layer. -/
theorem cat3_apply (x0 : (⟨S2x800000, .i32⟩ : BufTy).Contents (Elt Ideal)) (x1 : (⟨S50000x96, .f32⟩ : BufTy).Contents (Elt Ideal)) (x2 : (⟨S4x96x256, .f32⟩ : BufTy).Contents (Elt Ideal)) (x3 : (⟨S4x256, .f32⟩ : BufTy).Contents (Elt Ideal))
    (n : Fin 50000) (k : Fin 256) :
    hiddenCat (F := Ideal) x0 x1 x2 x3 (ix2 n (Cert.Dense.wfRow 3 k))
      = Cert.RefRun.hidden (F := Ideal) (feat3 (F := Ideal) x0 x1) x2 x3 ![3, 0, 0] slices_S4x96x256_S1x96x256_3_0_0 ![3, 0] slices_S4x256_S1x256_3_0 (ix2 n k) := by
  unfold hiddenCat
  refine concatenate_apply_piece (t := S50000x1024) 1 _ _ (ix2 n (Cert.Dense.wfRow 3 k)) 3 (by show (3 : Nat) < 4; omega) S50000x256 _ rfl rfl 768 (by rfl)
    (ix2 n k) (fun b hb => ?_) ?_
  · match b with
    | ⟨0, _⟩ => rfl
    | ⟨1, _⟩ => exact absurd rfl hb
  · show 768 + k.val = 256 * 3 + k.val
    omega

/-- The reference's result is the dense stage's output of the four hop feature arrays. -/
theorem result_eq (x0 : (⟨S2x800000, .i32⟩ : BufTy).Contents (Elt Ideal)) (x1 : (⟨S50000x96, .f32⟩ : BufTy).Contents (Elt Ideal)) (x2 : (⟨S4x96x256, .f32⟩ : BufTy).Contents (Elt Ideal)) (x3 : (⟨S4x256, .f32⟩ : BufTy).Contents (Elt Ideal))
    (x4 : (⟨S1024x256, .f32⟩ : BufTy).Contents (Elt Ideal)) (x5 : (⟨S256, .f32⟩ : BufTy).Contents (Elt Ideal)) :
    result (F := Ideal) x0 x1 x2 x3 x4 x5
      = Cert.Dense.out (feat0 (F := Ideal) x1) (feat1 (F := Ideal) x0 x1) (feat2 (F := Ideal) x0 x1) (feat3 (F := Ideal) x0 x1) x2 x3 x4 x5 := by
  funext i
  obtain ⟨n, j, rfl⟩ : ∃ (n : Fin 50000) (j : Fin 256), i = ix2 n j := ⟨i 0, i 1, eq_ix2 i⟩
  unfold result
  rw [maximumf_apply, addf_apply, zeros_apply, bcastRows_apply, bcastRow_apply, fusion_apply, Cert.Dense.sum_quarters]
  simp only [cat0_apply, cat1_apply, cat2_apply, cat3_apply, hidden0_apply, hidden1_apply, hidden2_apply, hidden3_apply]
  rfl

end Cert.RefValue

end
-- ==== Proof.lean ====
/-
  The certificate's claims for the fused four-hop network kernel against its jnp reference, at the ideal values.

  Both programs compute the same graph stage with the same host operations: from the edge list the normalized weight of
  every edge and self-loop, from the features their row-normalized form, and three propagation steps; this gives four
  hop feature arrays `H0 … H3` of 50000 rows of 96 features. They differ in the dense stage. The reference applies each
  hop's rectified affine layer `max (H_h · Ws_h + bs_h) 0`, lays the four results side by side (1024 columns),
  multiplies by the 1024 × 256 fusion weights, adds the fusion bias and rectifies. The kernel does the same in 25
  launches of 2000 rows each, without forming the 1024 columns: it multiplies each hop's hidden layer by that hop's 256
  rows of the fusion weights and adds the four products. The two agree because a sum over the 1024 rows of the fusion
  weights is the sum of the four sums over its quarters, addition of extended reals being commutative and
  associative; the changes of float format in the kernel are the identity at the ideal values, and its matrix products
  into a zero accumulator are plain sums of products. No input needs to be finite for this.

  The frames of the two kernel programs are the generated ones; the reference's frame is its run with the result
  dropped. The idealization rewrote no operation, so `preserves` has nothing to state.
-/
import proofs.«146148_j87600152969918_2_alg».proof.Defs
import proofs.«146148_j87600152969918_2_alg».proof.Proof.Gen.Kernel
import proofs.«146148_j87600152969918_2_alg».proof.Proof.Gen.Kernel.Skeleton
import proofs.«146148_j87600152969918_2_alg».proof.Proof.Gen.Kernel.Launch
import proofs.«146148_j87600152969918_2_alg».proof.Proof.Gen.Kernel.Points
import proofs.«146148_j87600152969918_2_alg».proof.Proof.Gen.Kernel.Frame
import proofs.«146148_j87600152969918_2_alg».proof.Proof.Gen.KernelIdeal
import proofs.«146148_j87600152969918_2_alg».proof.Proof.Gen.KernelIdeal.Skeleton
import proofs.«146148_j87600152969918_2_alg».proof.Proof.Gen.KernelIdeal.Launch
import proofs.«146148_j87600152969918_2_alg».proof.Proof.Gen.KernelIdeal.Points
import proofs.«146148_j87600152969918_2_alg».proof.Proof.Gen.KernelIdeal.Frame
import proofs.«146148_j87600152969918_2_alg».proof.Proof.Gen.ReferenceIdeal
import proofs.«146148_j87600152969918_2_alg».proof.Proof.Gen.KernelIdeal.Value
import proofs.«146148_j87600152969918_2_alg».proof.Proof.Gen.Pre_finite_inputs
import proofs.«146148_j87600152969918_2_alg».proof.Proof.KernelValue
import proofs.«146148_j87600152969918_2_alg».proof.Proof.RefRun
import proofs.«146148_j87600152969918_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.RefRun.run m ρ)

/-- The idealization rewrote nothing. -/
theorem preserves : Cert.preserves_Kernel_KernelIdeal := trivial

/-- From memories that agree on the six arguments both programs end with the dense stage's output of the graph stage's
    four hop feature arrays: the kernel block by block (`Cert.KernelValue.run`), the reference as its operations compose
    (`Cert.RefRun.run`, read entry by entry in `Cert.RefValue.result_eq`). -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.RefRun.run m' ρ')
  obtain ⟨h0, h1, h2, h3, h4, h5⟩ := hagree c
  rw [Cert.RefValue.result_eq, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
